-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x64 .f32) (main_arg13 : FVec F S64 .f32) (main_arg14 : FVec F S64x128 .f32) (main_arg15 : FVec F S128 .f32) (main_arg16 : FVec F S128 .f32) (main_arg17 : FVec F S128 .f32) (main_arg18 : FVec F S128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg15 main_arg16 main_arg17 main_arg18 main_arg19 main_v63 main_v67

def fn_part2 {F : FTy → Type} [FloatOps F] (main_arg8 : FVec F S128x64 .f32) (main_arg9 : FVec F S64 .f32) (main_arg10 : FVec F S64x128 .f32) (main_arg11 : FVec F S128 .f32) (main_arg12 : FVec F S128x64 .f32) (main_arg13 : FVec F S64 .f32) (main_arg14 : FVec F S64x128 .f32) (main_arg15 : FVec F S128 .f32) (main_arg16 : FVec F S128 .f32) (main_arg17 : FVec F S128 .f32) (main_arg18 : FVec F S128 .f32) (main_arg19 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S64x128 .f32) (main_arg11 : FVec F S128 .f32) (main_arg12 : FVec F S128x64 .f32) (main_arg13 : FVec F S64 .f32) (main_arg14 : FVec F S64x128 .f32) (main_arg15 : FVec F S128 .f32) (main_arg16 : FVec F S128 .f32) (main_arg17 : FVec F S128 .f32) (main_arg18 : FVec F S128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S64x128 .f32) (main_arg11 : FVec F S128 .f32) (main_arg12 : FVec F S128x64 .f32) (main_arg13 : FVec F S64 .f32) (main_arg14 : FVec F S64x128 .f32) (main_arg15 : FVec F S128 .f32) (main_arg16 : FVec F S128 .f32) (main_arg17 : FVec F S128 .f32) (main_arg18 : FVec F S128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S5000x64 : Shape := ⟨2, ![5000, 64]⟩

abbrev nBuf : Space → Nat
  | .hbm => 125
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S1x64, .f32⟩
  | .hbm, ⟨56, _⟩ => ⟨S1x128, .f32⟩
  | .hbm, ⟨57, _⟩ => ⟨S100000x128, .bf16⟩
  | .hbm, ⟨58, _⟩ => ⟨S100000x128, .bf16⟩
  | .hbm, ⟨59, _⟩ => ⟨S100000x128, .f32⟩
  | .hbm, ⟨60, _⟩ => ⟨S_, .f32⟩
  | .hbm, ⟨61, _⟩ => ⟨S128, .f32⟩
  | .hbm, ⟨62, _⟩ => ⟨S100000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S100000x128, .bf16⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .bf16⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S1x64, .f32⟩
  | .hbm, ⟨100, _⟩ => ⟨S1x128, .f32⟩
  | .hbm, ⟨101, _⟩ => ⟨S100000x128, .bf16⟩
  | .hbm, ⟨102, _⟩ => ⟨S100000x128, .bf16⟩
  | .hbm, ⟨103, _⟩ => ⟨S100000x128, .f32⟩
  | .hbm, ⟨104, _⟩ => ⟨S_, .f32⟩
  | .hbm, ⟨105, _⟩ => ⟨S128, .f32⟩
  | .hbm, ⟨106, _⟩ => ⟨S100000x128, .f32⟩
  | .hbm, ⟨107, _⟩ => ⟨S_, .f32⟩
  | .hbm, ⟨108, _⟩ => ⟨S128, .f32⟩
  | .hbm, ⟨109, _⟩ => ⟨S_, .f32⟩
  | .hbm, ⟨110, _⟩ => ⟨S128, .f32⟩
  | .hbm, ⟨111, _⟩ => ⟨S128, .f32⟩
  | .hbm, ⟨112, _⟩ => ⟨S_, .f32⟩
  | .hbm, ⟨113, _⟩ => ⟨S128, .f32⟩
  | .hbm, ⟨114, _⟩ => ⟨S128, .f32⟩
  | .hbm, ⟨115, _⟩ => ⟨S128, .f32⟩
  | .hbm, ⟨116, _⟩ => ⟨S128, .f32⟩
  | .hbm, ⟨117, _⟩ => ⟨S_, .f32⟩
  | .hbm, ⟨118, _⟩ => ⟨S128, .f32⟩
  | .hbm, ⟨119, _⟩ => ⟨S128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x64, .f32⟩
  | .local _ .vmem, ⟨8, _⟩ => ⟨S1x64, .f32⟩
  | .local _ .vmem, ⟨9, _⟩ => ⟨S64x128, .f32⟩
  | .local _ .vmem, ⟨10, _⟩ => ⟨S1x128, .f32⟩
  | .local _ .vmem, ⟨11, _⟩ => ⟨S5000x128, .bf16⟩
  | .local _ .vmem, ⟨12, _⟩ => ⟨S5000x128, .bf16⟩
  | .local _ .vmem, ⟨13, _⟩ => ⟨S5000x128, .bf16⟩
  | .local _ .vmem, ⟨14, _⟩ => ⟨S5000x128, .bf16⟩
  | .local _ .vmem, ⟨15, _⟩ => ⟨S5000x128, .bf16⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .bf16⟩
  | .local _ .vmem, ⟨24, _⟩ => ⟨S5000x128, .bf16⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S128x64, .f32⟩
  | .local _ .vmem, ⟨33, _⟩ => ⟨S1x64, .f32⟩
  | .local _ .vmem, ⟨34, _⟩ => ⟨S64x128, .f32⟩
  | .local _ .vmem, ⟨35, _⟩ => ⟨S1x128, .f32⟩
  | .local _ .vmem, ⟨36, _⟩ => ⟨S5000x128, .bf16⟩
  | .local _ .vmem, ⟨37, _⟩ => ⟨S5000x128, .bf16⟩
  | .local _ .vmem, ⟨38, _⟩ => ⟨S5000x128, .bf16⟩
  | .local _ .vmem, ⟨39, _⟩ => ⟨S5000x128, .bf16⟩
  | .local _ .vmem, ⟨40, _⟩ => ⟨S5000x128, .bf16⟩
  | .local _ .vmem, ⟨41, _⟩ => ⟨S5000x128, .bf16⟩
  | .local _ .vmem, ⟨42, _⟩ => ⟨S5000x128, .bf16⟩
  | .local _ .vmem, ⟨43, _⟩ => ⟨S5000x128, .bf16⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65_0 : Ref sig .tc := ⟨.hbm, 101, rfl⟩
abbrev main_v65_1 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_v68 : Ref sig .tc := ⟨.hbm, 106, rfl⟩
abbrev main_cst_14 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_17 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc2_stg10_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc2_sem10_0 : DmaSem sig := 38
abbrev cc2_sem10_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem6_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  packedbf16_S5000x128_S5000x128_0_0 : (Rect.unit (s := S5000x128) ![0, 0] S5000x128.size inb_S5000x128_S5000x128_0_0).PackedRows (EltTy.packing .bf16)
  reducesTo_S100000x128_S128_d0 : S100000x128.ReducesTo [0] S128
  h_S_ : 0 < S_.numel
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .bf16 = 32 ∨ (Rect.block (s := S100000x128) S5000x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .bf16 = 32 ∨ (Rect.block (s := S100000x128) S5000x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S64x128.size a
  hwx2_7 : ∀ i : grid2.Coords, EltTy.bits .f32 = 32 ∨ (Rect.block (s := S64x128) S64x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .bf16 = 32 ∨ (Rect.block (s := S100000x128) S5000x128.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .bf16 = 32 ∨ (Rect.block (s := S100000x128) S5000x128.size (cc2_transform_10 i) (hinb2_10 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .bf16 = 32 ∨ (Rect.block (s := S100000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .bf16 = 32 ∨ (Rect.block (s := S100000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30_1) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v30_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S64x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65_0) S5000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v65_1) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v65_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x64, .f32⟩
  | 9 => ⟨S64, .f32⟩
  | 10 => ⟨S64x128, .f32⟩
  | 11 => ⟨S128, .f32⟩
  | 12 => ⟨S128x64, .f32⟩
  | 13 => ⟨S64, .f32⟩
  | 14 => ⟨S64x128, .f32⟩
  | 15 => ⟨S128, .f32⟩
  | 16 => ⟨S128, .f32⟩
  | 17 => ⟨S128, .f32⟩
  | 18 => ⟨S128, .f32⟩
  | 19 => ⟨S128, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S1600000, .f32⟩
  | 115 => ⟨S_, .f32⟩
  | 116 => ⟨S100000, .f32⟩
  | 117 => ⟨S1600000x1, .i32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S100000x128, .f32⟩
  | 47 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call0_cst : Ref sig .tc := ⟨.hbm, 89, rfl⟩
abbrev main_call0_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_cst : Ref sig .tc := ⟨.hbm, 97, rfl⟩
abbrev main_call1_v0 : Ref sig .tc := ⟨.hbm, 98, rfl⟩
abbrev main_v64 : Ref sig .tc := ⟨.hbm, 99, rfl⟩
abbrev main_c_9 : Ref sig .tc := ⟨.hbm, 100, rfl⟩
abbrev main_v65 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_11 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_12 : Ref sig .tc := ⟨.hbm, 113, rfl⟩
abbrev main_v75 : Ref sig .tc := ⟨.hbm, 114, rfl⟩
abbrev main_cst_13 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_14 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_cst_16 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_17 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_19 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_call2_cst : Ref sig .tc := ⟨.hbm, 165, rfl⟩
abbrev main_call2_v0 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_call3_cst : Ref sig .tc := ⟨.hbm, 173, rfl⟩
abbrev main_call3_v0 : Ref sig .tc := ⟨.hbm, 174, rfl⟩
abbrev main_v125 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x128_S100000x128_1_0_0_1_n_n_wf : DotDims.WF S100000x64 S64x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KRun.lean ====
/-
  The run of the kernel's program with its result named: every weakly fair execution terminates without a fault, and the
  result array ends at the contents the last boundary of the program's segments assigns to it, the arguments as launched.
  The segments, their chaining and the launch are those of the frame; only the reading of the final state adds the result.
-/
import proofs.«131858_j34050500722842_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_value : θ_run defs (onTc (τ := τ) (main (F := F))) ⟨m, fun _ => 0, ρ⟩ (fun r => ∀ c : Dev nD,
      r.2.mem ((c.tc : Thread nD τ).loc main_v82) = W8 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v82 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.KernelIdeal.Hand

end
-- ==== Proof.Claims.lean ====
/-
  The certificate's five claims, from one statement about the kernel's result.

  The three runs (the kernel's program, the same program read over the extended reals, and the reference over the extended
  reals) terminate without a fault and leave their arguments unchanged; reading the kernel's program over the extended
  reals rewrites no operation, so that it is preserved is immediate. The equation of the two results is reduced to one
  hypothesis: on every device, when every entry of every float argument is finite, the contents the kernel's program
  leaves in its result array are the reference's result as a term of the same twenty arguments. Given that, the
  kernel's run ends at that term, and so does the reference's run from a memory agreeing on the arguments.
-/
import proofs.«131858_j34050500722842_2_alg».proof.Defs
import proofs.«131858_j34050500722842_2_alg».proof.Proof.Gen.Kernel.Frame
import proofs.«131858_j34050500722842_2_alg».proof.Proof.Gen.KernelIdeal.Frame
import proofs.«131858_j34050500722842_2_alg».proof.Proof.Gen.ReferenceIdeal.Run
import proofs.«131858_j34050500722842_2_alg».proof.Proof.Gen.ReferenceIdeal.Read
import proofs.«131858_j34050500722842_2_alg».proof.Proof.Gen.Pre_finite_inputs
import proofs.«131858_j34050500722842_2_alg».proof.Proof.KRun

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result, over the extended reals, is the reference's: on every device, from any memory whose float
    arguments are finite entry by entry, the contents the last boundary of the kernel's program assigns to its result
    array are the reference's result as a term of the twenty arguments. -/
abbrev KernelValue : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = (fun _ => 1#1) →
    Cert.KernelIdeal.Gen.W8 m ρ c (Proc.devRef .tc Cert.KernelIdeal.main_v82)
      = Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))

/-- From memories agreeing on the arguments both programs run, end with equal results and leave the arguments unchanged. -/
theorem algebraic_of (kv : KernelValue) : Cert.algebraic_KernelIdeal_ReferenceIdeal := by
  intro m ρ m' ρ' hpre hagree
  refine ⟨fun c => Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono (fun r h c => ⟨(h c).1.trans (kv m ρ c (hpre c)), (h c).2⟩)
      (Cert.KernelIdeal.Hand.run_value m ρ)
  · refine (θ_run Cert.ReferenceIdeal.defs _ _).mono (fun _ h c => ⟨(h c).1.trans ((Cert.ReferenceIdeal.Read.val_main_v125_eq m' c).trans ?_), (h c).2⟩)
      (Cert.ReferenceIdeal.Value.run (F := Ideal) m' ρ')
    obtain ⟨h0, h1, h2, h3, h4, h5, h6, h7, h8, h9, h10, h11, h12, h13, h14, h15, h16, h17, h18, h19⟩ := hagree c
    simp only [h0, h1, h2, h3, h4, h5, h6, h7, h8, h9, h10, h11, h12, h13, h14, h15, h16, h17, h18, h19]

/-- The certificate's claim, given the kernel's result. -/
theorem claim_of (kv : KernelValue) : Cert.Claim :=
  ⟨Cert.Kernel.Gen.facts, Cert.KernelIdeal.Gen.facts, Cert.ReferenceIdeal.Gen.facts, Cert.Pre_finite_inputs.Gen.facts,
    frame_k, frame_ki, frame_ri, preserves, algebraic_of kv⟩

end Cert.Proof.Claims

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.Finite.lean ====
/-
  Every float argument is finite, entry by entry.

  The precondition computes, for each of the nineteen float arguments, whether every entry's absolute value is below
  plus infinity, and takes the conjunction of the nineteen answers. When the conjunction is one, each answer is one; an
  answer that is one says that each entry's comparison is one; over the extended reals the absolute value of x is
  max x (-x), the word of plus infinity denotes the top element, and an extended real whose absolute value is below the
  top element is a real. The integer argument is not examined.
-/
import Idealize.ShloMosaic.Lib.ReduceAll
import Idealize.ShloMosaic.Lib.ValueIdx
import proofs.«131858_j34050500722842_2_alg».proof.Proof.LibExtReal
import proofs.«131858_j34050500722842_2_alg».proof.Pre_finite_inputs

noncomputable section

namespace Cert.Finite

open Idealize.ShloMosaic Idealize.ShloMosaic.ValueIdx Cert.LibExtReal Cert.Pre_finite_inputs

/-- An extended real that is a real. -/
def IsReal (x : EReal) : Prop := ∃ r : ℝ, x = (r : EReal)

/-- The shape with no axes has one index. -/
instance : Subsingleton S_.Idx := ⟨fun _ _ => funext fun d => d.elim0⟩

/-- A conjunction of two one-bit arrays is one at an index exactly when both are. -/
theorem andi_apply {s : Shape} (a b : IVec s 1) (i : s.Idx) : andi a b i = 1#1 ↔ a i = 1#1 ∧ b i = 1#1 :=
  IntOp.andi_eq_one

/-- One "every entry's absolute value is below plus infinity" answer that is one: every entry of the array is a real. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) (i : s.Idx) : IsReal (x i) := by
  have hi := Host.reduce_andi_all _ _ hr hu j e i
  have hlt : max (x i) (-(x i)) < Ideal.ofBits .f32 0x7F800000#32 := lt_of_cmp_olt hi
  rw [ofBits_inf] at hlt
  exact real_of_abs_lt_top _ hlt

/-- The precondition's answer is one: every entry of every float argument is a real. -/
theorem finite_of_pre [Facts] (x0 : FVec Ideal S100000x128 .f32) (x1 : IVec S2x1600000 32) (x2 : FVec Ideal S128x128 .f32) (x3 : FVec Ideal S128 .f32) (x4 : FVec Ideal S128x128 .f32) (x5 : FVec Ideal S128x128 .f32) (x6 : FVec Ideal S128 .f32) (x7 : FVec Ideal S128x128 .f32) (x8 : FVec Ideal S128x64 .f32) (x9 : FVec Ideal S64 .f32) (x10 : FVec Ideal S64x128 .f32) (x11 : FVec Ideal S128 .f32) (x12 : FVec Ideal S128x64 .f32) (x13 : FVec Ideal S64 .f32) (x14 : FVec Ideal S64x128 .f32) (x15 : FVec Ideal S128 .f32) (x16 : FVec Ideal S128 .f32) (x17 : FVec Ideal S128 .f32) (x18 : FVec Ideal S128 .f32) (x19 : FVec Ideal S128 .f32)
    (h : fn (F := Ideal) x0 x1 x2 x3 x4 x5 x6 x7 x8 x9 x10 x11 x12 x13 x14 x15 x16 x17 x18 x19 = fun _ => 1#1) :
    (∀ i, IsReal (x0 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x18 i)) ∧ (∀ i, IsReal (x19 i)) := by
  have e := congrFun h ix0
  dsimp only [fn, fn_part1, fn_part2, fn_part3, fn_part4, fn_part5] at e
  simp only [andi_apply] at e
  obtain ⟨⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩, e19⟩ := e
  exact ⟨fun i => all_real _ _ _ _ _ e0 i,
    fun i => all_real _ _ _ _ _ e2 i,
    fun i => all_real _ _ _ _ _ e3 i,
    fun i => all_real _ _ _ _ _ e4 i,
    fun i => all_real _ _ _ _ _ e5 i,
    fun i => all_real _ _ _ _ _ e6 i,
    fun i => all_real _ _ _ _ _ e7 i,
    fun i => all_real _ _ _ _ _ e8 i,
    fun i => all_real _ _ _ _ _ e9 i,
    fun i => all_real _ _ _ _ _ e10 i,
    fun i => all_real _ _ _ _ _ e11 i,
    fun i => all_real _ _ _ _ _ e12 i,
    fun i => all_real _ _ _ _ _ e13 i,
    fun i => all_real _ _ _ _ _ e14 i,
    fun i => all_real _ _ _ _ _ e15 i,
    fun i => all_real _ _ _ _ _ e16 i,
    fun i => all_real _ _ _ _ _ e17 i,
    fun i => all_real _ _ _ _ _ e18 i,
    fun i => all_real _ _ _ _ _ e19 i⟩

end Cert.Finite

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.Spec.lean ====
/-
  One layer of the two-layer network, entry by entry over the extended reals.

  A layer takes node features X [100000, 128], the neighbour sums S [100000, 128] (row n: the sum of the feature rows of
  the edges that end at node n) and the edge counts cnt [100000], and computes
    A     = S / max(cnt, 1)                 (the neighbour mean, row by row)
    Y     = A · Wl + bl + X · Wr            (the two linear maps)
    skip  = max(X · w1 + b1, 0) · w2 + b2   (the two-layer side path)
    out   = max((Y - mean Y) · rsqrt(var Y + eps) · g + beta + skip, 0)
  with mean and var taken down each of the 128 columns over the 100000 rows.
  Two spellings of the mean A and of the variance are stated: the product with the reciprocal 1 / max(cnt, 1) against the
  quotient, and  max(mean(Y²) - mean(Y)², 0)  against  mean((Y - mean Y)²).  They agree on finite entries.
-/
import Idealize.ShloMosaic.Lib.ValueIdx
import Idealize.ShloMosaic.PureOps.Ideal.Laws
import proofs.«131858_j34050500722842_2_alg».proof.Proof.LibDense

noncomputable section

namespace Cert.Spec

open Idealize.ShloMosaic Idealize.ShloMosaic.ValueIdx Cert.LibDense

/-- An [a, b] array of extended reals. -/
abbrev Mat (a b : ℕ) := (⟨2, ![a, b]⟩ : Shape).Idx → EReal

/-- An array read by row and column. -/
def cur {a b : ℕ} (f : Mat a b) : Fin a → Fin b → EReal := fun n k => f (ix2 n k)

/-- A function of row and column as an array. -/
def arr2 {a b : ℕ} (g : Fin a → Fin b → EReal) : Mat a b :=
  fun i => g ⟨(i 0).val, idx2_lt0 i⟩ ⟨(i 1).val, idx2_lt1 i⟩

theorem arr2_ix2 {a b : ℕ} (g : Fin a → Fin b → EReal) (n : Fin a) (k : Fin b) : arr2 g (ix2 n k) = g n k := rfl

theorem cur_arr2 {a b : ℕ} (g : Fin a → Fin b → EReal) : cur (arr2 g) = g := rfl

theorem arr2_cur {a b : ℕ} (f : Mat a b) : arr2 (cur f) = f := by
  funext i
  show f (ix2 _ _) = f i
  congr 1
  funext ax
  refine Fin.ext ?_
  match ax with
  | ⟨0, _⟩ => rfl
  | ⟨1, _⟩ => rfl

/-- The float words of 100000, of the variance's epsilon and of one, as the extended reals they denote. -/
abbrev wN : EReal := Ideal.ofBits .f32 0x47C35000#32
abbrev wEps : EReal := Ideal.ofBits .f32 0x3727C5AC#32
abbrev wOne : EReal := Ideal.ofBits .f32 0x3F800000#32

/-- The neighbour mean as the sum times the reciprocal of the clamped count. -/
def aggMul (S : Fin 100000 → Fin 128 → EReal) (cnt : Fin 100000 → EReal) : Fin 100000 → Fin 128 → EReal :=
  fun n k => S n k * Ideal.div wOne (max (cnt n) wOne)

/-- The neighbour mean as the sum divided by the clamped count. -/
def aggDiv (S : Fin 100000 → Fin 128 → EReal) (cnt : Fin 100000 → EReal) : Fin 100000 → Fin 128 → EReal :=
  fun n k => Ideal.div (S n k) (max (cnt n) wOne)

/-- The two linear maps and the bias. -/
def xpre (A X : Fin 100000 → Fin 128 → EReal) (Wl : Mat 128 128) (bl : Fin 128 → EReal) (Wr : Mat 128 128) :
    Fin 100000 → Fin 128 → EReal :=
  fun n j => dense (A n) Wl j + bl j + dense (X n) Wr j

/-- The side path: a hidden layer of 64 units clamped at zero, then a second linear map. -/
def skip (X : Fin 100000 → Fin 128 → EReal) (w1 : Mat 128 64) (b1 : Fin 64 → EReal) (w2 : Mat 64 128)
    (b2 : Fin 128 → EReal) : Fin 100000 → Fin 128 → EReal :=
  fun n j => dense (fun k => max (dense (X n) w1 k + b1 k) 0) w2 j + b2 j

/-- The column mean over the 100000 rows. -/
def mean (Y : Fin 100000 → Fin 128 → EReal) : Fin 128 → EReal :=
  fun j => Ideal.div (∑ n : Fin 100000, Y n j) wN

/-- The column variance as mean of squares minus squared mean, clamped at zero. -/
def varK (Y : Fin 100000 → Fin 128 → EReal) : Fin 128 → EReal :=
  fun j => max (Ideal.div (∑ n : Fin 100000, Y n j * Y n j) wN - mean Y j * mean Y j) 0

/-- The column variance as the mean squared deviation. -/
def varR (Y : Fin 100000 → Fin 128 → EReal) : Fin 128 → EReal :=
  fun j => Ideal.div (∑ n : Fin 100000, (Y n j - mean Y j) * (Y n j - mean Y j)) wN

/-- Normalise by column statistics, scale, shift, add the side path, clamp at zero. -/
def bn (Y S : Fin 100000 → Fin 128 → EReal) (mu var g beta : Fin 128 → EReal) : Fin 100000 → Fin 128 → EReal :=
  fun n j => max ((Y n j - mu j) * Ideal.rsqrt (var j + wEps) * g j + beta j + S n j) 0

/-- The layer with the reciprocal mean and the clamped difference variance. -/
def layerK (X S : Fin 100000 → Fin 128 → EReal) (cnt : Fin 100000 → EReal) (Wl : Mat 128 128) (bl : Fin 128 → EReal)
    (Wr : Mat 128 128) (w1 : Mat 128 64) (b1 : Fin 64 → EReal) (w2 : Mat 64 128) (b2 g beta : Fin 128 → EReal) :
    Fin 100000 → Fin 128 → EReal :=
  bn (xpre (aggMul S cnt) X Wl bl Wr) (skip X w1 b1 w2 b2) (mean (xpre (aggMul S cnt) X Wl bl Wr))
    (varK (xpre (aggMul S cnt) X Wl bl Wr)) g beta

/-- The layer with the quotient mean and the mean squared deviation. -/
def layerR (X S : Fin 100000 → Fin 128 → EReal) (cnt : Fin 100000 → EReal) (Wl : Mat 128 128) (bl : Fin 128 → EReal)
    (Wr : Mat 128 128) (w1 : Mat 128 64) (b1 : Fin 64 → EReal) (w2 : Mat 64 128) (b2 g beta : Fin 128 → EReal) :
    Fin 100000 → Fin 128 → EReal :=
  bn (xpre (aggDiv S cnt) X Wl bl Wr) (skip X w1 b1 w2 b2) (mean (xpre (aggDiv S cnt) X Wl bl Wr))
    (varR (xpre (aggDiv S cnt) X Wl bl Wr)) g beta

end Cert.Spec

end
-- ==== Proof.Algebra.lean ====
/-
  Finite entries through one layer.

  An entry is called real when it is the reading of a real number in the extended reals. Sums, differences, products,
  maxima and finite sums of real entries are real; so is a quotient by the float 100000, a quotient by a count clamped
  below at one, a dense product of real rows and matrices, and the reciprocal square root of a nonnegative real plus the
  positive epsilon.

  On real entries the two spellings of the neighbour mean agree, because the clamped count max(c, 1) is a nonzero real
  and a quotient by a nonzero real is the product with its reciprocal. The two spellings of the column variance agree
  because over the reals, with N = 100000 rows and m = (∑ y) / N,
      (∑ y²) / N - m² = (∑ (y - m)²) / N,
  which follows from ∑ (y - m)² = ∑ y² - 2 m ∑ y + N m² and ∑ y = N m; the right side is a sum of squares over N, so it
  is nonnegative and the clamp at zero is the identity. Hence the two layers agree on real inputs, and the layer sends
  real inputs to real outputs. A scatter that adds real updates into real entries has real entries.
-/
import proofs.«131858_j34050500722842_2_alg».proof.Proof.Spec
import proofs.«131858_j34050500722842_2_alg».proof.Proof.LibExtReal

noncomputable section

namespace Cert.Spec

open Idealize.ShloMosaic Idealize.ShloMosaic.ValueIdx Cert.LibDense Cert.LibExtReal

/-- An extended real that is the reading of a real number. -/
def IsR (x : EReal) : Prop := ∃ r : ℝ, x = (r : EReal)

theorem isR_coe (r : ℝ) : IsR (r : EReal) := ⟨r, rfl⟩

theorem isR_zero : IsR 0 := ⟨0, rfl⟩

/-- The maximum of two readings is the reading of the maximum. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max {x y : EReal} (hx : IsR x) (hy : IsR y) : IsR (max x y) := by
  obtain ⟨a, rfl⟩ := hx
  obtain ⟨b, rfl⟩ := hy
  exact ⟨_, coe_max' a b⟩

/-- A finite sum of real entries is real. -/
theorem isR_sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A row of reals against a column of a real matrix is real. -/
theorem isR_dense {K N : ℕ} (x : Fin K → EReal) (W : (⟨2, ![K, N]⟩ : Shape).Idx → EReal) (j : Fin N)
    (hx : ∀ k, IsR (x k)) (hW : ∀ i, IsR (W i)) : IsR (dense x W j) := by
  unfold dense
  exact isR_sum _ _ fun k _ => (hx k).mul (hW _)

/-! ### The three float words -/

/-- The word 0x47C35000 denotes 100000. -/
theorem wN_eq : wN = ((100000 : ℝ) : EReal) := by
  show Ideal.ofBits .f32 0x47C35000#32 = _
  simp [Ideal.ofBits, Ideal.ieee, -EReal.coe_mul]; norm_num

/-- The word of one denotes the real one. -/
theorem wOne_eq : wOne = ((1 : ℝ) : EReal) := ofBits_one

/-- The epsilon's word denotes a positive real. -/
theorem wEps_pos : ∃ e : ℝ, 0 < e ∧ wEps = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul]

/-- A real over the float 100000. -/
theorem div_wN_coe (r : ℝ) : Ideal.div (r : EReal) wN = ((r * (1 / 100000) : ℝ) : EReal) := by
  rw [wN_eq, Ideal.div_coe (by norm_num), ← EReal.coe_mul]

theorem isR_div_wN {x : EReal} (hx : IsR x) : IsR (Ideal.div x wN) := by
  obtain ⟨a, rfl⟩ := hx
  exact ⟨_, div_wN_coe a⟩

/-- A real count clamped below at the float one is the real max(c, 1). -/
theorem max_wOne_coe (c : ℝ) : max (c : EReal) wOne = ((max c 1 : ℝ) : EReal) := by
  rw [wOne_eq, coe_max']

theorem max_one_ne_zero (c : ℝ) : max c 1 ≠ 0 := (lt_of_lt_of_le one_pos (le_max_right c 1)).ne'

/-- A real over a clamped real count is real. -/
theorem isR_div_max {s c : EReal} (hs : IsR s) (hc : IsR c) : IsR (Ideal.div s (max c wOne)) := by
  obtain ⟨a, rfl⟩ := hs
  obtain ⟨b, rfl⟩ := hc
  rw [max_wOne_coe, Ideal.div_coe (max_one_ne_zero b), ← EReal.coe_mul]
  exact ⟨_, rfl⟩

/-- The reciprocal square root of a nonnegative real plus the epsilon is real. -/
theorem isR_rsqrt (v : ℝ) (hv : 0 ≤ v) : IsR (Ideal.rsqrt ((v : EReal) + wEps)) := by
  obtain ⟨e, he, hw⟩ := wEps_pos
  have h : 0 < v + e := by linarith
  rw [hw, ← EReal.coe_add, Ideal.rsqrt_coe, if_neg (not_lt.mpr h.le), if_neg h.ne']
  exact ⟨_, rfl⟩

/-! ### 1. The two neighbour means -/

theorem agg_eq (S : Fin 100000 → Fin 128 → EReal) (cnt : Fin 100000 → EReal) (hc : ∀ n, IsR (cnt n)) :
    aggMul S cnt = aggDiv S cnt := by
  funext n k
  obtain ⟨c, hcn⟩ := hc n
  have hm : max (cnt n) wOne = ((max c 1 : ℝ) : EReal) := by rw [hcn, max_wOne_coe]
  exact (div_eq_mul_recip (S n k) _ (max c 1) (max_one_ne_zero c) hm).symm

theorem aggDiv_real {S : Fin 100000 → Fin 128 → EReal} {cnt : Fin 100000 → EReal} (hS : ∀ n k, IsR (S n k))
    (hc : ∀ n, IsR (cnt n)) : ∀ n k, IsR (aggDiv S cnt n k) :=
  fun n k => isR_div_max (hS n k) (hc n)

/-! ### 2. The two variances -/

/-- Over the reals: mean of squares minus squared mean is the mean squared deviation (100000 terms). -/
theorem real_var (f : Fin 100000 → ℝ) :
    (∑ n, f n * f n) * (1 / 100000) - (∑ n, f n) * (1 / 100000) * ((∑ n, f n) * (1 / 100000))
      = (∑ n, (f n - (∑ n, f n) * (1 / 100000)) * (f n - (∑ n, f n) * (1 / 100000))) * (1 / 100000) := by
  have hs : ∀ m : ℝ, ∑ n, (f n - m) * (f n - m)
      = (∑ n, f n * f n) - 2 * m * (∑ n, f n) + 100000 * (m * m) := by
    intro m
    have h : ∀ n, (f n - m) * (f n - m) = f n * f n - 2 * m * f n + m * m := fun n => by ring
    simp only [h, Finset.sum_add_distrib, Finset.sum_sub_distrib, ← Finset.mul_sum, Finset.sum_const,
      Finset.card_univ, Fintype.card_fin, nsmul_eq_mul]
    ring
  rw [hs]
  ring

/-- The column mean of real entries. -/
theorem mean_coe (y : Fin 100000 → Fin 128 → ℝ) (j : Fin 128) :
    mean (fun n j => ((y n j : ℝ) : EReal)) j = (((∑ n, y n j) * (1 / 100000) : ℝ) : EReal) := by
  show Ideal.div (∑ n : Fin 100000, ((y n j : ℝ) : EReal)) wN = _
  rw [← coe_sum, div_wN_coe]

/-- The mean squared deviation of real entries. -/
theorem varR_coe (y : Fin 100000 → Fin 128 → ℝ) (j : Fin 128) :
    varR (fun n j => ((y n j : ℝ) : EReal)) j
      = (((∑ n, (y n j - (∑ n, y n j) * (1 / 100000)) * (y n j - (∑ n, y n j) * (1 / 100000)))
          * (1 / 100000) : ℝ) : EReal) := by
  show Ideal.div (∑ n : Fin 100000, (((y n j : ℝ) : EReal) - mean (fun n j => ((y n j : ℝ) : EReal)) j)
      * (((y n j : ℝ) : EReal) - mean (fun n j => ((y n j : ℝ) : EReal)) j)) wN = _
  rw [mean_coe]
  simp only [← EReal.coe_sub, ← EReal.coe_mul]
  rw [← coe_sum, div_wN_coe]

/-- The clamped difference variance of real entries. -/
theorem varK_coe (y : Fin 100000 → Fin 128 → ℝ) (j : Fin 128) :
    varK (fun n j => ((y n j : ℝ) : EReal)) j
      = ((max ((∑ n, y n j * y n j) * (1 / 100000)
          - (∑ n, y n j) * (1 / 100000) * ((∑ n, y n j) * (1 / 100000))) 0 : ℝ) : EReal) := by
  show max (Ideal.div (∑ n : Fin 100000, ((y n j : ℝ) : EReal) * ((y n j : ℝ) : EReal)) wN
      - mean (fun n j => ((y n j : ℝ) : EReal)) j * mean (fun n j => ((y n j : ℝ) : EReal)) j) 0 = _
  rw [mean_coe]
  simp only [← EReal.coe_mul]
  rw [← coe_sum, div_wN_coe, ← EReal.coe_sub]
  exact coe_max' _ 0

/-- The mean squared deviation is nonnegative. -/
theorem real_dev_nonneg (f : Fin 100000 → ℝ) (m : ℝ) : 0 ≤ (∑ n, (f n - m) * (f n - m)) * (1 / 100000) :=
  mul_nonneg (Finset.sum_nonneg fun n _ => mul_self_nonneg _) (by norm_num)

/-- Real entries as a family of reals. -/
theorem exists_real_family {Y : Fin 100000 → Fin 128 → EReal} (hY : ∀ n j, IsR (Y n j)) :
    ∃ y : Fin 100000 → Fin 128 → ℝ, Y = fun n j => ((y n j : ℝ) : EReal) := by
  choose y hy using hY
  exact ⟨y, funext fun n => funext fun j => hy n j⟩

theorem var_eq (Y : Fin 100000 → Fin 128 → EReal) (hY : ∀ n j, IsR (Y n j)) : varK Y = varR Y := by
  obtain ⟨y, rfl⟩ := exists_real_family hY
  funext j
  rw [varK_coe, varR_coe, real_var, max_eq_left (real_dev_nonneg _ _)]

/-- The mean squared deviation of real entries is a nonnegative real. -/
theorem varR_real_nonneg {Y : Fin 100000 → Fin 128 → EReal} (hY : ∀ n j, IsR (Y n j)) (j : Fin 128) :
    ∃ v : ℝ, 0 ≤ v ∧ varR Y j = (v : EReal) := by
  obtain ⟨y, rfl⟩ := exists_real_family hY
  exact ⟨_, real_dev_nonneg _ _, varR_coe y j⟩

theorem mean_real {Y : Fin 100000 → Fin 128 → EReal} (hY : ∀ n j, IsR (Y n j)) (j : Fin 128) : IsR (mean Y j) :=
  isR_div_wN (isR_sum _ _ fun n _ => hY n j)

/-! ### 3. The linear maps and the side path on real entries -/

theorem xpre_real {A X : Fin 100000 → Fin 128 → EReal} {Wl : Mat 128 128} {bl : Fin 128 → EReal} {Wr : Mat 128 128}
    (hA : ∀ n k, IsR (A n k)) (hX : ∀ n k, IsR (X n k)) (hWl : ∀ i, IsR (Wl i)) (hbl : ∀ j, IsR (bl j))
    (hWr : ∀ i, IsR (Wr i)) : ∀ n j, IsR (xpre A X Wl bl Wr n j) :=
  fun n j => ((isR_dense (A n) Wl j (hA n) hWl).add (hbl j)).add (isR_dense (X n) Wr j (hX n) hWr)

theorem skip_real {X : Fin 100000 → Fin 128 → EReal} {w1 : Mat 128 64} {b1 : Fin 64 → EReal} {w2 : Mat 64 128}
    {b2 : Fin 128 → EReal} (hX : ∀ n k, IsR (X n k)) (hw1 : ∀ i, IsR (w1 i)) (hb1 : ∀ k, IsR (b1 k))
    (hw2 : ∀ i, IsR (w2 i)) (hb2 : ∀ j, IsR (b2 j)) : ∀ n j, IsR (skip X w1 b1 w2 b2 n j) :=
  fun n j => (isR_dense (fun k => max (dense (X n) w1 k + b1 k) 0) w2 j
    (fun k => ((isR_dense (X n) w1 k (hX n) hw1).add (hb1 k)).max isR_zero) hw2).add (hb2 j)

/-! ### 4. The two layers agree on real inputs -/

theorem layer_eq (X S : Fin 100000 → Fin 128 → EReal) (cnt : Fin 100000 → EReal) (Wl : Mat 128 128)
    (bl : Fin 128 → EReal) (Wr : Mat 128 128) (w1 : Mat 128 64) (b1 : Fin 64 → EReal) (w2 : Mat 64 128)
    (b2 g beta : Fin 128 → EReal) (hX : ∀ n k, IsR (X n k)) (hS : ∀ n k, IsR (S n k)) (hc : ∀ n, IsR (cnt n))
    (hWl : ∀ i, IsR (Wl i)) (hbl : ∀ j, IsR (bl j)) (hWr : ∀ i, IsR (Wr i)) :
    layerK X S cnt Wl bl Wr w1 b1 w2 b2 g beta = layerR X S cnt Wl bl Wr w1 b1 w2 b2 g beta := by
  unfold layerK layerR
  rw [agg_eq S cnt hc, var_eq _ (xpre_real (aggDiv_real hS hc) hX hWl hbl hWr)]

/-! ### 5. The layer on real inputs is real -/

/-- Normalising real entries by their own column statistics, with real scale, shift and side path, is real. -/
theorem bn_real {Y Sk : Fin 100000 → Fin 128 → EReal} {g beta : Fin 128 → EReal} (hY : ∀ n j, IsR (Y n j))
    (hSk : ∀ n j, IsR (Sk n j)) (hg : ∀ j, IsR (g j)) (hbeta : ∀ j, IsR (beta j)) :
    ∀ n j, IsR (bn Y Sk (mean Y) (varR Y) g beta n j) := by
  intro n j
  obtain ⟨v, hv, hvar⟩ := varR_real_nonneg hY j
  show IsR (max ((Y n j - mean Y j) * Ideal.rsqrt (varR Y j + wEps) * g j + beta j + Sk n j) 0)
  rw [hvar]
  exact ((((((hY n j).sub (mean_real hY j)).mul (isR_rsqrt v hv)).mul (hg j)).add (hbeta j)).add (hSk n j)).max isR_zero

theorem layerR_real (X S : Fin 100000 → Fin 128 → EReal) (cnt : Fin 100000 → EReal) (Wl : Mat 128 128)
    (bl : Fin 128 → EReal) (Wr : Mat 128 128) (w1 : Mat 128 64) (b1 : Fin 64 → EReal) (w2 : Mat 64 128)
    (b2 g beta : Fin 128 → EReal) (hX : ∀ n k, IsR (X n k)) (hS : ∀ n k, IsR (S n k)) (hc : ∀ n, IsR (cnt n))
    (hWl : ∀ i, IsR (Wl i)) (hbl : ∀ j, IsR (bl j)) (hWr : ∀ i, IsR (Wr i)) (hw1 : ∀ i, IsR (w1 i))
    (hb1 : ∀ k, IsR (b1 k)) (hw2 : ∀ i, IsR (w2 i)) (hb2 : ∀ j, IsR (b2 j)) (hg : ∀ j, IsR (g j))
    (hbeta : ∀ j, IsR (beta j)) : ∀ n j, IsR (layerR X S cnt Wl bl Wr w1 b1 w2 b2 g beta n j) :=
  bn_real (xpre_real (aggDiv_real hS hc) hX hWl hbl hWr) (skip_real hX hw1 hb1 hw2 hb2) hg hbeta

/-! ### 6. A scatter that adds real updates into real entries -/

theorem scatterAdd_real {s si su : Shape} (d : ScatterDims s si su) {w : ℕ} (x : s.Idx → EReal) (idx : IVec si w)
    (upd : su.Idx → EReal) (hx : ∀ i, IsR (x i)) (hu : ∀ j, IsR (upd j)) :
    ∀ i, IsR (Ideal.hostScatterAdd d x idx upd i) := by
  intro i
  unfold Ideal.hostScatterAdd
  exact (hx i).add (isR_sum _ _ fun j _ => hu j)

end Cert.Spec

end
-- ==== Proof.KTerms.lean ====
/-
  The graph side of the kernel's host program, as functions of the edge list: the edges' source and destination nodes
  (rows 0 and 1 of the [2, 1600000] edge array), the source wrapped when negative, the number of edges ending at each
  node (ones scattered onto zeros), and the sum over the edges ending at a node of the source node's feature row
  (rows gathered at the wrapped sources, scattered with addition onto zeros at the destinations).
-/
import proofs.«131858_j34050500722842_2_alg».proof.Proof.Gen.KernelIdeal
import Idealize.ShloMosaic.PureOps.Ideal

noncomputable section

namespace Cert.KernelIdeal.Hand

open Cert.KernelIdeal Cert.KernelIdeal.Gen
open Idealize.ShloMosaic Idealize.ShloMosaic.TcCoe

/-- The edges' source nodes. -/
def srcK (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' destination nodes. -/
def dstK (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The source nodes with a negative index wrapped by the node count. -/
def wrapK (e : (⟨S2x1600000, .i32⟩ : BufTy).Contents (Elt Ideal)) : (⟨S1600000, .i32⟩ : BufTy).Contents (Elt Ideal) :=
  select (cmpi .slt (srcK e) (broadcastInDim S1600000 ![] bcast_S_S1600000 (constantI S_ 32 0#32)))
    (addi (srcK e) (broadcastInDim S1600000 ![] bcast_S_S1600000 (constantI S_ 32 100000#32))) (srcK e)

/-- The number of edges ending at each node. -/
def cntK (e : (⟨S2x1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dstK e))
    (broadcastInDim S1600000 ![] bcast_S_S1600000 (constant (F := Ideal) S_ .f32 0x3F800000#32))

/-- The neighbour sums of a feature array X: row n is the sum of X's rows at the sources of the edges ending at n. -/
def sumK (X : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstK e))
    (Host.gather gather_S100000x128_S1600000x1_S1600000x128_1_0_n_n_0_1_1128 X
      (broadcastInDim S1600000x1 ![0] bcast_S1600000_S1600000x1_0 (wrapK e)))

end Cert.KernelIdeal.Hand

end
-- ==== Proof.KBridge.lean ====
/-
  The graph side of the two programs is one computation.

  Both programs cut the [2, 1600000] edge array into its source row and its destination row, wrap a negative source by the
  node count 100000, gather the feature rows at the wrapped sources and scatter them with addition onto zeros at the
  destinations (the neighbour sums), and scatter ones with addition onto zeros at the destinations (the edge counts).
  Each program writes this with its own names for the shapes and for the gather and scatter dimension records; the
  names denote the same literal shapes and records, so the two spellings are the same tree of operations and each
  equation below holds by unfolding the names. The second layer repeats the first with the first layer's output as
  the features.
-/
import proofs.«131858_j34050500722842_2_alg».proof.Proof.KTerms
import proofs.«131858_j34050500722842_2_alg».proof.Proof.Gen.ReferenceIdeal.Read

noncomputable section

namespace Cert.KBridge

open Idealize.ShloMosaic Idealize.ShloMosaic.TcCoe Idealize.SL.Sem Idealize.ShloMosaic.StableHlo
open Cert.ReferenceIdeal.Read

/-- Layer 1: the reference's neighbour sums are the kernel program's, at the arguments' features. -/
theorem sum1_eq (x0 : (⟨Cert.ReferenceIdeal.S100000x128, .f32⟩ : BufTy).Contents (Elt Ideal))
    (x1 : (⟨Cert.ReferenceIdeal.S2x1600000, .i32⟩ : BufTy).Contents (Elt Ideal)) :
    val_main_v13 (F := Ideal) x0 x1 = Cert.KernelIdeal.Hand.sumK x0 x1 := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst
  unfold Cert.KernelIdeal.Hand.sumK Cert.KernelIdeal.Hand.dstK Cert.KernelIdeal.Hand.wrapK Cert.KernelIdeal.Hand.srcK
  rfl

/-- Layer 1: the reference's edge counts are the kernel program's. -/
theorem cnt1_eq (x1 : (⟨Cert.ReferenceIdeal.S2x1600000, .i32⟩ : BufTy).Contents (Elt Ideal)) :
    val_main_v17 (F := Ideal) x1 = Cert.KernelIdeal.Hand.cntK x1 := by
  unfold val_main_v17 val_main_v16 val_main_v15 val_main_v14 val_main_v3 val_main_v2 val_main_cst_1 val_main_cst_2
  unfold Cert.KernelIdeal.Hand.cntK Cert.KernelIdeal.Hand.dstK
  rfl

/-- Layer 2: the reference's neighbour sums are the kernel program's, at the first layer's output as the features. -/
theorem sum2_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) (x10 : (⟨Cert.ReferenceIdeal.S64x128, .f32⟩ : BufTy).Contents (Elt Ideal)) (x11 x16 x17 : (⟨Cert.ReferenceIdeal.S128, .f32⟩ : BufTy).Contents (Elt Ideal)) :
    val_main_v74 (F := Ideal) x0 x1 x2 x3 x4 x8 x9 x10 x11 x16 x17
      = Cert.KernelIdeal.Hand.sumK (val_main_v64 (F := Ideal) x0 x1 x2 x3 x4 x8 x9 x10 x11 x16 x17) x1 := by
  unfold val_main_v74 val_main_v73 val_main_v72 val_main_v71 val_main_v70 val_main_v69 val_main_v68 val_main_v67 val_main_v66
    val_main_v65 val_main_v3 val_main_v2 val_main_v1 val_main_v0 val_main_c_9 val_main_c_10 val_main_cst_11
  unfold Cert.KernelIdeal.Hand.sumK Cert.KernelIdeal.Hand.dstK Cert.KernelIdeal.Hand.wrapK Cert.KernelIdeal.Hand.srcK
  rfl

/-- Layer 2: the reference's edge counts are the kernel program's. -/
theorem cnt2_eq (x1 : (⟨Cert.ReferenceIdeal.S2x1600000, .i32⟩ : BufTy).Contents (Elt Ideal)) :
    val_main_v78 (F := Ideal) x1 = Cert.KernelIdeal.Hand.cntK x1 := by
  unfold val_main_v78 val_main_v77 val_main_v76 val_main_v75 val_main_v3 val_main_v2 val_main_cst_12 val_main_cst_13
  unfold Cert.KernelIdeal.Hand.cntK Cert.KernelIdeal.Hand.dstK
  rfl

end Cert.KBridge

end
-- ==== Proof.RefLayers.lean ====
/-
  The reference program, layer by layer.

  Each of the program's two layers, read entry by entry, is the layer of the specification: the neighbour sums
  divided by the clamped edge counts, the two linear maps with their bias, the column mean and the mean squared
  deviation over the 100000 rows, the normalisation with scale and shift, the two-layer side path, and the clamp at
  zero. The gather and the two scatter-adds of a layer (the neighbour sums and the edge counts) stay as the program
  writes them. The second layer is the first on the first layer's result.
-/
import proofs.«131858_j34050500722842_2_alg».proof.Proof.Spec
import proofs.«131858_j34050500722842_2_alg».proof.Proof.Gen.ReferenceIdeal.Read

noncomputable section

namespace Cert.RefLayers

open Idealize.ShloMosaic Idealize.ShloMosaic.ValueIdx Cert.LibDense Cert.Spec Cert.ReferenceIdeal Cert.ReferenceIdeal.Read

/-- Two rank-1 indices with the same coordinate are equal. -/
theorem idx1_ext {n : ℕ} {p q : (⟨1, ![n]⟩ : Shape).Idx} (h : (p 0).val = (q 0).val) : p = q :=
  funext fun a => Fin.ext (by
    match a with
    | ⟨0, _⟩ => exact h)

/-- Two rank-2 indices with the same coordinates are equal. -/
theorem idx2_ext {a b : ℕ} {p q : (⟨2, ![a, b]⟩ : Shape).Idx} (h0 : (p 0).val = (q 0).val)
    (h1 : (p 1).val = (q 1).val) : p = q :=
  funext fun d => Fin.ext (by
    match d with
    | ⟨0, _⟩ => exact h0
    | ⟨1, _⟩ => exact h1)

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128x64, .f32⟩ : BufTy).Contents (Elt Ideal))
  (x9 : (⟨S64, .f32⟩ : BufTy).Contents (Elt Ideal)) (x10 : (⟨S64x128, .f32⟩ : BufTy).Contents (Elt Ideal))
  (x11 : (⟨S128, .f32⟩ : BufTy).Contents (Elt Ideal)) (x12 : (⟨S128x64, .f32⟩ : BufTy).Contents (Elt Ideal))
  (x13 : (⟨S64, .f32⟩ : BufTy).Contents (Elt Ideal)) (x14 : (⟨S64x128, .f32⟩ : BufTy).Contents (Elt Ideal))
  (x15 x16 x17 x18 x19 : (⟨S128, .f32⟩ : BufTy).Contents (Elt Ideal))

/-! ## The specification's functions at an entry -/

theorem cur_apply {a b : ℕ} (f : Mat a b) (n : Fin a) (k : Fin b) : cur f n k = f (ix2 n k) := rfl

theorem dense_def {K N : ℕ} (x : Fin K → EReal) (W : Mat K N) (j : Fin N) : dense x W j = ∑ k : Fin K, x k * W (ix2 k j) := rfl

theorem aggDiv_apply (S : Fin 100000 → Fin 128 → EReal) (cnt : Fin 100000 → EReal) (n : Fin 100000) (k : Fin 128) :
    aggDiv S cnt n k = Ideal.div (S n k) (max (cnt n) wOne) := rfl

theorem xpre_apply (A X : Fin 100000 → Fin 128 → EReal) (Wl : Mat 128 128) (bl : Fin 128 → EReal) (Wr : Mat 128 128)
    (n : Fin 100000) (j : Fin 128) : xpre A X Wl bl Wr n j = dense (A n) Wl j + bl j + dense (X n) Wr j := rfl

theorem skip_apply (X : Fin 100000 → Fin 128 → EReal) (w1 : Mat 128 64) (b1 : Fin 64 → EReal) (w2 : Mat 64 128)
    (b2 : Fin 128 → EReal) (n : Fin 100000) (j : Fin 128) :
    skip X w1 b1 w2 b2 n j = dense (fun k => max (dense (X n) w1 k + b1 k) 0) w2 j + b2 j := rfl

theorem mean_apply (Y : Fin 100000 → Fin 128 → EReal) (j : Fin 128) :
    mean Y j = Ideal.div (∑ n : Fin 100000, Y n j) wN := rfl

theorem varR_apply (Y : Fin 100000 → Fin 128 → EReal) (j : Fin 128) :
    varR Y j = Ideal.div (∑ n : Fin 100000, (Y n j - mean Y j) * (Y n j - mean Y j)) wN := rfl

theorem bn_apply (Y S : Fin 100000 → Fin 128 → EReal) (mu var g beta : Fin 128 → EReal) (n : Fin 100000) (j : Fin 128) :
    bn Y S mu var g beta n j = max ((Y n j - mu j) * Ideal.rsqrt (var j + wEps) * g j + beta j + S n j) 0 := rfl

theorem layerR_def (X S : Fin 100000 → Fin 128 → EReal) (cnt : Fin 100000 → EReal) (Wl : Mat 128 128) (bl : Fin 128 → EReal)
    (Wr : Mat 128 128) (w1 : Mat 128 64) (b1 : Fin 64 → EReal) (w2 : Mat 64 128) (b2 g beta : Fin 128 → EReal) :
    layerR X S cnt Wl bl Wr w1 b1 w2 b2 g beta
      = bn (xpre (aggDiv S cnt) X Wl bl Wr) (skip X w1 b1 w2 b2) (mean (xpre (aggDiv S cnt) X Wl bl Wr))
          (varR (xpre (aggDiv S cnt) X Wl bl Wr)) g beta := rfl

/-! ## Layer 1 -/

/-- The clamped edge count, broadcast along the row. -/
theorem cnt1_at (n : Fin 100000) (j : Fin 128) :
    val_main_v21 (F := Ideal) x1 (ix2 n j) = max (val_main_v17 (F := Ideal) x1 (ix1 n)) wOne := by
  rw [val_main_v21_apply, val_main_v20_apply, val_main_v19_apply, val_main_v18_apply, val_main_cst_3_apply,
    show idx_main_v20 (idx_main_v21 (ix2 n j)) = ix1 n from idx1_ext rfl, Ideal.maximumf_def, Ideal.ofBits_def]

/-- The neighbour mean is the sum divided by the clamped count. -/
theorem agg1_at (n : Fin 100000) (j : Fin 128) :
    val_main_v22 (F := Ideal) x0 x1 (ix2 n j) = aggDiv (cur (val_main_v13 (F := Ideal) x0 x1)) (fun n => val_main_v17 (F := Ideal) x1 (ix1 n)) n j := by
  rw [val_main_v22_apply, cnt1_at, Ideal.hostDivf_def, aggDiv_apply, cur_apply]

/-- The two linear maps and the bias, entry by entry. -/
theorem pre1_at (n : Fin 100000) (j : Fin 128) :
    val_main_v28 (F := Ideal) x0 x1 x2 x3 x4 (ix2 n j) = xpre (aggDiv (cur (val_main_v13 (F := Ideal) x0 x1)) (fun n => val_main_v17 (F := Ideal) x1 (ix1 n))) (cur x0) x2 (fun j => x3 (ix1 j)) x4 n j := by
  rw [val_main_v28_apply, val_main_v26_apply, val_main_v23_apply, val_main_v27_apply, val_main_v25_apply, val_main_v24_apply,
    show idx_main_v24 (idx_main_v25 (ix2 n j)) = ix1 j from idx1_ext rfl, Ideal.addf_def, Ideal.addf_def, xpre_apply, dense_def,
    dense_def]
  refine congrArg₂ (fun s t => s + x3 (ix1 j) + t) (Finset.sum_congr rfl fun k _ => ?_)
    (Finset.sum_congr rfl fun k _ => ?_)
  · rw [show lidx_main_v23 (ix2 n j) k = ix2 n k from idx2_ext rfl rfl,
      show ridx_main_v23 (ix2 n j) k = ix2 k j from idx2_ext rfl rfl, agg1_at]
  · rw [show lidx_main_v27 (ix2 n j) k = ix2 n k from idx2_ext rfl rfl,
      show ridx_main_v27 (ix2 n j) k = ix2 k j from idx2_ext rfl rfl, cur_apply]

theorem pre1_cur :
    cur (val_main_v28 (F := Ideal) x0 x1 x2 x3 x4) = xpre (aggDiv (cur (val_main_v13 (F := Ideal) x0 x1)) (fun n => val_main_v17 (F := Ideal) x1 (ix1 n))) (cur x0) x2 (fun j => x3 (ix1 j)) x4 :=
  funext fun n => funext fun j => (cur_apply _ n j).trans (pre1_at x0 x1 x2 x3 x4 n j)

/-- The column mean. -/
theorem mean1_at (j : Fin 128) :
    val_main_v31 (F := Ideal) x0 x1 x2 x3 x4 (ix1 j) = mean (cur (val_main_v28 (F := Ideal) x0 x1 x2 x3 x4)) j := by
  rw [val_main_v31_apply, val_main_v29_apply, val_main_v30_apply, val_main_cst_4_apply, val_main_cst_5_apply, Ideal.hostDivf_def, Ideal.ofBits_def, Ideal.ofBits_def,
    Ideal.ofBits_zero_f32, zero_add, mean_apply]
  refine congrArg (fun s => Ideal.div s wN) (Finset.sum_congr rfl fun k _ => ?_)
  rw [show idx_main_v29 (ix1 j) k = ix2 k j from idx2_ext rfl rfl, cur_apply]

/-- The deviation from the column mean, squared. -/
theorem dev1_at (n : Fin 100000) (j : Fin 128) :
    val_main_v35 (F := Ideal) x0 x1 x2 x3 x4 (ix2 n j) = ((cur (val_main_v28 (F := Ideal) x0 x1 x2 x3 x4)) n j - mean (cur (val_main_v28 (F := Ideal) x0 x1 x2 x3 x4)) j) * ((cur (val_main_v28 (F := Ideal) x0 x1 x2 x3 x4)) n j - mean (cur (val_main_v28 (F := Ideal) x0 x1 x2 x3 x4)) j) := by
  rw [val_main_v35_apply, val_main_v34_apply, val_main_v33_apply, val_main_v32_apply, show idx_main_v32 (idx_main_v33 (ix2 n j)) = ix1 j from idx1_ext rfl, mean1_at,
    Ideal.mulf_def, Ideal.subf_def, cur_apply]

/-- The column variance as the mean squared deviation. -/
theorem var1_at (j : Fin 128) :
    val_main_v38 (F := Ideal) x0 x1 x2 x3 x4 (ix1 j) = varR (cur (val_main_v28 (F := Ideal) x0 x1 x2 x3 x4)) j := by
  rw [val_main_v38_apply, val_main_v36_apply, val_main_v37_apply, val_main_cst_6_apply, val_main_cst_7_apply, Ideal.hostDivf_def, Ideal.ofBits_def, Ideal.ofBits_def,
    Ideal.ofBits_zero_f32, zero_add, varR_apply]
  refine congrArg (fun s => Ideal.div s wN) (Finset.sum_congr rfl fun k _ => ?_)
  rw [show idx_main_v36 (ix1 j) k = ix2 k j from idx2_ext rfl rfl, dev1_at]

/-- The side path's hidden layer, clamped at zero. -/
theorem hid1_at (n : Fin 100000) (k : Fin 64) :
    val_main_v58 (F := Ideal) x0 x8 x9 (ix2 n k) = max (dense (cur x0 n) x8 k + x9 (ix1 k)) 0 := by
  rw [val_main_v58_apply, val_main_v57_apply, val_main_v54_apply, val_main_v56_apply, val_main_v55_apply, val_main_call0_v0_apply, val_main_call0_cst_apply, Ideal.maximumf_def,
    Ideal.addf_def, Ideal.ofBits_def, Ideal.ofBits_zero_f32, show idx_main_v55 (idx_main_v56 (ix2 n k)) = ix1 k from idx1_ext rfl, dense_def]
  refine congrArg (fun s => max (s + x9 (ix1 k)) 0) (Finset.sum_congr rfl fun q _ => ?_)
  rw [show lidx_main_v54 (ix2 n k) q = ix2 n q from idx2_ext rfl rfl,
    show ridx_main_v54 (ix2 n k) q = ix2 q k from idx2_ext rfl rfl, cur_apply]

/-- The side path. -/
theorem skip1_at (n : Fin 100000) (j : Fin 128) :
    val_main_v62 (F := Ideal) x0 x8 x9 x10 x11 (ix2 n j) = skip (cur x0) x8 (fun k => x9 (ix1 k)) x10 (fun j => x11 (ix1 j)) n j := by
  rw [val_main_v62_apply, val_main_v59_apply, val_main_v61_apply, val_main_v60_apply, Ideal.addf_def, show idx_main_v60 (idx_main_v61 (ix2 n j)) = ix1 j from idx1_ext rfl, skip_apply,
    dense_def]
  refine congrArg (fun s => s + x11 (ix1 j)) (Finset.sum_congr rfl fun k _ => ?_)
  rw [show lidx_main_v59 (ix2 n j) k = ix2 n k from idx2_ext rfl rfl,
    show ridx_main_v59 (ix2 n j) k = ix2 k j from idx2_ext rfl rfl, hid1_at]

/-- Normalise, scale, shift, add the side path, clamp at zero. -/
theorem out1_at (n : Fin 100000) (j : Fin 128) :
    val_main_v64 (F := Ideal) x0 x1 x2 x3 x4 x8 x9 x10 x11 x16 x17 (ix2 n j)
      = bn (cur (val_main_v28 (F := Ideal) x0 x1 x2 x3 x4)) (skip (cur x0) x8 (fun k => x9 (ix1 k)) x10 (fun j => x11 (ix1 j))) (mean (cur (val_main_v28 (F := Ideal) x0 x1 x2 x3 x4))) (varR (cur (val_main_v28 (F := Ideal) x0 x1 x2 x3 x4))) (fun j => x16 (ix1 j)) (fun j => x17 (ix1 j)) n j := by
  rw [val_main_v64_apply, val_main_v63_apply, val_main_v53_apply, val_main_v50_apply, val_main_v47_apply, val_main_v41_apply, val_main_v40_apply, val_main_v39_apply, val_main_v46_apply, val_main_v45_apply,
    val_main_v44_apply, val_main_v43_apply, val_main_v42_apply, val_main_cst_8_apply, val_main_v49_apply, val_main_v48_apply, val_main_v52_apply, val_main_v51_apply, val_main_call1_v0_apply,
    val_main_call1_cst_apply,
    show idx_main_v39 (idx_main_v40 (ix2 n j)) = ix1 j from idx1_ext rfl,
    show idx_main_v45 (idx_main_v46 (ix2 n j)) = ix1 j from idx1_ext rfl,
    show idx_main_v48 (idx_main_v49 (ix2 n j)) = ix1 j from idx1_ext rfl,
    show idx_main_v51 (idx_main_v52 (ix2 n j)) = ix1 j from idx1_ext rfl,
    mean1_at, var1_at, skip1_at, Ideal.maximumf_def, Ideal.addf_def, Ideal.addf_def, Ideal.addf_def, Ideal.mulf_def,
    Ideal.mulf_def, Ideal.subf_def, Ideal.hostUnary_rsqrt_def, Ideal.ofBits_def, Ideal.ofBits_def, Ideal.ofBits_zero_f32,
    bn_apply, cur_apply]

/-- Layer 1 of the reference program is the layer of the specification, with the quotient mean and the mean squared
    deviation, on the layer's features, neighbour sums and edge counts. -/
theorem ref_layer1 :
    val_main_v64 (F := Ideal) x0 x1 x2 x3 x4 x8 x9 x10 x11 x16 x17
      = arr2 (layerR (cur x0) (cur (val_main_v13 (F := Ideal) x0 x1)) (fun n => val_main_v17 (F := Ideal) x1 (ix1 n)) x2 (fun j => x3 (ix1 j)) x4
          x8 (fun k => x9 (ix1 k)) x10 (fun j => x11 (ix1 j)) (fun j => x16 (ix1 j)) (fun j => x17 (ix1 j))) := by
  funext i
  obtain ⟨n, j, rfl⟩ : ∃ (n : Fin 100000) (j : Fin 128), i = ix2 n j := ⟨i 0, i 1, eq_ix2 i⟩
  rw [out1_at, pre1_cur, arr2_ix2, layerR_def]

/-! ## Layer 2 -/

/-- The clamped edge count, broadcast along the row. -/
theorem cnt2_at (n : Fin 100000) (j : Fin 128) :
    val_main_v82 (F := Ideal) x1 (ix2 n j) = max (val_main_v78 (F := Ideal) x1 (ix1 n)) wOne := by
  rw [val_main_v82_apply, val_main_v81_apply, val_main_v80_apply, val_main_v79_apply, val_main_cst_14_apply,
    show idx_main_v81 (idx_main_v82 (ix2 n j)) = ix1 n from idx1_ext rfl, Ideal.maximumf_def, Ideal.ofBits_def]

/-- The neighbour mean is the sum divided by the clamped count. -/
theorem agg2_at (n : Fin 100000) (j : Fin 128) :
    val_main_v83 (F := Ideal) x0 x1 x2 x3 x4 x8 x9 x10 x11 x16 x17 (ix2 n j) = aggDiv (cur (val_main_v74 (F := Ideal) x0 x1 x2 x3 x4 x8 x9 x10 x11 x16 x17)) (fun n => val_main_v78 (F := Ideal) x1 (ix1 n)) n j := by
  rw [val_main_v83_apply, cnt2_at, Ideal.hostDivf_def, aggDiv_apply, cur_apply]

/-- The two linear maps and the bias, entry by entry. -/
theorem pre2_at (n : Fin 100000) (j : Fin 128) :
    val_main_v89 (F := Ideal) x0 x1 x2 x3 x4 x5 x6 x7 x8 x9 x10 x11 x16 x17 (ix2 n j) = xpre (aggDiv (cur (val_main_v74 (F := Ideal) x0 x1 x2 x3 x4 x8 x9 x10 x11 x16 x17)) (fun n => val_main_v78 (F := Ideal) x1 (ix1 n))) (cur (val_main_v64 (F := Ideal) x0 x1 x2 x3 x4 x8 x9 x10 x11 x16 x17)) x5 (fun j => x6 (ix1 j)) x7 n j := by
  rw [val_main_v89_apply, val_main_v87_apply, val_main_v84_apply, val_main_v88_apply, val_main_v86_apply, val_main_v85_apply,
    show idx_main_v85 (idx_main_v86 (ix2 n j)) = ix1 j from idx1_ext rfl, Ideal.addf_def, Ideal.addf_def, xpre_apply, dense_def,
    dense_def]
  refine congrArg₂ (fun s t => s + x6 (ix1 j) + t) (Finset.sum_congr rfl fun k _ => ?_)
    (Finset.sum_congr rfl fun k _ => ?_)
  · rw [show lidx_main_v84 (ix2 n j) k = ix2 n k from idx2_ext rfl rfl,
      show ridx_main_v84 (ix2 n j) k = ix2 k j from idx2_ext rfl rfl, agg2_at]
  · rw [show lidx_main_v88 (ix2 n j) k = ix2 n k from idx2_ext rfl rfl,
      show ridx_main_v88 (ix2 n j) k = ix2 k j from idx2_ext rfl rfl, cur_apply]

theorem pre2_cur :
    cur (val_main_v89 (F := Ideal) x0 x1 x2 x3 x4 x5 x6 x7 x8 x9 x10 x11 x16 x17) = xpre (aggDiv (cur (val_main_v74 (F := Ideal) x0 x1 x2 x3 x4 x8 x9 x10 x11 x16 x17)) (fun n => val_main_v78 (F := Ideal) x1 (ix1 n))) (cur (val_main_v64 (F := Ideal) x0 x1 x2 x3 x4 x8 x9 x10 x11 x16 x17)) x5 (fun j => x6 (ix1 j)) x7 :=
  funext fun n => funext fun j => (cur_apply _ n j).trans (pre2_at x0 x1 x2 x3 x4 x5 x6 x7 x8 x9 x10 x11 x16 x17 n j)

/-- The column mean. -/
theorem mean2_at (j : Fin 128) :
    val_main_v92 (F := Ideal) x0 x1 x2 x3 x4 x5 x6 x7 x8 x9 x10 x11 x16 x17 (ix1 j) = mean (cur (val_main_v89 (F := Ideal) x0 x1 x2 x3 x4 x5 x6 x7 x8 x9 x10 x11 x16 x17)) j := by
  rw [val_main_v92_apply, val_main_v90_apply, val_main_v91_apply, val_main_cst_15_apply, val_main_cst_16_apply, Ideal.hostDivf_def, Ideal.ofBits_def, Ideal.ofBits_def,
    Ideal.ofBits_zero_f32, zero_add, mean_apply]
  refine congrArg (fun s => Ideal.div s wN) (Finset.sum_congr rfl fun k _ => ?_)
  rw [show idx_main_v90 (ix1 j) k = ix2 k j from idx2_ext rfl rfl, cur_apply]

/-- The deviation from the column mean, squared. -/
theorem dev2_at (n : Fin 100000) (j : Fin 128) :
    val_main_v96 (F := Ideal) x0 x1 x2 x3 x4 x5 x6 x7 x8 x9 x10 x11 x16 x17 (ix2 n j) = ((cur (val_main_v89 (F := Ideal) x0 x1 x2 x3 x4 x5 x6 x7 x8 x9 x10 x11 x16 x17)) n j - mean (cur (val_main_v89 (F := Ideal) x0 x1 x2 x3 x4 x5 x6 x7 x8 x9 x10 x11 x16 x17)) j) * ((cur (val_main_v89 (F := Ideal) x0 x1 x2 x3 x4 x5 x6 x7 x8 x9 x10 x11 x16 x17)) n j - mean (cur (val_main_v89 (F := Ideal) x0 x1 x2 x3 x4 x5 x6 x7 x8 x9 x10 x11 x16 x17)) j) := by
  rw [val_main_v96_apply, val_main_v95_apply, val_main_v94_apply, val_main_v93_apply, show idx_main_v93 (idx_main_v94 (ix2 n j)) = ix1 j from idx1_ext rfl, mean2_at,
    Ideal.mulf_def, Ideal.subf_def, cur_apply]

/-- The column variance as the mean squared deviation. -/
theorem var2_at (j : Fin 128) :
    val_main_v99 (F := Ideal) x0 x1 x2 x3 x4 x5 x6 x7 x8 x9 x10 x11 x16 x17 (ix1 j) = varR (cur (val_main_v89 (F := Ideal) x0 x1 x2 x3 x4 x5 x6 x7 x8 x9 x10 x11 x16 x17)) j := by
  rw [val_main_v99_apply, val_main_v97_apply, val_main_v98_apply, val_main_cst_17_apply, val_main_cst_18_apply, Ideal.hostDivf_def, Ideal.ofBits_def, Ideal.ofBits_def,
    Ideal.ofBits_zero_f32, zero_add, varR_apply]
  refine congrArg (fun s => Ideal.div s wN) (Finset.sum_congr rfl fun k _ => ?_)
  rw [show idx_main_v97 (ix1 j) k = ix2 k j from idx2_ext rfl rfl, dev2_at]

/-- The side path's hidden layer, clamped at zero. -/
theorem hid2_at (n : Fin 100000) (k : Fin 64) :
    val_main_v119 (F := Ideal) x0 x1 x2 x3 x4 x8 x9 x10 x11 x12 x13 x16 x17 (ix2 n k) = max (dense (cur (val_main_v64 (F := Ideal) x0 x1 x2 x3 x4 x8 x9 x10 x11 x16 x17) n) x12 k + x13 (ix1 k)) 0 := by
  rw [val_main_v119_apply, val_main_v118_apply, val_main_v115_apply, val_main_v117_apply, val_main_v116_apply, val_main_call2_v0_apply, val_main_call2_cst_apply, Ideal.maximumf_def,
    Ideal.addf_def, Ideal.ofBits_def, Ideal.ofBits_zero_f32, show idx_main_v116 (idx_main_v117 (ix2 n k)) = ix1 k from idx1_ext rfl, dense_def]
  refine congrArg (fun s => max (s + x13 (ix1 k)) 0) (Finset.sum_congr rfl fun q _ => ?_)
  rw [show lidx_main_v115 (ix2 n k) q = ix2 n q from idx2_ext rfl rfl,
    show ridx_main_v115 (ix2 n k) q = ix2 q k from idx2_ext rfl rfl, cur_apply]

/-- The side path. -/
theorem skip2_at (n : Fin 100000) (j : Fin 128) :
    val_main_v123 (F := Ideal) x0 x1 x2 x3 x4 x8 x9 x10 x11 x12 x13 x14 x15 x16 x17 (ix2 n j) = skip (cur (val_main_v64 (F := Ideal) x0 x1 x2 x3 x4 x8 x9 x10 x11 x16 x17)) x12 (fun k => x13 (ix1 k)) x14 (fun j => x15 (ix1 j)) n j := by
  rw [val_main_v123_apply, val_main_v120_apply, val_main_v122_apply, val_main_v121_apply, Ideal.addf_def, show idx_main_v121 (idx_main_v122 (ix2 n j)) = ix1 j from idx1_ext rfl, skip_apply,
    dense_def]
  refine congrArg (fun s => s + x15 (ix1 j)) (Finset.sum_congr rfl fun k _ => ?_)
  rw [show lidx_main_v120 (ix2 n j) k = ix2 n k from idx2_ext rfl rfl,
    show ridx_main_v120 (ix2 n j) k = ix2 k j from idx2_ext rfl rfl, hid2_at]

/-- Normalise, scale, shift, add the side path, clamp at zero. -/
theorem out2_at (n : Fin 100000) (j : Fin 128) :
    val_main_v125 (F := Ideal) x0 x1 x2 x3 x4 x5 x6 x7 x8 x9 x10 x11 x12 x13 x14 x15 x16 x17 x18 x19 (ix2 n j)
      = bn (cur (val_main_v89 (F := Ideal) x0 x1 x2 x3 x4 x5 x6 x7 x8 x9 x10 x11 x16 x17)) (skip (cur (val_main_v64 (F := Ideal) x0 x1 x2 x3 x4 x8 x9 x10 x11 x16 x17)) x12 (fun k => x13 (ix1 k)) x14 (fun j => x15 (ix1 j))) (mean (cur (val_main_v89 (F := Ideal) x0 x1 x2 x3 x4 x5 x6 x7 x8 x9 x10 x11 x16 x17))) (varR (cur (val_main_v89 (F := Ideal) x0 x1 x2 x3 x4 x5 x6 x7 x8 x9 x10 x11 x16 x17))) (fun j => x18 (ix1 j)) (fun j => x19 (ix1 j)) n j := by
  rw [val_main_v125_apply, val_main_v124_apply, val_main_v114_apply, val_main_v111_apply, val_main_v108_apply, val_main_v102_apply, val_main_v101_apply, val_main_v100_apply, val_main_v107_apply, val_main_v106_apply,
    val_main_v105_apply, val_main_v104_apply, val_main_v103_apply, val_main_cst_19_apply, val_main_v110_apply, val_main_v109_apply, val_main_v113_apply, val_main_v112_apply, val_main_call3_v0_apply,
    val_main_call3_cst_apply,
    show idx_main_v100 (idx_main_v101 (ix2 n j)) = ix1 j from idx1_ext rfl,
    show idx_main_v106 (idx_main_v107 (ix2 n j)) = ix1 j from idx1_ext rfl,
    show idx_main_v109 (idx_main_v110 (ix2 n j)) = ix1 j from idx1_ext rfl,
    show idx_main_v112 (idx_main_v113 (ix2 n j)) = ix1 j from idx1_ext rfl,
    mean2_at, var2_at, skip2_at, Ideal.maximumf_def, Ideal.addf_def, Ideal.addf_def, Ideal.addf_def, Ideal.mulf_def,
    Ideal.mulf_def, Ideal.subf_def, Ideal.hostUnary_rsqrt_def, Ideal.ofBits_def, Ideal.ofBits_def, Ideal.ofBits_zero_f32,
    bn_apply, cur_apply]

/-- Layer 2 of the reference program is the layer of the specification, with the quotient mean and the mean squared
    deviation, on the layer's features, neighbour sums and edge counts. -/
theorem ref_layer2 :
    val_main_v125 (F := Ideal) x0 x1 x2 x3 x4 x5 x6 x7 x8 x9 x10 x11 x12 x13 x14 x15 x16 x17 x18 x19
      = arr2 (layerR (cur (val_main_v64 (F := Ideal) x0 x1 x2 x3 x4 x8 x9 x10 x11 x16 x17)) (cur (val_main_v74 (F := Ideal) x0 x1 x2 x3 x4 x8 x9 x10 x11 x16 x17)) (fun n => val_main_v78 (F := Ideal) x1 (ix1 n)) x5 (fun j => x6 (ix1 j)) x7
          x12 (fun k => x13 (ix1 k)) x14 (fun j => x15 (ix1 j)) (fun j => x18 (ix1 j)) (fun j => x19 (ix1 j))) := by
  funext i
  obtain ⟨n, j, rfl⟩ : ∃ (n : Fin 100000) (j : Fin 128), i = ix2 n j := ⟨i 0, i 1, eq_ix2 i⟩
  rw [out2_at, pre2_cur, arr2_ix2, layerR_def]

end Cert.RefLayers

end
-- ==== Proof.Net.lean ====
/-
  The two-layer network on real inputs.

  The neighbour sums and the edge counts are scatters that add real entries (gathered feature rows, ones) onto zeros, so
  they are real whenever the features are. The first layer of the reference program is the quotient-and-deviation
  spelling of the layer at the arguments; on real arguments that spelling equals the reciprocal-and-difference spelling,
  and its output is real. The second layer is the same statement at the first layer's output as the features, with its
  own weights. Chaining the two gives the network's value as the reciprocal-and-difference layer applied twice.
-/
import proofs.«131858_j34050500722842_2_alg».proof.Proof.Algebra
import proofs.«131858_j34050500722842_2_alg».proof.Proof.KBridge
import proofs.«131858_j34050500722842_2_alg».proof.Proof.RefLayers

noncomputable section

namespace Cert.Net

open Cert.Spec Cert.KernelIdeal.Hand Cert.ReferenceIdeal.Read Idealize.ShloMosaic Idealize.ShloMosaic.ValueIdx

/-! ### 1. The neighbour sums and the edge counts are real -/

/-- Every entry of a broadcast constant is the value of its word. -/
theorem isR_bcast_const {s t : Shape} (dims : Fin s.rank → Fin t.rank) (h : s.BroadcastsInDim t dims) (b : BitVec 32)
    (hb : IsR (Ideal.ofBits .f32 b)) (j : t.Idx) :
    IsR (broadcastInDim t dims h (constant (F := Ideal) s .f32 b) j) := hb

theorem isR_ofBits_zero : IsR (Ideal.ofBits .f32 0x00000000#32) := by
  rw [Ideal.ofBits_zero_f32]; exact isR_zero

theorem isR_ofBits_one : IsR (Ideal.ofBits .f32 0x3F800000#32) := ⟨1, wOne_eq⟩

/-- The host's accumulating scatter of real updates into real entries has real entries. -/
theorem host_scatterAdd_real {s si su : Shape} {w : ℕ} (d : ScatterDims s si su) (x : FVec Ideal s .f32) (idx : IVec si w)
    (upd : FVec Ideal su .f32) (hx : ∀ i, IsR (x i)) (hu : ∀ j, IsR (upd j)) :
    ∀ i, IsR (Host.scatterAdd d x idx upd i) := by
  intro i
  show IsR (Ideal.hostScatterAdd d x idx upd i)
  exact scatterAdd_real d x idx upd hx hu i

/-- A gather reads entries of its operand, so it is real when the operand is. -/
theorem host_gather_real {s si t : Shape} {w : ℕ} (d : GatherDims s si t) (x : s.Idx → EReal) (idx : IVec si w)
    (hx : ∀ i, IsR (x i)) : ∀ j, IsR (Host.gather d x idx j) :=
  fun j => hx (d.operandIdx j idx)

theorem sumK_real (X : (⟨Cert.KernelIdeal.S100000x128, .f32⟩ : BufTy).Contents (Elt Ideal))
    (e : (⟨Cert.KernelIdeal.S2x1600000, .i32⟩ : BufTy).Contents (Elt Ideal)) (hX : ∀ i, IsR (X i)) :
    ∀ i, IsR (sumK X e i) := by
  unfold sumK
  refine host_scatterAdd_real _ _ _ _ ?_ ?_
  · exact fun i => isR_bcast_const _ _ _ isR_ofBits_zero i
  · exact host_gather_real _ X _ hX

theorem cntK_real (e : (⟨Cert.KernelIdeal.S2x1600000, .i32⟩ : BufTy).Contents (Elt Ideal)) : ∀ i, IsR (cntK e i) := by
  unfold cntK
  refine host_scatterAdd_real _ _ _ _ ?_ ?_
  · exact fun i => isR_bcast_const _ _ _ isR_ofBits_zero i
  · exact fun j => isR_bcast_const _ _ _ isR_ofBits_one j

/-- An array built from real entries has real entries. -/
theorem arr2_real {a b : ℕ} (g : Fin a → Fin b → EReal) (hg : ∀ n k, IsR (g n k)) : ∀ i, IsR (arr2 g i) :=
  fun _ => hg _ _

/-- An array with real entries, read by row and column, has real entries. -/
theorem cur_real {a b : ℕ} (f : Mat a b) (hf : ∀ i, IsR (f i)) : ∀ n k, IsR (cur f n k) :=
  fun n k => hf (ix2 n k)

/-! ### 2. The network -/

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S128x128, .f32⟩ : BufTy).Contents (Elt Ideal))
  (x8 : (⟨Cert.ReferenceIdeal.S128x64, .f32⟩ : BufTy).Contents (Elt Ideal))
  (x9 : (⟨Cert.ReferenceIdeal.S64, .f32⟩ : BufTy).Contents (Elt Ideal))
  (x10 : (⟨Cert.ReferenceIdeal.S64x128, .f32⟩ : BufTy).Contents (Elt Ideal))
  (x11 : (⟨Cert.ReferenceIdeal.S128, .f32⟩ : BufTy).Contents (Elt Ideal))
  (x12 : (⟨Cert.ReferenceIdeal.S128x64, .f32⟩ : BufTy).Contents (Elt Ideal))
  (x13 : (⟨Cert.ReferenceIdeal.S64, .f32⟩ : BufTy).Contents (Elt Ideal))
  (x14 : (⟨Cert.ReferenceIdeal.S64x128, .f32⟩ : BufTy).Contents (Elt Ideal))
  (x15 : (⟨Cert.ReferenceIdeal.S128, .f32⟩ : BufTy).Contents (Elt Ideal))
  (x16 : (⟨Cert.ReferenceIdeal.S128, .f32⟩ : BufTy).Contents (Elt Ideal))
  (x17 : (⟨Cert.ReferenceIdeal.S128, .f32⟩ : BufTy).Contents (Elt Ideal))
  (x18 : (⟨Cert.ReferenceIdeal.S128, .f32⟩ : BufTy).Contents (Elt Ideal))
  (x19 : (⟨Cert.ReferenceIdeal.S128, .f32⟩ : BufTy).Contents (Elt Ideal))

/-- The first layer at the arguments, in the reciprocal-and-difference spelling. -/
def net1 : Mat 100000 128 :=
  arr2 (layerK (cur x0) (cur (sumK x0 x1)) (fun n => cntK x1 (ix1 n)) x2 (fun j => x3 (ix1 j)) x4 x8 (fun k => x9 (ix1 k)) x10 (fun j => x11 (ix1 j)) (fun j => x16 (ix1 j)) (fun j => x17 (ix1 j)))

theorem net1_def : net1 x0 x1 x2 x3 x4 x8 x9 x10 x11 x16 x17
    = arr2 (layerK (cur x0) (cur (sumK x0 x1)) (fun n => cntK x1 (ix1 n)) x2 (fun j => x3 (ix1 j)) x4 x8 (fun k => x9 (ix1 k)) x10 (fun j => x11 (ix1 j)) (fun j => x16 (ix1 j)) (fun j => x17 (ix1 j))) := rfl

/-- The first layer's two spellings agree on real arguments. -/
theorem net1_eq_layerR (h0 : ∀ i, IsR (x0 i)) (h2 : ∀ i, IsR (x2 i)) (h3 : ∀ i, IsR (x3 i)) (h4 : ∀ i, IsR (x4 i)) :
    net1 x0 x1 x2 x3 x4 x8 x9 x10 x11 x16 x17
      = arr2 (layerR (cur x0) (cur (sumK x0 x1)) (fun n => cntK x1 (ix1 n)) x2 (fun j => x3 (ix1 j)) x4 x8 (fun k => x9 (ix1 k)) x10 (fun j => x11 (ix1 j)) (fun j => x16 (ix1 j)) (fun j => x17 (ix1 j))) :=
  congrArg arr2 (layer_eq (cur x0) (cur (sumK x0 x1)) (fun n => cntK x1 (ix1 n)) x2 (fun j => x3 (ix1 j)) x4 x8
    (fun k => x9 (ix1 k)) x10 (fun j => x11 (ix1 j)) (fun j => x16 (ix1 j)) (fun j => x17 (ix1 j))
    (cur_real x0 h0) (cur_real (sumK x0 x1) (sumK_real x0 x1 h0)) (fun n => cntK_real x1 (ix1 n)) h2 (fun j => h3 (ix1 j)) h4)

/-- The first layer's output is real on real arguments. -/
theorem net1_real (h0 : ∀ i, IsR (x0 i)) (h2 : ∀ i, IsR (x2 i)) (h3 : ∀ i, IsR (x3 i)) (h4 : ∀ i, IsR (x4 i)) (h8 : ∀ i, IsR (x8 i)) (h9 : ∀ i, IsR (x9 i)) (h10 : ∀ i, IsR (x10 i)) (h11 : ∀ i, IsR (x11 i)) (h16 : ∀ i, IsR (x16 i)) (h17 : ∀ i, IsR (x17 i)) :
    ∀ i, IsR (net1 x0 x1 x2 x3 x4 x8 x9 x10 x11 x16 x17 i) := by
  rw [net1_eq_layerR x0 x1 x2 x3 x4 x8 x9 x10 x11 x16 x17 h0 h2 h3 h4]
  exact arr2_real _ (layerR_real (cur x0) (cur (sumK x0 x1)) (fun n => cntK x1 (ix1 n)) x2 (fun j => x3 (ix1 j)) x4 x8
    (fun k => x9 (ix1 k)) x10 (fun j => x11 (ix1 j)) (fun j => x16 (ix1 j)) (fun j => x17 (ix1 j))
    (cur_real x0 h0) (cur_real (sumK x0 x1) (sumK_real x0 x1 h0)) (fun n => cntK_real x1 (ix1 n)) h2 (fun j => h3 (ix1 j)) h4 h8
    (fun k => h9 (ix1 k)) h10 (fun j => h11 (ix1 j)) (fun j => h16 (ix1 j)) (fun j => h17 (ix1 j)))

/-- The reference's first layer is the first layer at the arguments. -/
theorem v64_eq_net1 (h0 : ∀ i, IsR (x0 i)) (h2 : ∀ i, IsR (x2 i)) (h3 : ∀ i, IsR (x3 i)) (h4 : ∀ i, IsR (x4 i)) :
    val_main_v64 (F := Ideal) x0 x1 x2 x3 x4 x8 x9 x10 x11 x16 x17 = net1 x0 x1 x2 x3 x4 x8 x9 x10 x11 x16 x17 := by
  refine (Cert.RefLayers.ref_layer1 x0 x1 x2 x3 x4 x8 x9 x10 x11 x16 x17).trans ?_
  rw [Cert.KBridge.sum1_eq, Cert.KBridge.cnt1_eq]
  exact (net1_eq_layerR x0 x1 x2 x3 x4 x8 x9 x10 x11 x16 x17 h0 h2 h3 h4).symm

/-- The network: the layer applied to the first layer's output is the reference's result. -/
theorem net_eq (h0 : ∀ i, IsR (x0 i)) (h2 : ∀ i, IsR (x2 i)) (h3 : ∀ i, IsR (x3 i)) (h4 : ∀ i, IsR (x4 i)) (h5 : ∀ i, IsR (x5 i)) (h6 : ∀ i, IsR (x6 i)) (h7 : ∀ i, IsR (x7 i)) (h8 : ∀ i, IsR (x8 i)) (h9 : ∀ i, IsR (x9 i)) (h10 : ∀ i, IsR (x10 i)) (h11 : ∀ i, IsR (x11 i)) (h12 : ∀ i, IsR (x12 i)) (h13 : ∀ i, IsR (x13 i)) (h14 : ∀ i, IsR (x14 i)) (h15 : ∀ i, IsR (x15 i)) (h16 : ∀ i, IsR (x16 i)) (h17 : ∀ i, IsR (x17 i)) (h18 : ∀ i, IsR (x18 i)) (h19 : ∀ i, IsR (x19 i)) :
    arr2 (layerK (cur (net1 x0 x1 x2 x3 x4 x8 x9 x10 x11 x16 x17)) (cur (sumK (net1 x0 x1 x2 x3 x4 x8 x9 x10 x11 x16 x17) x1)) (fun n => cntK x1 (ix1 n)) x5 (fun j => x6 (ix1 j)) x7 x12 (fun k => x13 (ix1 k)) x14 (fun j => x15 (ix1 j)) (fun j => x18 (ix1 j)) (fun j => x19 (ix1 j)))
      = val_main_v125 (F := Ideal) x0 x1 x2 x3 x4 x5 x6 x7 x8 x9 x10 x11 x12 x13 x14 x15 x16 x17 x18 x19 := by
  have e1 := v64_eq_net1 x0 x1 x2 x3 x4 x8 x9 x10 x11 x16 x17 h0 h2 h3 h4
  have hN := net1_real x0 x1 x2 x3 x4 x8 x9 x10 x11 x16 x17 h0 h2 h3 h4 h8 h9 h10 h11 h16 h17
  refine Eq.trans ?_ (Cert.RefLayers.ref_layer2 x0 x1 x2 x3 x4 x5 x6 x7 x8 x9 x10 x11 x12 x13 x14 x15 x16 x17 x18 x19).symm
  rw [Cert.KBridge.sum2_eq, Cert.KBridge.cnt2_eq, e1]
  exact congrArg arr2 (layer_eq (cur (net1 x0 x1 x2 x3 x4 x8 x9 x10 x11 x16 x17)) (cur (sumK (net1 x0 x1 x2 x3 x4 x8 x9 x10 x11 x16 x17) x1)) (fun n => cntK x1 (ix1 n)) x5
    (fun j => x6 (ix1 j)) x7 x12 (fun k => x13 (ix1 k)) x14 (fun j => x15 (ix1 j)) (fun j => x18 (ix1 j))
    (fun j => x19 (ix1 j)) (cur_real _ hN) (cur_real _ (sumK_real _ x1 hN)) (fun n => cntK_real x1 (ix1 n)) h5
    (fun j => h6 (ix1 j)) h7)

end Cert.Net

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.KChain.lean ====
/-
  What each boundary of the kernel's program holds, read back to the launch memory.

  The program is four kernel regions among four stretches of host operations. A stretch writes only its own result
  buffers, which are numbered after everything written before it; a region writes only its output arrays. So a buffer
  written earlier is found unchanged at every later boundary until something writes it: the facts below walk each
  buffer a later step reads back to the step that wrote it.
-/
import proofs.«131858_j34050500722842_2_alg».proof.Proof.Gen.KernelIdeal.Frame
import proofs.«131858_j34050500722842_2_alg».proof.Proof.LibWrites

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first stretch writes buffers 20 and up (the 20 arguments come first). -/
theorem ops0_from : (hostOps0 : List (HloOp τ sig (Elt F))).Forall (WritesFrom 20) := by writes_own
/-- The second stretch writes buffers 59 and up. -/
theorem ops1_from : (hostOps1 : List (HloOp τ sig (Elt F))).Forall (WritesFrom 59) := by writes_own
/-- The third stretch writes buffers 81 and up. -/
theorem ops2_from : (hostOps2 : List (HloOp τ sig (Elt F))).Forall (WritesFrom 81) := by writes_own
/-- The fourth stretch writes buffers 103 and up. -/
theorem ops3_from : (hostOps3 : List (HloOp τ sig (Elt F))).Forall (WritesFrom 103) := by writes_own

/-- An argument is as launched when the first region is entered. -/
theorem pass1 (c : Dev nD) (r : Ref sig .tc) (hr : r.idx.val < 20) :
    W1 m ρ c (Proc.devRef .tc r) = m ((c : Thread nD τ).loc r) :=
  after_below 20 hostOps0 (W0 m ρ c) ops0_from r hr
/-- A buffer numbered below 59 passes the second stretch. -/
theorem pass3 (c : Dev nD) (r : Ref sig .tc) (hr : r.idx.val < 59) :
    W3 m ρ c (Proc.devRef .tc r) = W2 m ρ c (Proc.devRef .tc r) :=
  after_below 59 hostOps1 (W2 m ρ c) ops1_from r hr
/-- A buffer numbered below 81 passes the third stretch. -/
theorem pass5 (c : Dev nD) (r : Ref sig .tc) (hr : r.idx.val < 81) :
    W5 m ρ c (Proc.devRef .tc r) = W4 m ρ c (Proc.devRef .tc r) :=
  after_below 81 hostOps2 (W4 m ρ c) ops2_from r hr
/-- A buffer numbered below 103 passes the fourth stretch. -/
theorem pass7 (c : Dev nD) (r : Ref sig .tc) (hr : r.idx.val < 103) :
    W7 m ρ c (Proc.devRef .tc r) = W6 m ρ c (Proc.devRef .tc r) :=
  after_below 103 hostOps3 (W6 m ρ c) ops3_from r hr

end Cert.KernelIdeal.Hand

end
-- ==== Proof.KHost.lean ====
/-
  The host arithmetic between the kernel regions, read at an index over the extended reals.

  Column statistics of a [100000, 128] array Y: the column sum (from zero), the mean (the sum over 100000), the
  variance as mean of squares minus squared mean clamped at zero, each reshaped to a [1, 128] row; and the neighbour mean:
  the scattered sums times the reciprocal of the count clamped at one, the reciprocal broadcast along the rows.
-/
import proofs.«131858_j34050500722842_2_alg».proof.Proof.Gen.KernelIdeal
import proofs.«131858_j34050500722842_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx

/-- The column sum of a [100000, 128] array from the zero word, at column j. -/
theorem colsum_apply (Y : S100000x128.Idx → EReal) (j : Fin 128) :
    Host.reduceAdd (F := Ideal) (φ := .f32) Y (constant (F := Ideal) S_ .f32 0x00000000#32) reducesTo_S100000x128_S128_d0 h_S_ (ix1 j)
      = ∑ n : Fin 100000, Y (ix2 n j) := by
  simp only [Host.reduceAdd, Ideal.hostReduceAdd_def]
  rw [Ideal.hostReduceAdd_single reducesTo_S100000x128_S128_d0 (by decide)]
  have h0 : (constant (F := Ideal) S_ .f32 0x00000000#32) (Shape.Idx.first h_S_) = (0 : EReal) := Ideal.ofBits_zero_f32
  rw [h0, zero_add]
  refine Finset.sum_congr rfl fun k _ => ?_
  exact congrArg Y (funext fun a => Fin.ext (by match a with | ⟨0, _⟩ => rfl | ⟨1, _⟩ => rfl))

/-- A scalar word broadcast to 128 entries reads the word everywhere. -/
theorem bcast128_apply (w : BitVec 32) (j : Fin 128) :
    broadcastInDim S128 ![] bcast_S_S128 (constant (F := Ideal) S_ .f32 w) (ix1 j) = Ideal.ofBits .f32 w :=
  broadcastInDim_apply _ _ _ _ ix0 (fun a => a.elim0)

/-- The host's quotient, product, difference and maximum act entry by entry. -/
theorem hdiv_at {s : Shape} (x y : s.Idx → EReal) (i : s.Idx) :
    Host.divf (F := Ideal) (φ := .f32) x y i = Ideal.div (x i) (y i) := rfl
theorem mul_at {s : Shape} (x y : s.Idx → EReal) (i : s.Idx) :
    mulf (F := Ideal) (φ := .f32) x y i = x i * y i := rfl
theorem sub_at {s : Shape} (x y : s.Idx → EReal) (i : s.Idx) :
    subf (F := Ideal) (φ := .f32) x y i = x i - y i := rfl
theorem max_at {s : Shape} (x y : s.Idx → EReal) (i : s.Idx) :
    maximumf (F := Ideal) (φ := .f32) x y i = max (x i) (y i) := rfl

/-- The column mean as the host computes it (sum from zero over the word of 100000, reshaped to a row), at column j. -/
theorem mean_row (Y : S100000x128.Idx → EReal) (j : Fin 128) :
    shapeCast S1x128 (Host.divf (F := Ideal) (φ := .f32)
        (Host.reduceAdd (F := Ideal) (φ := .f32) Y (constant (F := Ideal) S_ .f32 0x00000000#32) reducesTo_S100000x128_S128_d0 h_S_)
        (broadcastInDim S128 ![] bcast_S_S128 (constant (F := Ideal) S_ .f32 0x47C35000#32))) shapeCasts_S128_S1x128 (ix2 (0 : Fin 1) j)
      = mean (cur Y) j := by
  rw [shapeCast_a_1a_apply, hdiv_at, colsum_apply, bcast128_apply]
  rfl

/-- The column variance as the host computes it: mean of squares minus squared mean, clamped at zero, as a row. -/
theorem var_row (Y : S100000x128.Idx → EReal) (j : Fin 128) :
    shapeCast S1x128 (maximumf (F := Ideal) (φ := .f32)
        (subf (F := Ideal) (φ := .f32)
          (Host.divf (F := Ideal) (φ := .f32)
            (Host.reduceAdd (F := Ideal) (φ := .f32) (mulf (F := Ideal) (φ := .f32) Y Y) (constant (F := Ideal) S_ .f32 0x00000000#32) reducesTo_S100000x128_S128_d0 h_S_)
            (broadcastInDim S128 ![] bcast_S_S128 (constant (F := Ideal) S_ .f32 0x47C35000#32)))
          (mulf (F := Ideal) (φ := .f32)
            (Host.divf (F := Ideal) (φ := .f32)
              (Host.reduceAdd (F := Ideal) (φ := .f32) Y (constant (F := Ideal) S_ .f32 0x00000000#32) reducesTo_S100000x128_S128_d0 h_S_)
              (broadcastInDim S128 ![] bcast_S_S128 (constant (F := Ideal) S_ .f32 0x47C35000#32)))
            (Host.divf (F := Ideal) (φ := .f32)
              (Host.reduceAdd (F := Ideal) (φ := .f32) Y (constant (F := Ideal) S_ .f32 0x00000000#32) reducesTo_S100000x128_S128_d0 h_S_)
              (broadcastInDim S128 ![] bcast_S_S128 (constant (F := Ideal) S_ .f32 0x47C35000#32)))))
        (broadcastInDim S128 ![] bcast_S_S128 (constant (F := Ideal) S_ .f32 0x00000000#32))) shapeCasts_S128_S1x128 (ix2 (0 : Fin 1) j)
      = varK (cur Y) j := by
  rw [shapeCast_a_1a_apply, max_at, sub_at, mul_at, hdiv_at, hdiv_at, colsum_apply, colsum_apply, bcast128_apply, bcast128_apply,
    Ideal.ofBits_zero_f32]
  rfl

/-- The neighbour mean as the host computes it: the sums times the reciprocal of the clamped count, the reciprocal
    broadcast from [100000] through [100000, 1] along the 128 columns; at row n, column k. -/
theorem agg_apply (S : S100000x128.Idx → EReal) (cnt : S100000.Idx → EReal) (n : Fin 100000) (k : Fin 128) :
    mulf (F := Ideal) (φ := .f32) S
        (broadcastInDim S100000x128 ![0, 1] bcast_S100000x1_S100000x128_0_1
          (broadcastInDim S100000x1 ![0] bcast_S100000_S100000x1_0
            (Host.divf (F := Ideal) (φ := .f32) (broadcastInDim S100000 ![] bcast_S_S100000 (constant (F := Ideal) S_ .f32 0x3F800000#32))
              (maximumf (F := Ideal) (φ := .f32) cnt (broadcastInDim S100000 ![] bcast_S_S100000 (constant (F := Ideal) S_ .f32 0x3F800000#32))))))
        (ix2 n k)
      = aggMul (cur S) (fun n => cnt (ix1 n)) n k := by
  have e1 : ∀ (v : S100000x1.Idx → EReal), broadcastInDim S100000x128 ![0, 1] bcast_S100000x1_S100000x128_0_1 v (ix2 n k) = v (ix2 n (0 : Fin 1)) := fun v =>
    broadcastInDim_apply _ _ _ _ (ix2 n (0 : Fin 1)) (fun a => by
      match a with
      | ⟨0, _⟩ => exact (if_neg (by show ¬ ((100000 : ℕ) = 1); decide)).symm
      | ⟨1, _⟩ => exact (if_pos rfl).symm)
  have e2 : ∀ (v : S100000.Idx → EReal), broadcastInDim S100000x1 ![0] bcast_S100000_S100000x1_0 v (ix2 n (0 : Fin 1)) = v (ix1 n) := fun v =>
    broadcastInDim_apply _ _ _ _ (ix1 n) (fun a => by
      match a with
      | ⟨0, _⟩ => exact (if_neg (by show ¬ ((100000 : ℕ) = 1); decide)).symm)
  have e3 : ∀ (w : BitVec 32), broadcastInDim S100000 ![] bcast_S_S100000 (constant (F := Ideal) S_ .f32 w) (ix1 n) = Ideal.ofBits .f32 w := fun w =>
    broadcastInDim_apply _ _ _ _ ix0 (fun a => a.elim0)
  rw [mul_at, e1, e2, hdiv_at, max_at, e3]
  rfl

end Cert.KernelIdeal.Hand

end
-- ==== Proof.Regions.lean ====
/-
  The four blocked computations of the network, array by array over the extended reals.

  Each computation runs over 20 grid points; point t reads rows 5000·t … 5000·t + 4999 of the row-blocked
  operands, the small operands whole, and writes back the same rows of its outputs. The rows of the 20 points
  tile the 100000 rows, so every output array ends as ONE function of the operand arrays, entry by entry:

    the first and third computation leave  A · Wl + bl + X · Wr  (the two linear maps) and
    max(X · w1 + b1, 0) · w2 + b2  (the side path);
    the second and fourth leave  max((Y - mu) · rsqrt(var + eps) · g + beta + S, 0).

  A matrix product into the zero accumulator is the textbook row-times-column sum; narrowing and widening a
  float change no value over the extended reals.
-/
import proofs.«131858_j34050500722842_2_alg».proof.Proof.Spec
import proofs.«131858_j34050500722842_2_alg».proof.Proof.LibDense
import proofs.«131858_j34050500722842_2_alg».proof.Proof.Gen.KernelIdeal.Frame
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Spec Cert.LibDense
open Idealize.ShloMosaic Idealize.ShloMosaic.TcCoe Idealize.ShloMosaic.ValueIdx
open Idealize.ShloMosaic.Pipeline (Dat)

/-! ## The three matrix products of the bodies, entry by entry -/

theorem dA_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dA_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dA_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dA_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] block against a [128, 128] matrix into the zero accumulator: row times column. -/
theorem dA_mm {φ₁ φ₂ : FTy} (l : FVec Ideal S5000x128 φ₁) (r : FVec Ideal S128x128 φ₂) (a : Fin 5000) (b : Fin 128) :
    FloatOps.matmul dot_S5000x128_S128x128_S5000x128_1_0_0_1_n_n none l r (constant (F := Ideal) S5000x128 .f32 0x00000000#32) (ix2 a b)
      = dense (fun k => l (ix2 a k)) r b :=
  matmul_zero_plain (M := 5000) (K := 128) (N := 128) dot_S5000x128_S128x128_S5000x128_1_0_0_1_n_n none rfl rfl dA_l0 dA_l1 dA_r0 dA_r1 l r a b

theorem dB_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dB_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dB_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dB_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000, 128] block against a [128, 64] matrix into the zero accumulator: row times column. -/
theorem dB_mm {φ₁ φ₂ : FTy} (l : FVec Ideal S5000x128 φ₁) (r : FVec Ideal S128x64 φ₂) (a : Fin 5000) (b : Fin 64) :
    FloatOps.matmul dot_S5000x128_S128x64_S5000x64_1_0_0_1_n_n none l r (constant (F := Ideal) S5000x64 .f32 0x00000000#32) (ix2 a b)
      = dense (fun k => l (ix2 a k)) r b :=
  matmul_zero_plain (M := 5000) (K := 128) (N := 64) dot_S5000x128_S128x64_S5000x64_1_0_0_1_n_n none rfl rfl dB_l0 dB_l1 dB_r0 dB_r1 l r a b

theorem dC_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dC_l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem dC_r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem dC_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A [5000, 64] block against a [64, 128] matrix into the zero accumulator: row times column. -/
theorem dC_mm {φ₁ φ₂ : FTy} (l : FVec Ideal S5000x64 φ₁) (r : FVec Ideal S64x128 φ₂) (a : Fin 5000) (b : Fin 128) :
    FloatOps.matmul dot_S5000x64_S64x128_S5000x128_1_0_0_1_n_n none l r (constant (F := Ideal) S5000x128 .f32 0x00000000#32) (ix2 a b)
      = dense (fun k => l (ix2 a k)) r b :=
  matmul_zero_plain (M := 5000) (K := 64) (N := 128) dot_S5000x64_S64x128_S5000x128_1_0_0_1_n_n none rfl rfl dC_l0 dC_l1 dC_r0 dC_r1 l r a b

/-! ## The bodies' payloads at an entry -/

theorem hz : (![0, 0] : Fin 2 → Nat) = fun _ => 0 := funext fun a => by fin_cases a <;> rfl

theorem truncf_id {s : Shape} {φ ψ : FTy} (a : FVec Ideal s φ) (h : ψ.bits < φ.bits) : (truncf ψ a h : FVec Ideal s ψ) = a := rfl

theorem extf_id {s : Shape} {φ ψ : FTy} (a : FVec Ideal s φ) (h : φ.bits < ψ.bits) : (extf ψ a h : FVec Ideal s ψ) = a := rfl

/-- The two linear maps of a row block: (A·Wl)(r, j) + bl(j) + (X·Wr)(r, j). -/
theorem k0_pay4_apply (x0 : Vec Ideal S5000x128 .f32) (x1 : Vec Ideal S5000x128 .f32) (x2 : Vec Ideal S128x128 .f32) (x3 : Vec Ideal S1x128 .f32)
    (x4 : Vec Ideal S128x128 .f32) (r : Fin 5000) (j : Fin 128) :
    k0_pay4 x0 x1 x2 x3 x4 (ix2 r j)
      = dense (fun k => x1 (ix2 r k)) x2 j + x3 (ix2 0 j) + dense (fun k => x0 (ix2 r k)) x4 j := by
  unfold k0_pay4 k0_pay2
  simp only [matmul, truncf_id, shapeCast_self]
  rw [addf_apply, addf_apply, dA_mm, dA_mm, broadcastTo_1b_ab_apply]

/-- The side path of a row block: the hidden layer clamped at zero, then the second linear map. -/
theorem k0_pay3_apply (x0 : Vec Ideal S5000x128 .f32) (x5 : Vec Ideal S128x64 .f32) (x6 : Vec Ideal S1x64 .f32) (x7 : Vec Ideal S64x128 .f32)
    (x8 : Vec Ideal S1x128 .f32) (r : Fin 5000) (j : Fin 128) :
    k0_pay1 (k0_pay3 x0 x5 x6 x7 x8) (ix2 r j)
      = dense (fun k => max (dense (fun k' => x0 (ix2 r k')) x5 k + x6 (ix2 0 k)) 0) x7 j + x8 (ix2 0 j) := by
  unfold k0_pay1 k0_pay3 k0_pay2
  simp only [matmul, truncf_id, shapeCast_self]
  rw [addf_apply, dC_mm, broadcastTo_1b_ab_apply]
  simp only [maximumf_apply, addf_apply, dB_mm, broadcastTo_1b_ab_apply, broadcast_apply]
  rw [show (Scalar.ofBits .f32 0x00000000#32 : Ideal .f32) = 0 from Ideal.ofBits_zero_f32]

/-- Normalise, scale, shift, add the side path, clamp at zero: one entry of a row block. -/
theorem k1_pay1_apply (v0 v3 : Vec Ideal S5000x128 .bf16) (v6 v8 v10 v12 : Vec Ideal S1x128 .f32) (r : Fin 5000) (j : Fin 128) :
    k1_pay1 v0 v3 v6 v8 v10 v12 (ix2 r j)
      = max ((v0 (ix2 r j) - v6 (ix2 0 j)) * Ideal.rsqrt (v8 (ix2 0 j) + wEps) * v10 (ix2 0 j) + v12 (ix2 0 j) + v3 (ix2 r j)) 0 := by
  unfold k1_pay1
  simp only [truncf_id, extf_id, shapeCast_self]
  rw [maximumf_apply, addf_apply, addf_apply, mulf_apply, mulf_apply, subf_apply]
  simp only [broadcastTo_1b_ab_apply, broadcast_apply]
  rw [show (Scalar.ofBits .f32 0x00000000#32 : Ideal .f32) = 0 from Ideal.ofBits_zero_f32]
  rfl

/-- The two linear maps of a row block: (A·Wl)(r, j) + bl(j) + (X·Wr)(r, j). -/
theorem k2_pay4_apply (x0 : Vec Ideal S5000x128 .bf16) (x1 : Vec Ideal S5000x128 .f32) (x2 : Vec Ideal S128x128 .f32) (x3 : Vec Ideal S1x128 .f32)
    (x4 : Vec Ideal S128x128 .f32) (r : Fin 5000) (j : Fin 128) :
    k2_pay4 x0 x1 x2 x3 x4 (ix2 r j)
      = dense (fun k => x1 (ix2 r k)) x2 j + x3 (ix2 0 j) + dense (fun k => x0 (ix2 r k)) x4 j := by
  unfold k2_pay4 k2_pay2
  simp only [matmul, truncf_id, shapeCast_self]
  rw [addf_apply, addf_apply, dA_mm, dA_mm, broadcastTo_1b_ab_apply]

/-- The side path of a row block: the hidden layer clamped at zero, then the second linear map. -/
theorem k2_pay3_apply (x0 : Vec Ideal S5000x128 .bf16) (x5 : Vec Ideal S128x64 .f32) (x6 : Vec Ideal S1x64 .f32) (x7 : Vec Ideal S64x128 .f32)
    (x8 : Vec Ideal S1x128 .f32) (r : Fin 5000) (j : Fin 128) :
    k2_pay1 (k2_pay3 x0 x5 x6 x7 x8) (ix2 r j)
      = dense (fun k => max (dense (fun k' => x0 (ix2 r k')) x5 k + x6 (ix2 0 k)) 0) x7 j + x8 (ix2 0 j) := by
  unfold k2_pay1 k2_pay3 k2_pay2
  simp only [matmul, truncf_id, shapeCast_self]
  rw [addf_apply, dC_mm, broadcastTo_1b_ab_apply]
  simp only [maximumf_apply, addf_apply, dB_mm, broadcastTo_1b_ab_apply, broadcast_apply]
  rw [show (Scalar.ofBits .f32 0x00000000#32 : Ideal .f32) = 0 from Ideal.ofBits_zero_f32]

/-- Normalise, scale, shift, add the side path, clamp at zero: one entry of a row block. -/
theorem k3_pay1_apply (v0 v3 : Vec Ideal S5000x128 .bf16) (v6 v8 v10 v12 : Vec Ideal S1x128 .f32) (r : Fin 5000) (j : Fin 128) :
    k3_pay1 v0 v3 v6 v8 v10 v12 (ix2 r j)
      = max ((v0 (ix2 r j) - v6 (ix2 0 j)) * Ideal.rsqrt (v8 (ix2 0 j) + wEps) * v10 (ix2 0 j) + v12 (ix2 0 j) + v3 (ix2 r j)) 0 := by
  unfold k3_pay1
  simp only [truncf_id, extf_id, shapeCast_self]
  rw [maximumf_apply, addf_apply, addf_apply, mulf_apply, mulf_apply, subf_apply]
  simp only [broadcastTo_1b_ab_apply, broadcast_apply]
  rw [show (Scalar.ofBits .f32 0x00000000#32 : Ideal .f32) = 0 from Ideal.ofBits_zero_f32]
  rfl

/-! ## Where a block sits in its array -/

/-- Row `r` of the block of grid point `n`: row `5000·n + r` of the array. -/
def rowOf (n : ℕ) (r : Fin 5000) (hn : n < 20) : Fin 100000 := ⟨5000 * n + r.val, by have := r.isLt; omega⟩

/-! ### Region 0: the index maps, decided over the 20 grid points, and each block read where it sits -/

theorem lt0 (t : Fin cfg0.N) : t.val < 20 := lt_of_lt_of_eq t.isLt N_0

theorem pt0_lt (n : ℕ) (h : n < 100000) : n / 5000 < cfg0.N := lt_of_lt_of_eq (show n / 5000 < 20 by omega) N_0.symm

theorem idx0_0 : ∀ t : Fin cfg0.N, win0_0.index t (0 : Fin 2) = t.val ∧ win0_0.index t (1 : Fin 2) = 0 :=
  (by decide +kernel : ∀ t : Fin grid0.N, _)
theorem emb0_0 (t : Fin cfg0.N) (r : Fin 5000) (j : Fin 128) :
    (((cfg0.win 0).blk t).view.emb (ix2 r j) : S100000x128.Idx) = ix2 (rowOf t.val r (lt0 t)) j := by
  obtain ⟨e0, e1⟩ := idx0_0 t
  funext a; apply Fin.ext
  match a with
  | ⟨0, _⟩ => show win0_0.index t (0 : Fin 2) * 5000 + 1 * r.val = 5000 * t.val + r.val; omega
  | ⟨1, _⟩ => show win0_0.index t (1 : Fin 2) * 128 + 1 * j.val = j.val; omega
theorem idx0_1 : ∀ t : Fin cfg0.N, win0_1.index t (0 : Fin 2) = t.val ∧ win0_1.index t (1 : Fin 2) = 0 :=
  (by decide +kernel : ∀ t : Fin grid0.N, _)
theorem emb0_1 (t : Fin cfg0.N) (r : Fin 5000) (j : Fin 128) :
    (((cfg0.win 1).blk t).view.emb (ix2 r j) : S100000x128.Idx) = ix2 (rowOf t.val r (lt0 t)) j := by
  obtain ⟨e0, e1⟩ := idx0_1 t
  funext a; apply Fin.ext
  match a with
  | ⟨0, _⟩ => show win0_1.index t (0 : Fin 2) * 5000 + 1 * r.val = 5000 * t.val + r.val; omega
  | ⟨1, _⟩ => show win0_1.index t (1 : Fin 2) * 128 + 1 * j.val = j.val; omega
theorem idx0_2 : ∀ t : Fin cfg0.N, win0_2.index t (0 : Fin 2) = 0 ∧ win0_2.index t (1 : Fin 2) = 0 :=
  (by decide +kernel : ∀ t : Fin grid0.N, _)
theorem emb0_2 (t : Fin cfg0.N) (y : S128x128.Idx) : (((cfg0.win 2).blk t).view.emb y : S128x128.Idx) = y := by
  obtain ⟨e0, e1⟩ := idx0_2 t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem idx0_3 : ∀ t : Fin cfg0.N, win0_3.index t (0 : Fin 2) = 0 ∧ win0_3.index t (1 : Fin 2) = 0 :=
  (by decide +kernel : ∀ t : Fin grid0.N, _)
theorem emb0_3 (t : Fin cfg0.N) (y : S1x128.Idx) : (((cfg0.win 3).blk t).view.emb y : S1x128.Idx) = y := by
  obtain ⟨e0, e1⟩ := idx0_3 t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem idx0_4 : ∀ t : Fin cfg0.N, win0_4.index t (0 : Fin 2) = 0 ∧ win0_4.index t (1 : Fin 2) = 0 :=
  (by decide +kernel : ∀ t : Fin grid0.N, _)
theorem emb0_4 (t : Fin cfg0.N) (y : S128x128.Idx) : (((cfg0.win 4).blk t).view.emb y : S128x128.Idx) = y := by
  obtain ⟨e0, e1⟩ := idx0_4 t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem idx0_5 : ∀ t : Fin cfg0.N, win0_5.index t (0 : Fin 2) = 0 ∧ win0_5.index t (1 : Fin 2) = 0 :=
  (by decide +kernel : ∀ t : Fin grid0.N, _)
theorem emb0_5 (t : Fin cfg0.N) (y : S128x64.Idx) : (((cfg0.win 5).blk t).view.emb y : S128x64.Idx) = y := by
  obtain ⟨e0, e1⟩ := idx0_5 t
  funext a; apply Fin.ext
  match a with
  | ⟨0, _⟩ => show win0_5.index t (0 : Fin 2) * 128 + 1 * (y 0).val = (y 0).val; omega
  | ⟨1, _⟩ => show win0_5.index t (1 : Fin 2) * 64 + 1 * (y 1).val = (y 1).val; omega
theorem idx0_6 : ∀ t : Fin cfg0.N, win0_6.index t (0 : Fin 2) = 0 ∧ win0_6.index t (1 : Fin 2) = 0 :=
  (by decide +kernel : ∀ t : Fin grid0.N, _)
theorem emb0_6 (t : Fin cfg0.N) (y : S1x64.Idx) : (((cfg0.win 6).blk t).view.emb y : S1x64.Idx) = y := by
  obtain ⟨e0, e1⟩ := idx0_6 t
  funext a; apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega
theorem idx0_7 : ∀ t : Fin cfg0.N, win0_7.index t (0 : Fin 2) = 0 ∧ win0_7.index t (1 : Fin 2) = 0 :=
  (by decide +kernel : ∀ t : Fin grid0.N, _)
theorem emb0_7 (t : Fin cfg0.N) (y : S64x128.Idx) : (((cfg0.win 7).blk t).view.emb y : S64x128.Idx) = y := by
  obtain ⟨e0, e1⟩ := idx0_7 t
  funext a; apply Fin.ext
  match a with
  | ⟨0, _⟩ => show win0_7.index t (0 : Fin 2) * 64 + 1 * (y 0).val = (y 0).val; omega
  | ⟨1, _⟩ => show win0_7.index t (1 : Fin 2) * 128 + 1 * (y 1).val = (y 1).val; omega
theorem idx0_8 : ∀ t : Fin cfg0.N, win0_8.index t (0 : Fin 2) = 0 ∧ win0_8.index t (1 : Fin 2) = 0 :=
  (by decide +kernel : ∀ t : Fin grid0.N, _)
theorem emb0_8 (t : Fin cfg0.N) (y : S1x128.Idx) : (((cfg0.win 8).blk t).view.emb y : S1x128.Idx) = y := by
  obtain ⟨e0, e1⟩ := idx0_8 t
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega
theorem idx0_9 : ∀ t : Fin cfg0.N, win0_9.index t (0 : Fin 2) = t.val ∧ win0_9.index t (1 : Fin 2) = 0 :=
  (by decide +kernel : ∀ t : Fin grid0.N, _)
theorem emb0_9 (t : Fin cfg0.N) (r : Fin 5000) (j : Fin 128) :
    (((cfg0.win 9).blk t).view.emb (ix2 r j) : S100000x128.Idx) = ix2 (rowOf t.val r (lt0 t)) j := by
  obtain ⟨e0, e1⟩ := idx0_9 t
  funext a; apply Fin.ext
  match a with
  | ⟨0, _⟩ => show win0_9.index t (0 : Fin 2) * 5000 + 1 * r.val = 5000 * t.val + r.val; omega
  | ⟨1, _⟩ => show win0_9.index t (1 : Fin 2) * 128 + 1 * j.val = j.val; omega
/-- Row `n` of the output array is in the block of grid point `n / 5000`. -/
theorem cov0_9 (i : S100000x128.Idx) :
    ∃ t : Fin cfg0.N, (cfg0.win 9).flush t = true ∧ i ∈ ((cfg0.win 9).blk t).view.set := by
  have hi0 : (i 0 : Nat) < 100000 := (i 0).isLt
  have hi1 : (i 1 : Nat) < 128 := (i 1).isLt
  obtain ⟨t, ht⟩ : ∃ t : Fin cfg0.N, t.val = (i 0 : Nat) / 5000 := ⟨⟨_, pt0_lt _ hi0⟩, rfl⟩
  refine ⟨t, flush0_9 t, ?_⟩
  obtain ⟨e0, e1⟩ := idx0_9 t
  show i ∈ ((View.whole main_v30_0).slice (win0_9.rect t)).set
  rw [View.set_slice_whole, Rect.mem_set_unit]
  intro a
  match a with
  | ⟨0, _⟩ =>
    show win0_9.index t (0 : Fin 2) * 5000 ≤ (i 0 : Nat) ∧ (i 0 : Nat) < win0_9.index t (0 : Fin 2) * 5000 + 5000
    omega
  | ⟨1, _⟩ =>
    show win0_9.index t (1 : Fin 2) * 128 ≤ (i 1 : Nat) ∧ (i 1 : Nat) < win0_9.index t (1 : Fin 2) * 128 + 128
    omega
theorem idx0_10 : ∀ t : Fin cfg0.N, win0_10.index t (0 : Fin 2) = t.val ∧ win0_10.index t (1 : Fin 2) = 0 :=
  (by decide +kernel : ∀ t : Fin grid0.N, _)
theorem emb0_10 (t : Fin cfg0.N) (r : Fin 5000) (j : Fin 128) :
    (((cfg0.win 10).blk t).view.emb (ix2 r j) : S100000x128.Idx) = ix2 (rowOf t.val r (lt0 t)) j := by
  obtain ⟨e0, e1⟩ := idx0_10 t
  funext a; apply Fin.ext
  match a with
  | ⟨0, _⟩ => show win0_10.index t (0 : Fin 2) * 5000 + 1 * r.val = 5000 * t.val + r.val; omega
  | ⟨1, _⟩ => show win0_10.index t (1 : Fin 2) * 128 + 1 * j.val = j.val; omega
/-- Row `n` of the output array is in the block of grid point `n / 5000`. -/
theorem cov0_10 (i : S100000x128.Idx) :
    ∃ t : Fin cfg0.N, (cfg0.win 10).flush t = true ∧ i ∈ ((cfg0.win 10).blk t).view.set := by
  have hi0 : (i 0 : Nat) < 100000 := (i 0).isLt
  have hi1 : (i 1 : Nat) < 128 := (i 1).isLt
  obtain ⟨t, ht⟩ : ∃ t : Fin cfg0.N, t.val = (i 0 : Nat) / 5000 := ⟨⟨_, pt0_lt _ hi0⟩, rfl⟩
  refine ⟨t, flush0_10 t, ?_⟩
  obtain ⟨e0, e1⟩ := idx0_10 t
  show i ∈ ((View.whole main_v30_1).slice (win0_10.rect t)).set
  rw [View.set_slice_whole, Rect.mem_set_unit]
  intro a
  match a with
  | ⟨0, _⟩ =>
    show win0_10.index t (0 : Fin 2) * 5000 ≤ (i 0 : Nat) ∧ (i 0 : Nat) < win0_10.index t (0 : Fin 2) * 5000 + 5000
    omega
  | ⟨1, _⟩ =>
    show win0_10.index t (1 : Fin 2) * 128 ≤ (i 1 : Nat) ∧ (i 1 : Nat) < win0_10.index t (1 : Fin 2) * 128 + 128
    omega

section
variable (V : (c : Dev nD) → (b : Ref sig .tc) → Buf (Elt Ideal) ((c : Thread nD τ).loc b))

theorem blk0_0 (c : Dev nD) (t : Fin cfg0.N) (r : Fin 5000) (j : Fin 128) :
    (iblk0 V c 0 t : Vec Ideal S5000x128 .f32) (ix2 r j)
      = (V c (Pipeline.arrRef spec0 0) : Mat 100000 128) (ix2 (rowOf t.val r (lt0 t)) j) := by
  unfold iblk0
  rw [View.read_apply]
  exact congrArg (V c (Pipeline.arrRef spec0 0) : Mat 100000 128) (emb0_0 t r j)
theorem blk0_1 (c : Dev nD) (t : Fin cfg0.N) (r : Fin 5000) (j : Fin 128) :
    (iblk0 V c 1 t : Vec Ideal S5000x128 .f32) (ix2 r j)
      = (V c (Pipeline.arrRef spec0 1) : Mat 100000 128) (ix2 (rowOf t.val r (lt0 t)) j) := by
  unfold iblk0
  rw [View.read_apply]
  exact congrArg (V c (Pipeline.arrRef spec0 1) : Mat 100000 128) (emb0_1 t r j)
theorem blk0_2 (c : Dev nD) (t : Fin cfg0.N) :
    (iblk0 V c 2 t : Vec Ideal S128x128 .f32) = (V c (Pipeline.arrRef spec0 2) : Mat 128 128) := by
  funext y
  unfold iblk0
  rw [View.read_apply]
  exact congrArg (V c (Pipeline.arrRef spec0 2) : Mat 128 128) (emb0_2 t y)
theorem blk0_3 (c : Dev nD) (t : Fin cfg0.N) :
    (iblk0 V c 3 t : Vec Ideal S1x128 .f32) = (V c (Pipeline.arrRef spec0 3) : Mat 1 128) := by
  funext y
  unfold iblk0
  rw [View.read_apply]
  exact congrArg (V c (Pipeline.arrRef spec0 3) : Mat 1 128) (emb0_3 t y)
theorem blk0_4 (c : Dev nD) (t : Fin cfg0.N) :
    (iblk0 V c 4 t : Vec Ideal S128x128 .f32) = (V c (Pipeline.arrRef spec0 4) : Mat 128 128) := by
  funext y
  unfold iblk0
  rw [View.read_apply]
  exact congrArg (V c (Pipeline.arrRef spec0 4) : Mat 128 128) (emb0_4 t y)
theorem blk0_5 (c : Dev nD) (t : Fin cfg0.N) :
    (iblk0 V c 5 t : Vec Ideal S128x64 .f32) = (V c (Pipeline.arrRef spec0 5) : Mat 128 64) := by
  funext y
  unfold iblk0
  rw [View.read_apply]
  exact congrArg (V c (Pipeline.arrRef spec0 5) : Mat 128 64) (emb0_5 t y)
theorem blk0_6 (c : Dev nD) (t : Fin cfg0.N) :
    (iblk0 V c 6 t : Vec Ideal S1x64 .f32) = (V c (Pipeline.arrRef spec0 6) : Mat 1 64) := by
  funext y
  unfold iblk0
  rw [View.read_apply]
  exact congrArg (V c (Pipeline.arrRef spec0 6) : Mat 1 64) (emb0_6 t y)
theorem blk0_7 (c : Dev nD) (t : Fin cfg0.N) :
    (iblk0 V c 7 t : Vec Ideal S64x128 .f32) = (V c (Pipeline.arrRef spec0 7) : Mat 64 128) := by
  funext y
  unfold iblk0
  rw [View.read_apply]
  exact congrArg (V c (Pipeline.arrRef spec0 7) : Mat 64 128) (emb0_7 t y)
theorem blk0_8 (c : Dev nD) (t : Fin cfg0.N) :
    (iblk0 V c 8 t : Vec Ideal S1x128 .f32) = (V c (Pipeline.arrRef spec0 8) : Mat 1 128) := by
  funext y
  unfold iblk0
  rw [View.read_apply]
  exact congrArg (V c (Pipeline.arrRef spec0 8) : Mat 1 128) (emb0_8 t y)
theorem rd0_9 (t : Fin cfg0.N) (G : Mat 100000 128) (r : Fin 5000) (j : Fin 128) :
    (((cfg0.win 9).blk t).view.read (Elt Ideal) G : Vec Ideal S5000x128 .bf16) (ix2 r j)
      = G (ix2 (rowOf t.val r (lt0 t)) j) := by
  rw [View.read_apply]
  exact congrArg G (emb0_9 t r j)
theorem rd0_10 (t : Fin cfg0.N) (G : Mat 100000 128) (r : Fin 5000) (j : Fin 128) :
    (((cfg0.win 10).blk t).view.read (Elt Ideal) G : Vec Ideal S5000x128 .bf16) (ix2 r j)
      = G (ix2 (rowOf t.val r (lt0 t)) j) := by
  rw [View.read_apply]
  exact congrArg G (emb0_10 t r j)

end

/-! ### Region 0: what each grid point writes back, and the two output arrays -/

section
variable (V : (c : Dev nD) → (b : Ref sig .tc) → Buf (Elt Ideal) ((c : Thread nD τ).loc b))

set_option maxHeartbeats 1000000 in
/-- Grid point `t` writes back rows 5000·t … 5000·t + 4999 of the two linear maps of the whole arrays. -/
theorem flushed0_9_eq (c : Dev nD) (t : Fin cfg0.N) :
    (dat0 V c).flushed 9 t = ((cfg0.win 9).blk t).view.read (Elt Ideal)
      (arr2 (xpre (cur (V c (Pipeline.arrRef spec0 1) : Mat 100000 128)) (cur (V c (Pipeline.arrRef spec0 0) : Mat 100000 128)) (V c (Pipeline.arrRef spec0 2) : Mat 128 128) (fun j => (V c (Pipeline.arrRef spec0 3) : Mat 1 128) (ix2 0 j)) (V c (Pipeline.arrRef spec0 4) : Mat 128 128))) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  rw [rd0_9, arr2_ix2]
  show k0_pay4 (F := Ideal) _ _ _ _ _ (ix2 r j) = _
  rw [k0_pay4_apply, blk0_2, blk0_3, blk0_4]
  simp only [blk0_0, blk0_1, xpre]
  rfl

theorem region0_xpre (c : Dev nD) : (dat0 V c).arrAt 9 cfg0.N
    = arr2 (xpre (cur (V c (Pipeline.arrRef spec0 1) : Mat 100000 128)) (cur (V c (Pipeline.arrRef spec0 0) : Mat 100000 128)) (V c (Pipeline.arrRef spec0 2) : Mat 128 128) (fun j => (V c (Pipeline.arrRef spec0 3) : Mat 1 128) (ix2 0 j)) (V c (Pipeline.arrRef spec0 4) : Mat 128 128)) :=
  (dat0 V c).arrAt_eq_of_cover 9 _ (fun t _ => flushed0_9_eq V c t) cov0_9

set_option maxHeartbeats 1000000 in
/-- Grid point `t` writes back rows 5000·t … 5000·t + 4999 of the side path of the whole arrays. -/
theorem flushed0_10_eq (c : Dev nD) (t : Fin cfg0.N) :
    (dat0 V c).flushed 10 t = ((cfg0.win 10).blk t).view.read (Elt Ideal)
      (arr2 (skip (cur (V c (Pipeline.arrRef spec0 0) : Mat 100000 128)) (V c (Pipeline.arrRef spec0 5) : Mat 128 64) (fun k => (V c (Pipeline.arrRef spec0 6) : Mat 1 64) (ix2 0 k)) (V c (Pipeline.arrRef spec0 7) : Mat 64 128) (fun j => (V c (Pipeline.arrRef spec0 8) : Mat 1 128) (ix2 0 j)))) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x64) hz, View.ld_unit_zero (S := S1x64) hz, View.ld_unit_zero (S := S64x128) hz, View.ld_unit_zero (S := S1x128) hz]
  funext y
  obtain ⟨r, j, rfl⟩ : ∃ (r : Fin 5000) (j : Fin 128), y = ix2 r j := ⟨y 0, y 1, eq_ix2 y⟩
  rw [rd0_10, arr2_ix2]
  show k0_pay1 (F := Ideal) (k0_pay3 _ _ _ _ _) (ix2 r j) = _
  rw [k0_pay3_apply, blk0_5, blk0_6, blk0_7, blk0_8]
  simp only [blk0_0, skip]
  rfl

theorem region0_skip (c : Dev nD) : (dat0 V c).arrAt 10 cfg0.N
    = arr2 (skip (cur (V c (Pipeline.arrRef spec0 0) : Mat 100000 128)) (V c (Pipeline.arrRef spec0 5) : Mat 128 64) (fun k => (V c (Pipeline.arrRef spec0 6) : Mat 1 64) (ix2 0 k)) (V c (Pipeline.arrRef spec0 7) : Mat 64 128) (fun j => (V c (Pipeline.arrRef spec0 8) : Mat 1 128) (ix2 0 j))) :=
  (dat0 V c).arrAt_eq_of_cover 10 _ (fun t _ => flushed0_10_eq V c t) cov0_10

end

/-! ### Region 1: the index maps, decided over the 20 grid points, and each block read where it sits -/

theorem lt1 (t : Fin cfg1.N) : t.val < 20 := lt_of_lt_of_eq t.isLt N_1

theorem pt1_lt (n : ℕ) (h : n < 100000) : n / 5000 < cfg1.N := lt_of_lt_of_eq (show n / 5000 < 20 by omega) N_1.symm

theorem idx1_0 : ∀ t : Fin cfg1.N, win1_0.index t (0 : Fin 2) = t.val ∧ win1_0.index t (1 : Fin 2) = 0 :=
  (by decide +kernel : ∀ t : Fin grid1.N, _)
theorem emb1_0 (t : Fin cfg1.N) (r : Fin 5000) (j : Fin 128) :
    (((cfg1.win 0).blk t).view.emb (ix2 r j) : S100000x128.Idx) = ix2 (rowOf t.val r (lt1 t)) j := by
  obtain ⟨e0, e1⟩ := idx1_0 t
  funext a; apply Fin.ext
  match a with
  | ⟨0, _⟩ => show win1_0.index t (0 : Fin 2) * 5000 + 1 * r.val = 5000 * t.val + r.val; omega
  | ⟨1, _⟩ => show win1_0.index t (1 : Fin 2) * 128 + 1 * j.val = j.val; omega
theorem idx1_1 : ∀ t : Fin cfg1.N, win1_1.index t (0 : Fin 2) = t.val ∧ win1_1.index t (1 : Fin 2) = 0 :=
  (by decide +kernel : ∀ t : Fin grid1.N, _)
theorem emb1_1 (t : Fin cfg1.N) (r : Fin 5000) (j : Fin 128) :
    (((cfg1.win 1).blk t).view.emb (ix2 r j) : S100000x128.Idx) = ix2 (rowOf t.val r (lt1 t)) j := by
  obtain ⟨e0, e1⟩ := idx1_1 t
  funext a; apply Fin.ext
  match a with
  | ⟨0, _⟩ => show win1_1.index t (0 : Fin 2) * 5000 + 1 * r.val = 5000 * t.val + r.val; omega
  | ⟨1, _⟩ => show win1_1.index t (1 : Fin 2) * 128 + 1 * j.val = j.val; omega
theorem idx1_2 : ∀ t : Fin cfg1.N, win1_2.index t (0 : Fin 2) = 0 ∧ win1_2.index t (1 : Fin 2) = 0 :=
  (by decide +kernel : ∀ t : Fin grid1.N, _)
theorem emb1_2 (t : Fin cfg1.N) (y : S1x128.Idx) : (((cfg1.win 2).blk t).view.emb y : S1x128.Idx) = y := by
  obtain ⟨e0, e1⟩ := idx1_2 t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem idx1_3 : ∀ t : Fin cfg1.N, win1_3.index t (0 : Fin 2) = 0 ∧ win1_3.index t (1 : Fin 2) = 0 :=
  (by decide +kernel : ∀ t : Fin grid1.N, _)
theorem emb1_3 (t : Fin cfg1.N) (y : S1x128.Idx) : (((cfg1.win 3).blk t).view.emb y : S1x128.Idx) = y := by
  obtain ⟨e0, e1⟩ := idx1_3 t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem idx1_4 : ∀ t : Fin cfg1.N, win1_4.index t (0 : Fin 2) = 0 ∧ win1_4.index t (1 : Fin 2) = 0 :=
  (by decide +kernel : ∀ t : Fin grid1.N, _)
theorem emb1_4 (t : Fin cfg1.N) (y : S1x128.Idx) : (((cfg1.win 4).blk t).view.emb y : S1x128.Idx) = y := by
  obtain ⟨e0, e1⟩ := idx1_4 t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem idx1_5 : ∀ t : Fin cfg1.N, win1_5.index t (0 : Fin 2) = 0 ∧ win1_5.index t (1 : Fin 2) = 0 :=
  (by decide +kernel : ∀ t : Fin grid1.N, _)
theorem emb1_5 (t : Fin cfg1.N) (y : S1x128.Idx) : (((cfg1.win 5).blk t).view.emb y : S1x128.Idx) = y := by
  obtain ⟨e0, e1⟩ := idx1_5 t
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega
theorem idx1_6 : ∀ t : Fin cfg1.N, win1_6.index t (0 : Fin 2) = t.val ∧ win1_6.index t (1 : Fin 2) = 0 :=
  (by decide +kernel : ∀ t : Fin grid1.N, _)
theorem emb1_6 (t : Fin cfg1.N) (r : Fin 5000) (j : Fin 128) :
    (((cfg1.win 6).blk t).view.emb (ix2 r j) : S100000x128.Idx) = ix2 (rowOf t.val r (lt1 t)) j := by
  obtain ⟨e0, e1⟩ := idx1_6 t
  funext a; apply Fin.ext
  match a with
  | ⟨0, _⟩ => show win1_6.index t (0 : Fin 2) * 5000 + 1 * r.val = 5000 * t.val + r.val; omega
  | ⟨1, _⟩ => show win1_6.index t (1 : Fin 2) * 128 + 1 * j.val = j.val; omega
/-- Row `n` of the output array is in the block of grid point `n / 5000`. -/
theorem cov1_6 (i : S100000x128.Idx) :
    ∃ t : Fin cfg1.N, (cfg1.win 6).flush t = true ∧ i ∈ ((cfg1.win 6).blk t).view.set := by
  have hi0 : (i 0 : Nat) < 100000 := (i 0).isLt
  have hi1 : (i 1 : Nat) < 128 := (i 1).isLt
  obtain ⟨t, ht⟩ : ∃ t : Fin cfg1.N, t.val = (i 0 : Nat) / 5000 := ⟨⟨_, pt1_lt _ hi0⟩, rfl⟩
  refine ⟨t, flush1_6 t, ?_⟩
  obtain ⟨e0, e1⟩ := idx1_6 t
  show i ∈ ((View.whole main_v47).slice (win1_6.rect t)).set
  rw [View.set_slice_whole, Rect.mem_set_unit]
  intro a
  match a with
  | ⟨0, _⟩ =>
    show win1_6.index t (0 : Fin 2) * 5000 ≤ (i 0 : Nat) ∧ (i 0 : Nat) < win1_6.index t (0 : Fin 2) * 5000 + 5000
    omega
  | ⟨1, _⟩ =>
    show win1_6.index t (1 : Fin 2) * 128 ≤ (i 1 : Nat) ∧ (i 1 : Nat) < win1_6.index t (1 : Fin 2) * 128 + 128
    omega

section
variable (V : (c : Dev nD) → (b : Ref sig .tc) → Buf (Elt Ideal) ((c : Thread nD τ).loc b))

theorem blk1_0 (c : Dev nD) (t : Fin cfg1.N) (r : Fin 5000) (j : Fin 128) :
    (iblk1 V c 0 t : Vec Ideal S5000x128 .bf16) (ix2 r j)
      = (V c (Pipeline.arrRef spec1 0) : Mat 100000 128) (ix2 (rowOf t.val r (lt1 t)) j) := by
  unfold iblk1
  rw [View.read_apply]
  exact congrArg (V c (Pipeline.arrRef spec1 0) : Mat 100000 128) (emb1_0 t r j)
theorem blk1_1 (c : Dev nD) (t : Fin cfg1.N) (r : Fin 5000) (j : Fin 128) :
    (iblk1 V c 1 t : Vec Ideal S5000x128 .bf16) (ix2 r j)
      = (V c (Pipeline.arrRef spec1 1) : Mat 100000 128) (ix2 (rowOf t.val r (lt1 t)) j) := by
  unfold iblk1
  rw [View.read_apply]
  exact congrArg (V c (Pipeline.arrRef spec1 1) : Mat 100000 128) (emb1_1 t r j)
theorem blk1_2 (c : Dev nD) (t : Fin cfg1.N) :
    (iblk1 V c 2 t : Vec Ideal S1x128 .f32) = (V c (Pipeline.arrRef spec1 2) : Mat 1 128) := by
  funext y
  unfold iblk1
  rw [View.read_apply]
  exact congrArg (V c (Pipeline.arrRef spec1 2) : Mat 1 128) (emb1_2 t y)
theorem blk1_3 (c : Dev nD) (t : Fin cfg1.N) :
    (iblk1 V c 3 t : Vec Ideal S1x128 .f32) = (V c (Pipeline.arrRef spec1 3) : Mat 1 128) := by
  funext y
  unfold iblk1
  rw [View.read_apply]
  exact congrArg (V c (Pipeline.arrRef spec1 3) : Mat 1 128) (emb1_3 t y)
theorem blk1_4 (c : Dev nD) (t : Fin cfg1.N) :
    (iblk1 V c 4 t : Vec Ideal S1x128 .f32) = (V c (Pipeline.arrRef spec1 4) : Mat 1 128) := by
  funext y
  unfold iblk1
  rw [View.read_apply]
  exact congrArg (V c (Pipeline.arrRef spec1 4) : Mat 1 128) (emb1_4 t y)
theorem blk1_5 (c : Dev nD) (t : Fin cfg1.N) :
    (iblk1 V c 5 t : Vec Ideal S1x128 .f32) = (V c (Pipeline.arrRef spec1 5) : Mat 1 128) := by
  funext y
  unfold iblk1
  rw [View.read_apply]
  exact congrArg (V c (Pipeline.arrRef spec1 5) : Mat 1 128) (emb1_5 t y)
theorem rd1_6 (t : Fin cfg1.N) (G : Mat 100000 128) (r : Fin 5000) (j : Fin 128) :
    (((cfg1.win 6).blk t).view.read (Elt Ideal) G : Vec Ideal S5000x128 .bf16) (ix2 r j)
      = G (ix2 (rowOf t.val r (lt1 t)) j) := by
  rw [View.read_apply]
  exact congrArg G (emb1_6 t r j)

end

/-! ### Region 1: what each grid point writes back, and the output array -/

section
variable (V : (c : Dev nD) → (b : Ref sig .tc) → Buf (Elt Ideal) ((c : Thread nD τ).loc b))

set_option maxHeartbeats 1000000 in
/-- Grid point `t` writes back rows 5000·t … 5000·t + 4999 of the normalised, shifted and clamped array. -/
theorem flushed1_6_eq (c : Dev nD) (t : Fin cfg1.N) :
    (dat1 V c).flushed 6 t = ((cfg1.win 6).blk t).view.read (Elt Ideal)
      (arr2 (bn (cur (V c (Pipeline.arrRef spec1 0) : Mat 100000 128)) (cur (V c (Pipeline.arrRef spec1 1) : Mat 100000 128)) (fun j => (V c (Pipeline.arrRef spec1 2) : Mat 1 128) (ix2 0 j)) (fun j => (V c (Pipeline.arrRef spec1 3) : Mat 1 128) (ix2 0 j)) (fun j => (V c (Pipeline.arrRef spec1 4) : Mat 1 128) (ix2 0 j)) (fun j => (V c (Pipeline.arrRef spec1 5) : Mat 1 128) (ix2 0 j)))) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz]
  funext y
  obtain ⟨r, j, rfl⟩ : ∃ (r : Fin 5000) (j : Fin 128), y = ix2 r j := ⟨y 0, y 1, eq_ix2 y⟩
  rw [rd1_6, arr2_ix2]
  show k1_pay1 (F := Ideal) _ _ _ _ _ _ (ix2 r j) = _
  rw [k1_pay1_apply, blk1_2, blk1_3, blk1_4, blk1_5, blk1_0, blk1_1]
  simp only [bn, cur]

theorem region1_out (c : Dev nD) : (dat1 V c).arrAt 6 cfg1.N
    = arr2 (bn (cur (V c (Pipeline.arrRef spec1 0) : Mat 100000 128)) (cur (V c (Pipeline.arrRef spec1 1) : Mat 100000 128)) (fun j => (V c (Pipeline.arrRef spec1 2) : Mat 1 128) (ix2 0 j)) (fun j => (V c (Pipeline.arrRef spec1 3) : Mat 1 128) (ix2 0 j)) (fun j => (V c (Pipeline.arrRef spec1 4) : Mat 1 128) (ix2 0 j)) (fun j => (V c (Pipeline.arrRef spec1 5) : Mat 1 128) (ix2 0 j))) :=
  (dat1 V c).arrAt_eq_of_cover 6 _ (fun t _ => flushed1_6_eq V c t) cov1_6

end

/-! ### Region 2: the index maps, decided over the 20 grid points, and each block read where it sits -/

theorem lt2 (t : Fin cfg2.N) : t.val < 20 := lt_of_lt_of_eq t.isLt N_2

theorem pt2_lt (n : ℕ) (h : n < 100000) : n / 5000 < cfg2.N := lt_of_lt_of_eq (show n / 5000 < 20 by omega) N_2.symm

theorem idx2_0 : ∀ t : Fin cfg2.N, win2_0.index t (0 : Fin 2) = t.val ∧ win2_0.index t (1 : Fin 2) = 0 :=
  (by decide +kernel : ∀ t : Fin grid2.N, _)
theorem emb2_0 (t : Fin cfg2.N) (r : Fin 5000) (j : Fin 128) :
    (((cfg2.win 0).blk t).view.emb (ix2 r j) : S100000x128.Idx) = ix2 (rowOf t.val r (lt2 t)) j := by
  obtain ⟨e0, e1⟩ := idx2_0 t
  funext a; apply Fin.ext
  match a with
  | ⟨0, _⟩ => show win2_0.index t (0 : Fin 2) * 5000 + 1 * r.val = 5000 * t.val + r.val; omega
  | ⟨1, _⟩ => show win2_0.index t (1 : Fin 2) * 128 + 1 * j.val = j.val; omega
theorem idx2_1 : ∀ t : Fin cfg2.N, win2_1.index t (0 : Fin 2) = t.val ∧ win2_1.index t (1 : Fin 2) = 0 :=
  (by decide +kernel : ∀ t : Fin grid2.N, _)
theorem emb2_1 (t : Fin cfg2.N) (r : Fin 5000) (j : Fin 128) :
    (((cfg2.win 1).blk t).view.emb (ix2 r j) : S100000x128.Idx) = ix2 (rowOf t.val r (lt2 t)) j := by
  obtain ⟨e0, e1⟩ := idx2_1 t
  funext a; apply Fin.ext
  match a with
  | ⟨0, _⟩ => show win2_1.index t (0 : Fin 2) * 5000 + 1 * r.val = 5000 * t.val + r.val; omega
  | ⟨1, _⟩ => show win2_1.index t (1 : Fin 2) * 128 + 1 * j.val = j.val; omega
theorem idx2_2 : ∀ t : Fin cfg2.N, win2_2.index t (0 : Fin 2) = 0 ∧ win2_2.index t (1 : Fin 2) = 0 :=
  (by decide +kernel : ∀ t : Fin grid2.N, _)
theorem emb2_2 (t : Fin cfg2.N) (y : S128x128.Idx) : (((cfg2.win 2).blk t).view.emb y : S128x128.Idx) = y := by
  obtain ⟨e0, e1⟩ := idx2_2 t
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem idx2_3 : ∀ t : Fin cfg2.N, win2_3.index t (0 : Fin 2) = 0 ∧ win2_3.index t (1 : Fin 2) = 0 :=
  (by decide +kernel : ∀ t : Fin grid2.N, _)
theorem emb2_3 (t : Fin cfg2.N) (y : S1x128.Idx) : (((cfg2.win 3).blk t).view.emb y : S1x128.Idx) = y := by
  obtain ⟨e0, e1⟩ := idx2_3 t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega
theorem idx2_4 : ∀ t : Fin cfg2.N, win2_4.index t (0 : Fin 2) = 0 ∧ win2_4.index t (1 : Fin 2) = 0 :=
  (by decide +kernel : ∀ t : Fin grid2.N, _)
theorem emb2_4 (t : Fin cfg2.N) (y : S128x128.Idx) : (((cfg2.win 4).blk t).view.emb y : S128x128.Idx) = y := by
  obtain ⟨e0, e1⟩ := idx2_4 t
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem idx2_5 : ∀ t : Fin cfg2.N, win2_5.index t (0 : Fin 2) = 0 ∧ win2_5.index t (1 : Fin 2) = 0 :=
  (by decide +kernel : ∀ t : Fin grid2.N, _)
theorem emb2_5 (t : Fin cfg2.N) (y : S128x64.Idx) : (((cfg2.win 5).blk t).view.emb y : S128x64.Idx) = y := by
  obtain ⟨e0, e1⟩ := idx2_5 t
  funext a; apply Fin.ext
  match a with
  | ⟨0, _⟩ => show win2_5.index t (0 : Fin 2) * 128 + 1 * (y 0).val = (y 0).val; omega
  | ⟨1, _⟩ => show win2_5.index t (1 : Fin 2) * 64 + 1 * (y 1).val = (y 1).val; omega
theorem idx2_6 : ∀ t : Fin cfg2.N, win2_6.index t (0 : Fin 2) = 0 ∧ win2_6.index t (1 : Fin 2) = 0 :=
  (by decide +kernel : ∀ t : Fin grid2.N, _)
theorem emb2_6 (t : Fin cfg2.N) (y : S1x64.Idx) : (((cfg2.win 6).blk t).view.emb y : S1x64.Idx) = y := by
  obtain ⟨e0, e1⟩ := idx2_6 t
  funext a; apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega
theorem idx2_7 : ∀ t : Fin cfg2.N, win2_7.index t (0 : Fin 2) = 0 ∧ win2_7.index t (1 : Fin 2) = 0 :=
  (by decide +kernel : ∀ t : Fin grid2.N, _)
theorem emb2_7 (t : Fin cfg2.N) (y : S64x128.Idx) : (((cfg2.win 7).blk t).view.emb y : S64x128.Idx) = y := by
  obtain ⟨e0, e1⟩ := idx2_7 t
  funext a; apply Fin.ext
  match a with
  | ⟨0, _⟩ => show win2_7.index t (0 : Fin 2) * 64 + 1 * (y 0).val = (y 0).val; omega
  | ⟨1, _⟩ => show win2_7.index t (1 : Fin 2) * 128 + 1 * (y 1).val = (y 1).val; omega
theorem idx2_8 : ∀ t : Fin cfg2.N, win2_8.index t (0 : Fin 2) = 0 ∧ win2_8.index t (1 : Fin 2) = 0 :=
  (by decide +kernel : ∀ t : Fin grid2.N, _)
theorem emb2_8 (t : Fin cfg2.N) (y : S1x128.Idx) : (((cfg2.win 8).blk t).view.emb y : S1x128.Idx) = y := by
  obtain ⟨e0, e1⟩ := idx2_8 t
  funext a; apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega
theorem idx2_9 : ∀ t : Fin cfg2.N, win2_9.index t (0 : Fin 2) = t.val ∧ win2_9.index t (1 : Fin 2) = 0 :=
  (by decide +kernel : ∀ t : Fin grid2.N, _)
theorem emb2_9 (t : Fin cfg2.N) (r : Fin 5000) (j : Fin 128) :
    (((cfg2.win 9).blk t).view.emb (ix2 r j) : S100000x128.Idx) = ix2 (rowOf t.val r (lt2 t)) j := by
  obtain ⟨e0, e1⟩ := idx2_9 t
  funext a; apply Fin.ext
  match a with
  | ⟨0, _⟩ => show win2_9.index t (0 : Fin 2) * 5000 + 1 * r.val = 5000 * t.val + r.val; omega
  | ⟨1, _⟩ => show win2_9.index t (1 : Fin 2) * 128 + 1 * j.val = j.val; omega
/-- Row `n` of the output array is in the block of grid point `n / 5000`. -/
theorem cov2_9 (i : S100000x128.Idx) :
    ∃ t : Fin cfg2.N, (cfg2.win 9).flush t = true ∧ i ∈ ((cfg2.win 9).blk t).view.set := by
  have hi0 : (i 0 : Nat) < 100000 := (i 0).isLt
  have hi1 : (i 1 : Nat) < 128 := (i 1).isLt
  obtain ⟨t, ht⟩ : ∃ t : Fin cfg2.N, t.val = (i 0 : Nat) / 5000 := ⟨⟨_, pt2_lt _ hi0⟩, rfl⟩
  refine ⟨t, flush2_9 t, ?_⟩
  obtain ⟨e0, e1⟩ := idx2_9 t
  show i ∈ ((View.whole main_v65_0).slice (win2_9.rect t)).set
  rw [View.set_slice_whole, Rect.mem_set_unit]
  intro a
  match a with
  | ⟨0, _⟩ =>
    show win2_9.index t (0 : Fin 2) * 5000 ≤ (i 0 : Nat) ∧ (i 0 : Nat) < win2_9.index t (0 : Fin 2) * 5000 + 5000
    omega
  | ⟨1, _⟩ =>
    show win2_9.index t (1 : Fin 2) * 128 ≤ (i 1 : Nat) ∧ (i 1 : Nat) < win2_9.index t (1 : Fin 2) * 128 + 128
    omega
theorem idx2_10 : ∀ t : Fin cfg2.N, win2_10.index t (0 : Fin 2) = t.val ∧ win2_10.index t (1 : Fin 2) = 0 :=
  (by decide +kernel : ∀ t : Fin grid2.N, _)
theorem emb2_10 (t : Fin cfg2.N) (r : Fin 5000) (j : Fin 128) :
    (((cfg2.win 10).blk t).view.emb (ix2 r j) : S100000x128.Idx) = ix2 (rowOf t.val r (lt2 t)) j := by
  obtain ⟨e0, e1⟩ := idx2_10 t
  funext a; apply Fin.ext
  match a with
  | ⟨0, _⟩ => show win2_10.index t (0 : Fin 2) * 5000 + 1 * r.val = 5000 * t.val + r.val; omega
  | ⟨1, _⟩ => show win2_10.index t (1 : Fin 2) * 128 + 1 * j.val = j.val; omega
/-- Row `n` of the output array is in the block of grid point `n / 5000`. -/
theorem cov2_10 (i : S100000x128.Idx) :
    ∃ t : Fin cfg2.N, (cfg2.win 10).flush t = true ∧ i ∈ ((cfg2.win 10).blk t).view.set := by
  have hi0 : (i 0 : Nat) < 100000 := (i 0).isLt
  have hi1 : (i 1 : Nat) < 128 := (i 1).isLt
  obtain ⟨t, ht⟩ : ∃ t : Fin cfg2.N, t.val = (i 0 : Nat) / 5000 := ⟨⟨_, pt2_lt _ hi0⟩, rfl⟩
  refine ⟨t, flush2_10 t, ?_⟩
  obtain ⟨e0, e1⟩ := idx2_10 t
  show i ∈ ((View.whole main_v65_1).slice (win2_10.rect t)).set
  rw [View.set_slice_whole, Rect.mem_set_unit]
  intro a
  match a with
  | ⟨0, _⟩ =>
    show win2_10.index t (0 : Fin 2) * 5000 ≤ (i 0 : Nat) ∧ (i 0 : Nat) < win2_10.index t (0 : Fin 2) * 5000 + 5000
    omega
  | ⟨1, _⟩ =>
    show win2_10.index t (1 : Fin 2) * 128 ≤ (i 1 : Nat) ∧ (i 1 : Nat) < win2_10.index t (1 : Fin 2) * 128 + 128
    omega

section
variable (V : (c : Dev nD) → (b : Ref sig .tc) → Buf (Elt Ideal) ((c : Thread nD τ).loc b))

theorem blk2_0 (c : Dev nD) (t : Fin cfg2.N) (r : Fin 5000) (j : Fin 128) :
    (iblk2 V c 0 t : Vec Ideal S5000x128 .bf16) (ix2 r j)
      = (V c (Pipeline.arrRef spec2 0) : Mat 100000 128) (ix2 (rowOf t.val r (lt2 t)) j) := by
  unfold iblk2
  rw [View.read_apply]
  exact congrArg (V c (Pipeline.arrRef spec2 0) : Mat 100000 128) (emb2_0 t r j)
theorem blk2_1 (c : Dev nD) (t : Fin cfg2.N) (r : Fin 5000) (j : Fin 128) :
    (iblk2 V c 1 t : Vec Ideal S5000x128 .f32) (ix2 r j)
      = (V c (Pipeline.arrRef spec2 1) : Mat 100000 128) (ix2 (rowOf t.val r (lt2 t)) j) := by
  unfold iblk2
  rw [View.read_apply]
  exact congrArg (V c (Pipeline.arrRef spec2 1) : Mat 100000 128) (emb2_1 t r j)
theorem blk2_2 (c : Dev nD) (t : Fin cfg2.N) :
    (iblk2 V c 2 t : Vec Ideal S128x128 .f32) = (V c (Pipeline.arrRef spec2 2) : Mat 128 128) := by
  funext y
  unfold iblk2
  rw [View.read_apply]
  exact congrArg (V c (Pipeline.arrRef spec2 2) : Mat 128 128) (emb2_2 t y)
theorem blk2_3 (c : Dev nD) (t : Fin cfg2.N) :
    (iblk2 V c 3 t : Vec Ideal S1x128 .f32) = (V c (Pipeline.arrRef spec2 3) : Mat 1 128) := by
  funext y
  unfold iblk2
  rw [View.read_apply]
  exact congrArg (V c (Pipeline.arrRef spec2 3) : Mat 1 128) (emb2_3 t y)
theorem blk2_4 (c : Dev nD) (t : Fin cfg2.N) :
    (iblk2 V c 4 t : Vec Ideal S128x128 .f32) = (V c (Pipeline.arrRef spec2 4) : Mat 128 128) := by
  funext y
  unfold iblk2
  rw [View.read_apply]
  exact congrArg (V c (Pipeline.arrRef spec2 4) : Mat 128 128) (emb2_4 t y)
theorem blk2_5 (c : Dev nD) (t : Fin cfg2.N) :
    (iblk2 V c 5 t : Vec Ideal S128x64 .f32) = (V c (Pipeline.arrRef spec2 5) : Mat 128 64) := by
  funext y
  unfold iblk2
  rw [View.read_apply]
  exact congrArg (V c (Pipeline.arrRef spec2 5) : Mat 128 64) (emb2_5 t y)
theorem blk2_6 (c : Dev nD) (t : Fin cfg2.N) :
    (iblk2 V c 6 t : Vec Ideal S1x64 .f32) = (V c (Pipeline.arrRef spec2 6) : Mat 1 64) := by
  funext y
  unfold iblk2
  rw [View.read_apply]
  exact congrArg (V c (Pipeline.arrRef spec2 6) : Mat 1 64) (emb2_6 t y)
theorem blk2_7 (c : Dev nD) (t : Fin cfg2.N) :
    (iblk2 V c 7 t : Vec Ideal S64x128 .f32) = (V c (Pipeline.arrRef spec2 7) : Mat 64 128) := by
  funext y
  unfold iblk2
  rw [View.read_apply]
  exact congrArg (V c (Pipeline.arrRef spec2 7) : Mat 64 128) (emb2_7 t y)
theorem blk2_8 (c : Dev nD) (t : Fin cfg2.N) :
    (iblk2 V c 8 t : Vec Ideal S1x128 .f32) = (V c (Pipeline.arrRef spec2 8) : Mat 1 128) := by
  funext y
  unfold iblk2
  rw [View.read_apply]
  exact congrArg (V c (Pipeline.arrRef spec2 8) : Mat 1 128) (emb2_8 t y)
theorem rd2_9 (t : Fin cfg2.N) (G : Mat 100000 128) (r : Fin 5000) (j : Fin 128) :
    (((cfg2.win 9).blk t).view.read (Elt Ideal) G : Vec Ideal S5000x128 .bf16) (ix2 r j)
      = G (ix2 (rowOf t.val r (lt2 t)) j) := by
  rw [View.read_apply]
  exact congrArg G (emb2_9 t r j)
theorem rd2_10 (t : Fin cfg2.N) (G : Mat 100000 128) (r : Fin 5000) (j : Fin 128) :
    (((cfg2.win 10).blk t).view.read (Elt Ideal) G : Vec Ideal S5000x128 .bf16) (ix2 r j)
      = G (ix2 (rowOf t.val r (lt2 t)) j) := by
  rw [View.read_apply]
  exact congrArg G (emb2_10 t r j)

end

/-! ### Region 2: what each grid point writes back, and the two output arrays -/

section
variable (V : (c : Dev nD) → (b : Ref sig .tc) → Buf (Elt Ideal) ((c : Thread nD τ).loc b))

set_option maxHeartbeats 1000000 in
/-- Grid point `t` writes back rows 5000·t … 5000·t + 4999 of the two linear maps of the whole arrays. -/
theorem flushed2_9_eq (c : Dev nD) (t : Fin cfg2.N) :
    (dat2 V c).flushed 9 t = ((cfg2.win 9).blk t).view.read (Elt Ideal)
      (arr2 (xpre (cur (V c (Pipeline.arrRef spec2 1) : Mat 100000 128)) (cur (V c (Pipeline.arrRef spec2 0) : Mat 100000 128)) (V c (Pipeline.arrRef spec2 2) : Mat 128 128) (fun j => (V c (Pipeline.arrRef spec2 3) : Mat 1 128) (ix2 0 j)) (V c (Pipeline.arrRef spec2 4) : Mat 128 128))) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  rw [rd2_9, arr2_ix2]
  show k2_pay4 (F := Ideal) _ _ _ _ _ (ix2 r j) = _
  rw [k2_pay4_apply, blk2_2, blk2_3, blk2_4]
  simp only [blk2_0, blk2_1, xpre]
  rfl

theorem region2_xpre (c : Dev nD) : (dat2 V c).arrAt 9 cfg2.N
    = arr2 (xpre (cur (V c (Pipeline.arrRef spec2 1) : Mat 100000 128)) (cur (V c (Pipeline.arrRef spec2 0) : Mat 100000 128)) (V c (Pipeline.arrRef spec2 2) : Mat 128 128) (fun j => (V c (Pipeline.arrRef spec2 3) : Mat 1 128) (ix2 0 j)) (V c (Pipeline.arrRef spec2 4) : Mat 128 128)) :=
  (dat2 V c).arrAt_eq_of_cover 9 _ (fun t _ => flushed2_9_eq V c t) cov2_9

set_option maxHeartbeats 1000000 in
/-- Grid point `t` writes back rows 5000·t … 5000·t + 4999 of the side path of the whole arrays. -/
theorem flushed2_10_eq (c : Dev nD) (t : Fin cfg2.N) :
    (dat2 V c).flushed 10 t = ((cfg2.win 10).blk t).view.read (Elt Ideal)
      (arr2 (skip (cur (V c (Pipeline.arrRef spec2 0) : Mat 100000 128)) (V c (Pipeline.arrRef spec2 5) : Mat 128 64) (fun k => (V c (Pipeline.arrRef spec2 6) : Mat 1 64) (ix2 0 k)) (V c (Pipeline.arrRef spec2 7) : Mat 64 128) (fun j => (V c (Pipeline.arrRef spec2 8) : Mat 1 128) (ix2 0 j)))) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x64) hz, View.ld_unit_zero (S := S1x64) hz, View.ld_unit_zero (S := S64x128) hz, View.ld_unit_zero (S := S1x128) hz]
  funext y
  obtain ⟨r, j, rfl⟩ : ∃ (r : Fin 5000) (j : Fin 128), y = ix2 r j := ⟨y 0, y 1, eq_ix2 y⟩
  rw [rd2_10, arr2_ix2]
  show k2_pay1 (F := Ideal) (k2_pay3 _ _ _ _ _) (ix2 r j) = _
  rw [k2_pay3_apply, blk2_5, blk2_6, blk2_7, blk2_8]
  simp only [blk2_0, skip]
  rfl

theorem region2_skip (c : Dev nD) : (dat2 V c).arrAt 10 cfg2.N
    = arr2 (skip (cur (V c (Pipeline.arrRef spec2 0) : Mat 100000 128)) (V c (Pipeline.arrRef spec2 5) : Mat 128 64) (fun k => (V c (Pipeline.arrRef spec2 6) : Mat 1 64) (ix2 0 k)) (V c (Pipeline.arrRef spec2 7) : Mat 64 128) (fun j => (V c (Pipeline.arrRef spec2 8) : Mat 1 128) (ix2 0 j))) :=
  (dat2 V c).arrAt_eq_of_cover 10 _ (fun t _ => flushed2_10_eq V c t) cov2_10

end

/-! ### Region 3: the index maps, decided over the 20 grid points, and each block read where it sits -/

theorem lt3 (t : Fin cfg3.N) : t.val < 20 := lt_of_lt_of_eq t.isLt N_3

theorem pt3_lt (n : ℕ) (h : n < 100000) : n / 5000 < cfg3.N := lt_of_lt_of_eq (show n / 5000 < 20 by omega) N_3.symm

theorem idx3_0 : ∀ t : Fin cfg3.N, win3_0.index t (0 : Fin 2) = t.val ∧ win3_0.index t (1 : Fin 2) = 0 :=
  (by decide +kernel : ∀ t : Fin grid3.N, _)
theorem emb3_0 (t : Fin cfg3.N) (r : Fin 5000) (j : Fin 128) :
    (((cfg3.win 0).blk t).view.emb (ix2 r j) : S100000x128.Idx) = ix2 (rowOf t.val r (lt3 t)) j := by
  obtain ⟨e0, e1⟩ := idx3_0 t
  funext a; apply Fin.ext
  match a with
  | ⟨0, _⟩ => show win3_0.index t (0 : Fin 2) * 5000 + 1 * r.val = 5000 * t.val + r.val; omega
  | ⟨1, _⟩ => show win3_0.index t (1 : Fin 2) * 128 + 1 * j.val = j.val; omega
theorem idx3_1 : ∀ t : Fin cfg3.N, win3_1.index t (0 : Fin 2) = t.val ∧ win3_1.index t (1 : Fin 2) = 0 :=
  (by decide +kernel : ∀ t : Fin grid3.N, _)
theorem emb3_1 (t : Fin cfg3.N) (r : Fin 5000) (j : Fin 128) :
    (((cfg3.win 1).blk t).view.emb (ix2 r j) : S100000x128.Idx) = ix2 (rowOf t.val r (lt3 t)) j := by
  obtain ⟨e0, e1⟩ := idx3_1 t
  funext a; apply Fin.ext
  match a with
  | ⟨0, _⟩ => show win3_1.index t (0 : Fin 2) * 5000 + 1 * r.val = 5000 * t.val + r.val; omega
  | ⟨1, _⟩ => show win3_1.index t (1 : Fin 2) * 128 + 1 * j.val = j.val; omega
theorem idx3_2 : ∀ t : Fin cfg3.N, win3_2.index t (0 : Fin 2) = 0 ∧ win3_2.index t (1 : Fin 2) = 0 :=
  (by decide +kernel : ∀ t : Fin grid3.N, _)
theorem emb3_2 (t : Fin cfg3.N) (y : S1x128.Idx) : (((cfg3.win 2).blk t).view.emb y : S1x128.Idx) = y := by
  obtain ⟨e0, e1⟩ := idx3_2 t
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem idx3_3 : ∀ t : Fin cfg3.N, win3_3.index t (0 : Fin 2) = 0 ∧ win3_3.index t (1 : Fin 2) = 0 :=
  (by decide +kernel : ∀ t : Fin grid3.N, _)
theorem emb3_3 (t : Fin cfg3.N) (y : S1x128.Idx) : (((cfg3.win 3).blk t).view.emb y : S1x128.Idx) = y := by
  obtain ⟨e0, e1⟩ := idx3_3 t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem idx3_4 : ∀ t : Fin cfg3.N, win3_4.index t (0 : Fin 2) = 0 ∧ win3_4.index t (1 : Fin 2) = 0 :=
  (by decide +kernel : ∀ t : Fin grid3.N, _)
theorem emb3_4 (t : Fin cfg3.N) (y : S1x128.Idx) : (((cfg3.win 4).blk t).view.emb y : S1x128.Idx) = y := by
  obtain ⟨e0, e1⟩ := idx3_4 t
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega
theorem idx3_5 : ∀ t : Fin cfg3.N, win3_5.index t (0 : Fin 2) = 0 ∧ win3_5.index t (1 : Fin 2) = 0 :=
  (by decide +kernel : ∀ t : Fin grid3.N, _)
theorem emb3_5 (t : Fin cfg3.N) (y : S1x128.Idx) : (((cfg3.win 5).blk t).view.emb y : S1x128.Idx) = y := by
  obtain ⟨e0, e1⟩ := idx3_5 t
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega
theorem idx3_6 : ∀ t : Fin cfg3.N, win3_6.index t (0 : Fin 2) = t.val ∧ win3_6.index t (1 : Fin 2) = 0 :=
  (by decide +kernel : ∀ t : Fin grid3.N, _)
theorem emb3_6 (t : Fin cfg3.N) (r : Fin 5000) (j : Fin 128) :
    (((cfg3.win 6).blk t).view.emb (ix2 r j) : S100000x128.Idx) = ix2 (rowOf t.val r (lt3 t)) j := by
  obtain ⟨e0, e1⟩ := idx3_6 t
  funext a; apply Fin.ext
  match a with
  | ⟨0, _⟩ => show win3_6.index t (0 : Fin 2) * 5000 + 1 * r.val = 5000 * t.val + r.val; omega
  | ⟨1, _⟩ => show win3_6.index t (1 : Fin 2) * 128 + 1 * j.val = j.val; omega
/-- Row `n` of the output array is in the block of grid point `n / 5000`. -/
theorem cov3_6 (i : S100000x128.Idx) :
    ∃ t : Fin cfg3.N, (cfg3.win 6).flush t = true ∧ i ∈ ((cfg3.win 6).blk t).view.set := by
  have hi0 : (i 0 : Nat) < 100000 := (i 0).isLt
  have hi1 : (i 1 : Nat) < 128 := (i 1).isLt
  obtain ⟨t, ht⟩ : ∃ t : Fin cfg3.N, t.val = (i 0 : Nat) / 5000 := ⟨⟨_, pt3_lt _ hi0⟩, rfl⟩
  refine ⟨t, flush3_6 t, ?_⟩
  obtain ⟨e0, e1⟩ := idx3_6 t
  show i ∈ ((View.whole main_v82).slice (win3_6.rect t)).set
  rw [View.set_slice_whole, Rect.mem_set_unit]
  intro a
  match a with
  | ⟨0, _⟩ =>
    show win3_6.index t (0 : Fin 2) * 5000 ≤ (i 0 : Nat) ∧ (i 0 : Nat) < win3_6.index t (0 : Fin 2) * 5000 + 5000
    omega
  | ⟨1, _⟩ =>
    show win3_6.index t (1 : Fin 2) * 128 ≤ (i 1 : Nat) ∧ (i 1 : Nat) < win3_6.index t (1 : Fin 2) * 128 + 128
    omega

section
variable (V : (c : Dev nD) → (b : Ref sig .tc) → Buf (Elt Ideal) ((c : Thread nD τ).loc b))

theorem blk3_0 (c : Dev nD) (t : Fin cfg3.N) (r : Fin 5000) (j : Fin 128) :
    (iblk3 V c 0 t : Vec Ideal S5000x128 .bf16) (ix2 r j)
      = (V c (Pipeline.arrRef spec3 0) : Mat 100000 128) (ix2 (rowOf t.val r (lt3 t)) j) := by
  unfold iblk3
  rw [View.read_apply]
  exact congrArg (V c (Pipeline.arrRef spec3 0) : Mat 100000 128) (emb3_0 t r j)
theorem blk3_1 (c : Dev nD) (t : Fin cfg3.N) (r : Fin 5000) (j : Fin 128) :
    (iblk3 V c 1 t : Vec Ideal S5000x128 .bf16) (ix2 r j)
      = (V c (Pipeline.arrRef spec3 1) : Mat 100000 128) (ix2 (rowOf t.val r (lt3 t)) j) := by
  unfold iblk3
  rw [View.read_apply]
  exact congrArg (V c (Pipeline.arrRef spec3 1) : Mat 100000 128) (emb3_1 t r j)
theorem blk3_2 (c : Dev nD) (t : Fin cfg3.N) :
    (iblk3 V c 2 t : Vec Ideal S1x128 .f32) = (V c (Pipeline.arrRef spec3 2) : Mat 1 128) := by
  funext y
  unfold iblk3
  rw [View.read_apply]
  exact congrArg (V c (Pipeline.arrRef spec3 2) : Mat 1 128) (emb3_2 t y)
theorem blk3_3 (c : Dev nD) (t : Fin cfg3.N) :
    (iblk3 V c 3 t : Vec Ideal S1x128 .f32) = (V c (Pipeline.arrRef spec3 3) : Mat 1 128) := by
  funext y
  unfold iblk3
  rw [View.read_apply]
  exact congrArg (V c (Pipeline.arrRef spec3 3) : Mat 1 128) (emb3_3 t y)
theorem blk3_4 (c : Dev nD) (t : Fin cfg3.N) :
    (iblk3 V c 4 t : Vec Ideal S1x128 .f32) = (V c (Pipeline.arrRef spec3 4) : Mat 1 128) := by
  funext y
  unfold iblk3
  rw [View.read_apply]
  exact congrArg (V c (Pipeline.arrRef spec3 4) : Mat 1 128) (emb3_4 t y)
theorem blk3_5 (c : Dev nD) (t : Fin cfg3.N) :
    (iblk3 V c 5 t : Vec Ideal S1x128 .f32) = (V c (Pipeline.arrRef spec3 5) : Mat 1 128) := by
  funext y
  unfold iblk3
  rw [View.read_apply]
  exact congrArg (V c (Pipeline.arrRef spec3 5) : Mat 1 128) (emb3_5 t y)
theorem rd3_6 (t : Fin cfg3.N) (G : Mat 100000 128) (r : Fin 5000) (j : Fin 128) :
    (((cfg3.win 6).blk t).view.read (Elt Ideal) G : Vec Ideal S5000x128 .f32) (ix2 r j)
      = G (ix2 (rowOf t.val r (lt3 t)) j) := by
  rw [View.read_apply]
  exact congrArg G (emb3_6 t r j)

end

/-! ### Region 3: what each grid point writes back, and the output array -/

section
variable (V : (c : Dev nD) → (b : Ref sig .tc) → Buf (Elt Ideal) ((c : Thread nD τ).loc b))

set_option maxHeartbeats 1000000 in
/-- Grid point `t` writes back rows 5000·t … 5000·t + 4999 of the normalised, shifted and clamped array. -/
theorem flushed3_6_eq (c : Dev nD) (t : Fin cfg3.N) :
    (dat3 V c).flushed 6 t = ((cfg3.win 6).blk t).view.read (Elt Ideal)
      (arr2 (bn (cur (V c (Pipeline.arrRef spec3 0) : Mat 100000 128)) (cur (V c (Pipeline.arrRef spec3 1) : Mat 100000 128)) (fun j => (V c (Pipeline.arrRef spec3 2) : Mat 1 128) (ix2 0 j)) (fun j => (V c (Pipeline.arrRef spec3 3) : Mat 1 128) (ix2 0 j)) (fun j => (V c (Pipeline.arrRef spec3 4) : Mat 1 128) (ix2 0 j)) (fun j => (V c (Pipeline.arrRef spec3 5) : Mat 1 128) (ix2 0 j)))) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  funext y
  obtain ⟨r, j, rfl⟩ : ∃ (r : Fin 5000) (j : Fin 128), y = ix2 r j := ⟨y 0, y 1, eq_ix2 y⟩
  rw [rd3_6, arr2_ix2]
  show k3_pay1 (F := Ideal) _ _ _ _ _ _ (ix2 r j) = _
  rw [k3_pay1_apply, blk3_2, blk3_3, blk3_4, blk3_5, blk3_0, blk3_1]
  simp only [bn, cur]

theorem region3_out (c : Dev nD) : (dat3 V c).arrAt 6 cfg3.N
    = arr2 (bn (cur (V c (Pipeline.arrRef spec3 0) : Mat 100000 128)) (cur (V c (Pipeline.arrRef spec3 1) : Mat 100000 128)) (fun j => (V c (Pipeline.arrRef spec3 2) : Mat 1 128) (ix2 0 j)) (fun j => (V c (Pipeline.arrRef spec3 3) : Mat 1 128) (ix2 0 j)) (fun j => (V c (Pipeline.arrRef spec3 4) : Mat 1 128) (ix2 0 j)) (fun j => (V c (Pipeline.arrRef spec3 5) : Mat 1 128) (ix2 0 j))) :=
  (dat3 V c).arrAt_eq_of_cover 6 _ (fun t _ => flushed3_6_eq V c t) cov3_6

end

end Cert.KernelIdeal.Hand

end
-- ==== Proof.KValue.lean ====
/-
  The kernel's program, boundary by boundary: what each array holds when a region is entered and when it is left, as a
  function of the launch memory, down to the result — two applications of one layer, the second to the first's output.
-/
import proofs.«131858_j34050500722842_2_alg».proof.Proof.KChain
import proofs.«131858_j34050500722842_2_alg».proof.Proof.KHost
import proofs.«131858_j34050500722842_2_alg».proof.Proof.KTerms
import proofs.«131858_j34050500722842_2_alg».proof.Proof.Regions

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The reciprocal of the edge count clamped at one. -/
def invK (e : (⟨S2x1600000, .i32⟩ : BufTy).Contents (Elt Ideal)) : (⟨S100000, .f32⟩ : BufTy).Contents (Elt Ideal) :=
  Host.divf (F := Ideal) (φ := .f32) (broadcastInDim S100000 ![] bcast_S_S100000 (constant (F := Ideal) S_ .f32 0x3F800000#32))
    (maximumf (F := Ideal) (φ := .f32) (cntK e) (broadcastInDim S100000 ![] bcast_S_S100000 (constant (F := Ideal) S_ .f32 0x3F800000#32)))

/-- The neighbour mean of a feature array, as the host spells it. -/
def aggT (X : (⟨S100000x128, .f32⟩ : BufTy).Contents (Elt Ideal)) (e : (⟨S2x1600000, .i32⟩ : BufTy).Contents (Elt Ideal)) :
    (⟨S100000x128, .f32⟩ : BufTy).Contents (Elt Ideal) :=
  mulf (F := Ideal) (φ := .f32) (sumK X e) (broadcastInDim S100000x128 ![0, 1] bcast_S100000x1_S100000x128_0_1
    (broadcastInDim S100000x1 ![0] bcast_S100000_S100000x1_0 (invK e)))

/-- An array read by row and column, for any array. -/
theorem cur_at {a b : ℕ} (f : Mat a b) (n : Fin a) (k : Fin b) : cur f n k = f (ix2 n k) := rfl

theorem aggT_at (X : (⟨S100000x128, .f32⟩ : BufTy).Contents (Elt Ideal)) (e : (⟨S2x1600000, .i32⟩ : BufTy).Contents (Elt Ideal))
    (n : Fin 100000) (k : Fin 128) :
    aggT X e (ix2 n k) = aggMul (cur (sumK X e)) (fun n => cntK e (ix1 n)) n k :=
  agg_apply (sumK X e) (cntK e) n k

/-! ## The first stretch of host operations: what the first region finds -/

theorem V1_src (c : Dev nD) : W1 m ρ c (Proc.devRef .tc main_v1) = srcK (m ((c : Thread nD τ).loc main_arg1)) := by
  show StableHlo.after hostOps0 (W0 m ρ c) (Proc.devRef .tc main_v1) = _
  after_results_simp
  rfl
theorem V1_dst (c : Dev nD) : W1 m ρ c (Proc.devRef .tc main_v3) = dstK (m ((c : Thread nD τ).loc main_arg1)) := by
  show StableHlo.after hostOps0 (W0 m ρ c) (Proc.devRef .tc main_v3) = _
  after_results_simp
  rfl
theorem V1_inv (c : Dev nD) : W1 m ρ c (Proc.devRef .tc main_v11) = invK (m ((c : Thread nD τ).loc main_arg1)) := by
  show StableHlo.after hostOps0 (W0 m ρ c) (Proc.devRef .tc main_v11) = _
  after_results_simp
  rfl
theorem V1_agg (c : Dev nD) : V1 m ρ c main_v26
    = aggT (m ((c : Thread nD τ).loc main_arg0)) (m ((c : Thread nD τ).loc main_arg1)) := by
  show StableHlo.after hostOps0 (W0 m ρ c) (Proc.devRef .tc main_v26) = _
  after_results_simp
  rfl
theorem V1_bl (c : Dev nD) : V1 m ρ c main_v27 = shapeCast S1x128 (m ((c : Thread nD τ).loc main_arg3)) shapeCasts_S128_S1x128 := by
  show StableHlo.after hostOps0 (W0 m ρ c) (Proc.devRef .tc main_v27) = _
  after_results_simp
  rfl
theorem V1_b1 (c : Dev nD) : V1 m ρ c main_v28 = shapeCast S1x64 (m ((c : Thread nD τ).loc main_arg9)) shapeCasts_S64_S1x64 := by
  show StableHlo.after hostOps0 (W0 m ρ c) (Proc.devRef .tc main_v28) = _
  after_results_simp
  rfl
theorem V1_b2 (c : Dev nD) : V1 m ρ c main_v29 = shapeCast S1x128 (m ((c : Thread nD τ).loc main_arg11)) shapeCasts_S128_S1x128 := by
  show StableHlo.after hostOps0 (W0 m ρ c) (Proc.devRef .tc main_v29) = _
  after_results_simp
  rfl

/-- A bias reshaped to a row, read at column j. -/
theorem row128 (b : S128.Idx → EReal) (j : Fin 128) : shapeCast S1x128 b shapeCasts_S128_S1x128 (ix2 (0 : Fin 1) j) = b (ix1 j) :=
  shapeCast_a_1a_apply b _ 0 j
theorem row64 (b : S64.Idx → EReal) (j : Fin 64) : shapeCast S1x64 b shapeCasts_S64_S1x64 (ix2 (0 : Fin 1) j) = b (ix1 j) :=
  shapeCast_a_1a_apply b _ 0 j

/-! ## The first region's outputs -/

/-- The first region's operands, window by window, as functions of the launch memory. -/
theorem in0_0 (c : Dev nD) : V1 m ρ c (Pipeline.arrRef spec0 0) = m ((c : Thread nD τ).loc main_arg0) := pass1 m ρ c main_arg0 (by decide)
theorem in0_1 (c : Dev nD) : V1 m ρ c (Pipeline.arrRef spec0 1)
    = aggT (m ((c : Thread nD τ).loc main_arg0)) (m ((c : Thread nD τ).loc main_arg1)) := V1_agg m ρ c
theorem in0_2 (c : Dev nD) : V1 m ρ c (Pipeline.arrRef spec0 2) = m ((c : Thread nD τ).loc main_arg2) := pass1 m ρ c main_arg2 (by decide)
theorem in0_3 (c : Dev nD) : V1 m ρ c (Pipeline.arrRef spec0 3)
    = shapeCast S1x128 (m ((c : Thread nD τ).loc main_arg3)) shapeCasts_S128_S1x128 := V1_bl m ρ c
theorem in0_4 (c : Dev nD) : V1 m ρ c (Pipeline.arrRef spec0 4) = m ((c : Thread nD τ).loc main_arg4) := pass1 m ρ c main_arg4 (by decide)
theorem in0_5 (c : Dev nD) : V1 m ρ c (Pipeline.arrRef spec0 5) = m ((c : Thread nD τ).loc main_arg8) := pass1 m ρ c main_arg8 (by decide)
theorem in0_6 (c : Dev nD) : V1 m ρ c (Pipeline.arrRef spec0 6)
    = shapeCast S1x64 (m ((c : Thread nD τ).loc main_arg9)) shapeCasts_S64_S1x64 := V1_b1 m ρ c
theorem in0_7 (c : Dev nD) : V1 m ρ c (Pipeline.arrRef spec0 7) = m ((c : Thread nD τ).loc main_arg10) := pass1 m ρ c main_arg10 (by decide)
theorem in0_8 (c : Dev nD) : V1 m ρ c (Pipeline.arrRef spec0 8)
    = shapeCast S1x128 (m ((c : Thread nD τ).loc main_arg11)) shapeCasts_S128_S1x128 := V1_b2 m ρ c

/-- The regions' outputs from ANY entry contents whose operand arrays are named. -/
theorem xpre0_of (V : (c : Dev nD) → (b : Ref sig .tc) → Buf (Elt Ideal) ((c : Thread nD τ).loc b)) (c : Dev nD)
    {A X : Mat 100000 128} {Wl Wr : Mat 128 128} {bl : Mat 1 128}
    (h1 : (V c (Pipeline.arrRef spec0 1) : Mat 100000 128) = A) (h0 : (V c (Pipeline.arrRef spec0 0) : Mat 100000 128) = X)
    (h2 : (V c (Pipeline.arrRef spec0 2) : Mat 128 128) = Wl) (h3 : (V c (Pipeline.arrRef spec0 3) : Mat 1 128) = bl)
    (h4 : (V c (Pipeline.arrRef spec0 4) : Mat 128 128) = Wr) :
    (dat0 V c).arrAt 9 cfg0.N = arr2 (xpre (cur A) (cur X) Wl (fun j => bl (ix2 0 j)) Wr) := by
  subst h0 h1 h2 h3 h4
  exact region0_xpre V c
theorem skip0_of (V : (c : Dev nD) → (b : Ref sig .tc) → Buf (Elt Ideal) ((c : Thread nD τ).loc b)) (c : Dev nD)
    {X : Mat 100000 128} {w1 : Mat 128 64} {b1 : Mat 1 64} {w2 : Mat 64 128} {b2 : Mat 1 128}
    (h0 : (V c (Pipeline.arrRef spec0 0) : Mat 100000 128) = X) (h5 : (V c (Pipeline.arrRef spec0 5) : Mat 128 64) = w1)
    (h6 : (V c (Pipeline.arrRef spec0 6) : Mat 1 64) = b1) (h7 : (V c (Pipeline.arrRef spec0 7) : Mat 64 128) = w2)
    (h8 : (V c (Pipeline.arrRef spec0 8) : Mat 1 128) = b2) :
    (dat0 V c).arrAt 10 cfg0.N = arr2 (skip (cur X) w1 (fun k => b1 (ix2 0 k)) w2 (fun j => b2 (ix2 0 j))) := by
  subst h0 h5 h6 h7 h8
  exact region0_skip V c

/-- Layer 1's linear output and side path, as functions of the launch memory. -/
def Y1 (c : Dev nD) : Fin 100000 → Fin 128 → EReal :=
  xpre (aggMul (cur (sumK (m ((c : Thread nD τ).loc main_arg0)) (m ((c : Thread nD τ).loc main_arg1))))
      (fun n => cntK (m ((c : Thread nD τ).loc main_arg1)) (ix1 n)))
    (cur (m ((c : Thread nD τ).loc main_arg0))) (m ((c : Thread nD τ).loc main_arg2))
    (fun j => m ((c : Thread nD τ).loc main_arg3) (ix1 j)) (m ((c : Thread nD τ).loc main_arg4))
def Sk1 (c : Dev nD) : Fin 100000 → Fin 128 → EReal :=
  skip (cur (m ((c : Thread nD τ).loc main_arg0))) (m ((c : Thread nD τ).loc main_arg8))
    (fun k => m ((c : Thread nD τ).loc main_arg9) (ix1 k)) (m ((c : Thread nD τ).loc main_arg10))
    (fun j => m ((c : Thread nD τ).loc main_arg11) (ix1 j))

/-- The linear maps' output of layer 1, as the first region leaves it. -/
theorem W2_xpre (c : Dev nD) : (W2 m ρ c (Proc.devRef .tc main_v30_0) : Mat 100000 128) = arr2 (Y1 m c) := by
  have e1 : cur (aggT (m ((c : Thread nD τ).loc main_arg0)) (m ((c : Thread nD τ).loc main_arg1)) : Mat 100000 128)
      = aggMul (cur (sumK (m ((c : Thread nD τ).loc main_arg0)) (m ((c : Thread nD τ).loc main_arg1))))
          (fun n => cntK (m ((c : Thread nD τ).loc main_arg1)) (ix1 n)) := by
    funext n k
    rw [cur_at]
    exact aggT_at _ _ n k
  have e2 : (fun j : Fin 128 => (shapeCast S1x128 (m ((c : Thread nD τ).loc main_arg3)) shapeCasts_S128_S1x128 : Mat 1 128) (ix2 0 j))
      = fun j => m ((c : Thread nD τ).loc main_arg3) (ix1 j) := funext fun j => row128 _ j
  refine (W2_arr m ρ c 9).trans ((xpre0_of (V1 m ρ) c (in0_1 m ρ c) (in0_0 m ρ c) (in0_2 m ρ c) (in0_3 m ρ c) (in0_4 m ρ c)).trans ?_)
  rw [e1, e2]
  unfold Y1
  rfl

/-- The side path's output of layer 1, as the first region leaves it. -/
theorem W2_skip (c : Dev nD) : (W2 m ρ c (Proc.devRef .tc main_v30_1) : Mat 100000 128) = arr2 (Sk1 m c) := by
  have e1 : (fun k : Fin 64 => (shapeCast S1x64 (m ((c : Thread nD τ).loc main_arg9)) shapeCasts_S64_S1x64 : Mat 1 64) (ix2 0 k))
      = fun k => m ((c : Thread nD τ).loc main_arg9) (ix1 k) := funext fun k => row64 _ k
  have e2 : (fun j : Fin 128 => (shapeCast S1x128 (m ((c : Thread nD τ).loc main_arg11)) shapeCasts_S128_S1x128 : Mat 1 128) (ix2 0 j))
      = fun j => m ((c : Thread nD τ).loc main_arg11) (ix1 j) := funext fun j => row128 _ j
  refine (W2_arr m ρ c 10).trans ((skip0_of (V1 m ρ) c (in0_0 m ρ c) (in0_5 m ρ c) (in0_6 m ρ c) (in0_7 m ρ c) (in0_8 m ρ c)).trans ?_)
  rw [e1, e2]
  unfold Sk1
  rfl

/-! ## The second stretch: the column statistics of layer 1 -/

/-- The column mean and the clamped difference variance as the host spells them, reshaped to rows. -/
def meanT (Y : S100000x128.Idx → EReal) : Mat 1 128 :=
  shapeCast S1x128 (Host.divf (F := Ideal) (φ := .f32)
      (Host.reduceAdd (F := Ideal) (φ := .f32) Y (constant (F := Ideal) S_ .f32 0x00000000#32) reducesTo_S100000x128_S128_d0 h_S_)
      (broadcastInDim S128 ![] bcast_S_S128 (constant (F := Ideal) S_ .f32 0x47C35000#32))) shapeCasts_S128_S1x128
def varT (Y : S100000x128.Idx → EReal) : Mat 1 128 :=
  shapeCast S1x128 (maximumf (F := Ideal) (φ := .f32)
      (subf (F := Ideal) (φ := .f32)
        (Host.divf (F := Ideal) (φ := .f32)
          (Host.reduceAdd (F := Ideal) (φ := .f32) (mulf (F := Ideal) (φ := .f32) Y Y) (constant (F := Ideal) S_ .f32 0x00000000#32) reducesTo_S100000x128_S128_d0 h_S_)
          (broadcastInDim S128 ![] bcast_S_S128 (constant (F := Ideal) S_ .f32 0x47C35000#32)))
        (mulf (F := Ideal) (φ := .f32)
          (Host.divf (F := Ideal) (φ := .f32)
            (Host.reduceAdd (F := Ideal) (φ := .f32) Y (constant (F := Ideal) S_ .f32 0x00000000#32) reducesTo_S100000x128_S128_d0 h_S_)
            (broadcastInDim S128 ![] bcast_S_S128 (constant (F := Ideal) S_ .f32 0x47C35000#32)))
          (Host.divf (F := Ideal) (φ := .f32)
            (Host.reduceAdd (F := Ideal) (φ := .f32) Y (constant (F := Ideal) S_ .f32 0x00000000#32) reducesTo_S100000x128_S128_d0 h_S_)
            (broadcastInDim S128 ![] bcast_S_S128 (constant (F := Ideal) S_ .f32 0x47C35000#32)))))
      (broadcastInDim S128 ![] bcast_S_S128 (constant (F := Ideal) S_ .f32 0x00000000#32))) shapeCasts_S128_S1x128
theorem meanT_row (Y : S100000x128.Idx → EReal) (j : Fin 128) : meanT Y (ix2 0 j) = mean (cur Y) j := mean_row Y j
theorem varT_row (Y : S100000x128.Idx → EReal) (j : Fin 128) : varT Y (ix2 0 j) = varK (cur Y) j := var_row Y j

/-- An argument no region before it reads is as launched when the second region is entered and after. -/
theorem W2_arg (c : Dev nD) (r : Ref sig .tc) (hr : r.idx.val < 20) (h0 : ∀ w, Pipeline.arrRef spec0 w ≠ r) :
    W2 m ρ c (Proc.devRef .tc r) = m ((c : Thread nD τ).loc r) := (W2_of_ne m ρ c r h0).trans (pass1 m ρ c r hr)

theorem in1_0 (c : Dev nD) : (V3 m ρ c (Pipeline.arrRef spec1 0) : Mat 100000 128) = arr2 (Y1 m c) :=
  (pass3 m ρ c main_v30_0 (by decide)).trans (W2_xpre m ρ c)
theorem in1_1 (c : Dev nD) : (V3 m ρ c (Pipeline.arrRef spec1 1) : Mat 100000 128) = arr2 (Sk1 m c) :=
  (pass3 m ρ c main_v30_1 (by decide)).trans (W2_skip m ρ c)
theorem in1_2 (c : Dev nD) : (V3 m ρ c (Pipeline.arrRef spec1 2) : Mat 1 128) = meanT (W2 m ρ c (Proc.devRef .tc main_v30_0)) := by
  show StableHlo.after hostOps1 (W2 m ρ c) (Proc.devRef .tc main_v43) = _
  after_results_simp
  rfl
theorem in1_3 (c : Dev nD) : (V3 m ρ c (Pipeline.arrRef spec1 3) : Mat 1 128) = varT (W2 m ρ c (Proc.devRef .tc main_v30_0)) := by
  show StableHlo.after hostOps1 (W2 m ρ c) (Proc.devRef .tc main_v44) = _
  after_results_simp
  rfl
theorem in1_4 (c : Dev nD) : (V3 m ρ c (Pipeline.arrRef spec1 4) : Mat 1 128) = shapeCast S1x128 (m ((c : Thread nD τ).loc main_arg16)) shapeCasts_S128_S1x128 := by
  show StableHlo.after hostOps1 (W2 m ρ c) (Proc.devRef .tc main_v45) = _
  after_results_simp
  rw [W2_arg m ρ c main_arg16 (by decide) (by decide)]
  rfl
theorem in1_5 (c : Dev nD) : (V3 m ρ c (Pipeline.arrRef spec1 5) : Mat 1 128) = shapeCast S1x128 (m ((c : Thread nD τ).loc main_arg17)) shapeCasts_S128_S1x128 := by
  show StableHlo.after hostOps1 (W2 m ρ c) (Proc.devRef .tc main_v46) = _
  after_results_simp
  rw [W2_arg m ρ c main_arg17 (by decide) (by decide)]
  rfl

theorem bn1_of (V : (c : Dev nD) → (b : Ref sig .tc) → Buf (Elt Ideal) ((c : Thread nD τ).loc b)) (c : Dev nD)
    {Y S : Mat 100000 128} {mu var g beta : Mat 1 128}
    (h0 : (V c (Pipeline.arrRef spec1 0) : Mat 100000 128) = Y) (h1 : (V c (Pipeline.arrRef spec1 1) : Mat 100000 128) = S)
    (h2 : (V c (Pipeline.arrRef spec1 2) : Mat 1 128) = mu) (h3 : (V c (Pipeline.arrRef spec1 3) : Mat 1 128) = var)
    (h4 : (V c (Pipeline.arrRef spec1 4) : Mat 1 128) = g) (h5 : (V c (Pipeline.arrRef spec1 5) : Mat 1 128) = beta) :
    (dat1 V c).arrAt 6 cfg1.N = arr2 (bn (cur Y) (cur S) (fun j => mu (ix2 0 j)) (fun j => var (ix2 0 j)) (fun j => g (ix2 0 j))
      (fun j => beta (ix2 0 j))) := by
  subst h0 h1 h2 h3 h4 h5
  exact region1_out V c

/-- Layer 1's output, as a function of the launch memory. -/
def X1 (c : Dev nD) : Fin 100000 → Fin 128 → EReal :=
  layerK (cur (m ((c : Thread nD τ).loc main_arg0))) (cur (sumK (m ((c : Thread nD τ).loc main_arg0)) (m ((c : Thread nD τ).loc main_arg1)))) (fun n => cntK (m ((c : Thread nD τ).loc main_arg1)) (ix1 n)) (m ((c : Thread nD τ).loc main_arg2)) (fun j => (m ((c : Thread nD τ).loc main_arg3)) (ix1 j)) (m ((c : Thread nD τ).loc main_arg4))
    (m ((c : Thread nD τ).loc main_arg8)) (fun k => (m ((c : Thread nD τ).loc main_arg9)) (ix1 k)) (m ((c : Thread nD τ).loc main_arg10)) (fun j => (m ((c : Thread nD τ).loc main_arg11)) (ix1 j)) (fun j => (m ((c : Thread nD τ).loc main_arg16)) (ix1 j)) (fun j => (m ((c : Thread nD τ).loc main_arg17)) (ix1 j))

/-- The second region leaves layer 1's output. -/
theorem W4_out (c : Dev nD) : (W4 m ρ c (Proc.devRef .tc main_v47) : Mat 100000 128) = arr2 (X1 m c) := by
  have e1 : (fun j : Fin 128 => (meanT (W2 m ρ c (Proc.devRef .tc main_v30_0)) : Mat 1 128) (ix2 0 j)) = mean (Y1 m c) := by
    funext j
    rw [meanT_row, W2_xpre, cur_arr2]
  have e2 : (fun j : Fin 128 => (varT (W2 m ρ c (Proc.devRef .tc main_v30_0)) : Mat 1 128) (ix2 0 j)) = varK (Y1 m c) := by
    funext j
    rw [varT_row, W2_xpre, cur_arr2]
  have e3 : (fun j : Fin 128 => (shapeCast S1x128 (m ((c : Thread nD τ).loc main_arg16)) shapeCasts_S128_S1x128 : Mat 1 128) (ix2 0 j))
      = fun j => (m ((c : Thread nD τ).loc main_arg16)) (ix1 j) := funext fun j => row128 _ j
  have e4 : (fun j : Fin 128 => (shapeCast S1x128 (m ((c : Thread nD τ).loc main_arg17)) shapeCasts_S128_S1x128 : Mat 1 128) (ix2 0 j))
      = fun j => (m ((c : Thread nD τ).loc main_arg17)) (ix1 j) := funext fun j => row128 _ j
  refine (W4_arr m ρ c 6).trans ((bn1_of (V3 m ρ) c (in1_0 m ρ c) (in1_1 m ρ c) (in1_2 m ρ c) (in1_3 m ρ c) (in1_4 m ρ c) (in1_5 m ρ c)).trans ?_)
  rw [e1, e2, e3, e4, cur_arr2, cur_arr2]
  unfold X1 layerK Y1 Sk1
  rfl

/-! ## The third stretch: what the third region finds -/

/-- A buffer of the first stretch that no region and no later stretch writes is unchanged when the third stretch runs. -/
theorem W4_keep (c : Dev nD) (r : Ref sig .tc) (h1 : ∀ w, Pipeline.arrRef spec1 w ≠ r) (hr : r.idx.val < 59)
    (h0 : ∀ w, Pipeline.arrRef spec0 w ≠ r) : W4 m ρ c (Proc.devRef .tc r) = W1 m ρ c (Proc.devRef .tc r) :=
  (W4_of_ne m ρ c r h1).trans ((pass3 m ρ c r hr).trans (W2_of_ne m ρ c r h0))
theorem W4_arg (c : Dev nD) (r : Ref sig .tc) (hr : r.idx.val < 20) (h1 : ∀ w, Pipeline.arrRef spec1 w ≠ r)
    (h0 : ∀ w, Pipeline.arrRef spec0 w ≠ r) : W4 m ρ c (Proc.devRef .tc r) = m ((c : Thread nD τ).loc r) :=
  (W4_keep m ρ c r h1 (by omega) h0).trans (pass1 m ρ c r hr)
theorem W4_src (c : Dev nD) : W4 m ρ c (Proc.devRef .tc main_v1) = srcK (m ((c : Thread nD τ).loc main_arg1)) :=
  (W4_keep m ρ c main_v1 (by decide) (by decide) (by decide)).trans (V1_src m ρ c)
theorem W4_dst (c : Dev nD) : W4 m ρ c (Proc.devRef .tc main_v3) = dstK (m ((c : Thread nD τ).loc main_arg1)) :=
  (W4_keep m ρ c main_v3 (by decide) (by decide) (by decide)).trans (V1_dst m ρ c)
theorem W4_inv (c : Dev nD) : W4 m ρ c (Proc.devRef .tc main_v11) = invK (m ((c : Thread nD τ).loc main_arg1)) :=
  (W4_keep m ρ c main_v11 (by decide) (by decide) (by decide)).trans (V1_inv m ρ c)

theorem in2_0 (c : Dev nD) : (V5 m ρ c (Pipeline.arrRef spec2 0) : Mat 100000 128) = arr2 (X1 m c) :=
  (pass5 m ρ c main_v47 (by decide)).trans (W4_out m ρ c)
theorem in2_1 (c : Dev nD) : (V5 m ρ c (Pipeline.arrRef spec2 1) : Mat 100000 128) = aggT (arr2 (X1 m c)) (m ((c : Thread nD τ).loc main_arg1)) := by
  show StableHlo.after hostOps2 (W4 m ρ c) (Proc.devRef .tc main_v61) = _
  after_results_simp
  rw [W4_dst, W4_src, W4_inv, W4_out]
  unfold aggT sumK wrapK
  rfl
theorem in2_2 (c : Dev nD) : (V5 m ρ c (Pipeline.arrRef spec2 2) : Mat 128 128) = (m ((c : Thread nD τ).loc main_arg5)) :=
  (pass5 m ρ c main_arg5 (by decide)).trans (W4_arg m ρ c main_arg5 (by decide) (by decide) (by decide))
theorem in2_3 (c : Dev nD) : (V5 m ρ c (Pipeline.arrRef spec2 3) : Mat 1 128) = shapeCast S1x128 (m ((c : Thread nD τ).loc main_arg6)) shapeCasts_S128_S1x128 := by
  show StableHlo.after hostOps2 (W4 m ρ c) (Proc.devRef .tc main_v62) = _
  after_results_simp
  rw [W4_arg m ρ c main_arg6 (by decide) (by decide) (by decide)]
  rfl
theorem in2_4 (c : Dev nD) : (V5 m ρ c (Pipeline.arrRef spec2 4) : Mat 128 128) = (m ((c : Thread nD τ).loc main_arg7)) :=
  (pass5 m ρ c main_arg7 (by decide)).trans (W4_arg m ρ c main_arg7 (by decide) (by decide) (by decide))
theorem in2_5 (c : Dev nD) : (V5 m ρ c (Pipeline.arrRef spec2 5) : Mat 128 64) = (m ((c : Thread nD τ).loc main_arg12)) :=
  (pass5 m ρ c main_arg12 (by decide)).trans (W4_arg m ρ c main_arg12 (by decide) (by decide) (by decide))
theorem in2_6 (c : Dev nD) : (V5 m ρ c (Pipeline.arrRef spec2 6) : Mat 1 64) = shapeCast S1x64 (m ((c : Thread nD τ).loc main_arg13)) shapeCasts_S64_S1x64 := by
  show StableHlo.after hostOps2 (W4 m ρ c) (Proc.devRef .tc main_v63) = _
  after_results_simp
  rw [W4_arg m ρ c main_arg13 (by decide) (by decide) (by decide)]
  rfl
theorem in2_7 (c : Dev nD) : (V5 m ρ c (Pipeline.arrRef spec2 7) : Mat 64 128) = (m ((c : Thread nD τ).loc main_arg14)) :=
  (pass5 m ρ c main_arg14 (by decide)).trans (W4_arg m ρ c main_arg14 (by decide) (by decide) (by decide))
theorem in2_8 (c : Dev nD) : (V5 m ρ c (Pipeline.arrRef spec2 8) : Mat 1 128) = shapeCast S1x128 (m ((c : Thread nD τ).loc main_arg15)) shapeCasts_S128_S1x128 := by
  show StableHlo.after hostOps2 (W4 m ρ c) (Proc.devRef .tc main_v64) = _
  after_results_simp
  rw [W4_arg m ρ c main_arg15 (by decide) (by decide) (by decide)]
  rfl

theorem xpre2_of (V : (c : Dev nD) → (b : Ref sig .tc) → Buf (Elt Ideal) ((c : Thread nD τ).loc b)) (c : Dev nD)
    {A X : Mat 100000 128} {Wl Wr : Mat 128 128} {bl : Mat 1 128}
    (h1 : (V c (Pipeline.arrRef spec2 1) : Mat 100000 128) = A) (h0 : (V c (Pipeline.arrRef spec2 0) : Mat 100000 128) = X)
    (h2 : (V c (Pipeline.arrRef spec2 2) : Mat 128 128) = Wl) (h3 : (V c (Pipeline.arrRef spec2 3) : Mat 1 128) = bl)
    (h4 : (V c (Pipeline.arrRef spec2 4) : Mat 128 128) = Wr) :
    (dat2 V c).arrAt 9 cfg2.N = arr2 (xpre (cur A) (cur X) Wl (fun j => bl (ix2 0 j)) Wr) := by
  subst h0 h1 h2 h3 h4
  exact region2_xpre V c
theorem skip2_of (V : (c : Dev nD) → (b : Ref sig .tc) → Buf (Elt Ideal) ((c : Thread nD τ).loc b)) (c : Dev nD)
    {X : Mat 100000 128} {w1 : Mat 128 64} {b1 : Mat 1 64} {w2 : Mat 64 128} {b2 : Mat 1 128}
    (h0 : (V c (Pipeline.arrRef spec2 0) : Mat 100000 128) = X) (h5 : (V c (Pipeline.arrRef spec2 5) : Mat 128 64) = w1)
    (h6 : (V c (Pipeline.arrRef spec2 6) : Mat 1 64) = b1) (h7 : (V c (Pipeline.arrRef spec2 7) : Mat 64 128) = w2)
    (h8 : (V c (Pipeline.arrRef spec2 8) : Mat 1 128) = b2) :
    (dat2 V c).arrAt 10 cfg2.N = arr2 (skip (cur X) w1 (fun k => b1 (ix2 0 k)) w2 (fun j => b2 (ix2 0 j))) := by
  subst h0 h5 h6 h7 h8
  exact region2_skip V c

/-- Layer 2's linear output and side path. -/
def Y2 (c : Dev nD) : Fin 100000 → Fin 128 → EReal :=
  xpre (aggMul (cur (sumK (arr2 (X1 m c)) (m ((c : Thread nD τ).loc main_arg1)))) (fun n => cntK (m ((c : Thread nD τ).loc main_arg1)) (ix1 n))) (cur (arr2 (X1 m c))) (m ((c : Thread nD τ).loc main_arg5))
    (fun j => (m ((c : Thread nD τ).loc main_arg6)) (ix1 j)) (m ((c : Thread nD τ).loc main_arg7))
def Sk2 (c : Dev nD) : Fin 100000 → Fin 128 → EReal :=
  skip (cur (arr2 (X1 m c))) (m ((c : Thread nD τ).loc main_arg12)) (fun k => (m ((c : Thread nD τ).loc main_arg13)) (ix1 k)) (m ((c : Thread nD τ).loc main_arg14)) (fun j => (m ((c : Thread nD τ).loc main_arg15)) (ix1 j))

theorem W6_xpre (c : Dev nD) : (W6 m ρ c (Proc.devRef .tc main_v65_0) : Mat 100000 128) = arr2 (Y2 m c) := by
  have e1 : cur (aggT (arr2 (X1 m c)) (m ((c : Thread nD τ).loc main_arg1)) : Mat 100000 128)
      = aggMul (cur (sumK (arr2 (X1 m c)) (m ((c : Thread nD τ).loc main_arg1)))) (fun n => cntK (m ((c : Thread nD τ).loc main_arg1)) (ix1 n)) := by
    funext n k
    rw [cur_at]
    exact aggT_at _ _ n k
  have e2 : (fun j : Fin 128 => (shapeCast S1x128 (m ((c : Thread nD τ).loc main_arg6)) shapeCasts_S128_S1x128 : Mat 1 128) (ix2 0 j))
      = fun j => (m ((c : Thread nD τ).loc main_arg6)) (ix1 j) := funext fun j => row128 _ j
  refine (W6_arr m ρ c 9).trans ((xpre2_of (V5 m ρ) c (in2_1 m ρ c) (in2_0 m ρ c) (in2_2 m ρ c) (in2_3 m ρ c) (in2_4 m ρ c)).trans ?_)
  rw [e1, e2]
  unfold Y2
  rfl
theorem W6_skip (c : Dev nD) : (W6 m ρ c (Proc.devRef .tc main_v65_1) : Mat 100000 128) = arr2 (Sk2 m c) := by
  have e1 : (fun j : Fin 64 => (shapeCast S1x64 (m ((c : Thread nD τ).loc main_arg13)) shapeCasts_S64_S1x64 : Mat 1 64) (ix2 0 j))
      = fun j => (m ((c : Thread nD τ).loc main_arg13)) (ix1 j) := funext fun j => row64 _ j
  have e2 : (fun j : Fin 128 => (shapeCast S1x128 (m ((c : Thread nD τ).loc main_arg15)) shapeCasts_S128_S1x128 : Mat 1 128) (ix2 0 j))
      = fun j => (m ((c : Thread nD τ).loc main_arg15)) (ix1 j) := funext fun j => row128 _ j
  refine (W6_arr m ρ c 10).trans ((skip2_of (V5 m ρ) c (in2_0 m ρ c) (in2_5 m ρ c) (in2_6 m ρ c) (in2_7 m ρ c) (in2_8 m ρ c)).trans ?_)
  rw [e1, e2]
  unfold Sk2
  rfl

/-! ## The fourth stretch and the last region -/

theorem W6_arg (c : Dev nD) (r : Ref sig .tc) (hr : r.idx.val < 20) (h2 : ∀ w, Pipeline.arrRef spec2 w ≠ r)
    (h1 : ∀ w, Pipeline.arrRef spec1 w ≠ r) (h0 : ∀ w, Pipeline.arrRef spec0 w ≠ r) :
    W6 m ρ c (Proc.devRef .tc r) = m ((c : Thread nD τ).loc r) :=
  (W6_of_ne m ρ c r h2).trans ((pass5 m ρ c r (by omega)).trans (W4_arg m ρ c r hr h1 h0))

theorem in3_0 (c : Dev nD) : (V7 m ρ c (Pipeline.arrRef spec3 0) : Mat 100000 128) = arr2 (Y2 m c) :=
  (pass7 m ρ c main_v65_0 (by decide)).trans (W6_xpre m ρ c)
theorem in3_1 (c : Dev nD) : (V7 m ρ c (Pipeline.arrRef spec3 1) : Mat 100000 128) = arr2 (Sk2 m c) :=
  (pass7 m ρ c main_v65_1 (by decide)).trans (W6_skip m ρ c)
theorem in3_2 (c : Dev nD) : (V7 m ρ c (Pipeline.arrRef spec3 2) : Mat 1 128) = meanT (W6 m ρ c (Proc.devRef .tc main_v65_0)) := by
  show StableHlo.after hostOps3 (W6 m ρ c) (Proc.devRef .tc main_v78) = _
  after_results_simp
  rfl
theorem in3_3 (c : Dev nD) : (V7 m ρ c (Pipeline.arrRef spec3 3) : Mat 1 128) = varT (W6 m ρ c (Proc.devRef .tc main_v65_0)) := by
  show StableHlo.after hostOps3 (W6 m ρ c) (Proc.devRef .tc main_v79) = _
  after_results_simp
  rfl
theorem in3_4 (c : Dev nD) : (V7 m ρ c (Pipeline.arrRef spec3 4) : Mat 1 128) = shapeCast S1x128 (m ((c : Thread nD τ).loc main_arg18)) shapeCasts_S128_S1x128 := by
  show StableHlo.after hostOps3 (W6 m ρ c) (Proc.devRef .tc main_v80) = _
  after_results_simp
  rw [W6_arg m ρ c main_arg18 (by decide) (by decide) (by decide) (by decide)]
  rfl
theorem in3_5 (c : Dev nD) : (V7 m ρ c (Pipeline.arrRef spec3 5) : Mat 1 128) = shapeCast S1x128 (m ((c : Thread nD τ).loc main_arg19)) shapeCasts_S128_S1x128 := by
  show StableHlo.after hostOps3 (W6 m ρ c) (Proc.devRef .tc main_v81) = _
  after_results_simp
  rw [W6_arg m ρ c main_arg19 (by decide) (by decide) (by decide) (by decide)]
  rfl

theorem bn3_of (V : (c : Dev nD) → (b : Ref sig .tc) → Buf (Elt Ideal) ((c : Thread nD τ).loc b)) (c : Dev nD)
    {Y S : Mat 100000 128} {mu var g beta : Mat 1 128}
    (h0 : (V c (Pipeline.arrRef spec3 0) : Mat 100000 128) = Y) (h1 : (V c (Pipeline.arrRef spec3 1) : Mat 100000 128) = S)
    (h2 : (V c (Pipeline.arrRef spec3 2) : Mat 1 128) = mu) (h3 : (V c (Pipeline.arrRef spec3 3) : Mat 1 128) = var)
    (h4 : (V c (Pipeline.arrRef spec3 4) : Mat 1 128) = g) (h5 : (V c (Pipeline.arrRef spec3 5) : Mat 1 128) = beta) :
    (dat3 V c).arrAt 6 cfg3.N = arr2 (bn (cur Y) (cur S) (fun j => mu (ix2 0 j)) (fun j => var (ix2 0 j)) (fun j => g (ix2 0 j))
      (fun j => beta (ix2 0 j))) := by
  subst h0 h1 h2 h3 h4 h5
  exact region3_out V c

/-- THE RESULT: the last region leaves the layer applied to layer 1's output. -/
theorem W8_out (c : Dev nD) : (W8 m ρ c (Proc.devRef .tc main_v82) : Mat 100000 128)
    = arr2 (layerK (cur (arr2 (X1 m c))) (cur (sumK (arr2 (X1 m c)) (m ((c : Thread nD τ).loc main_arg1)))) (fun n => cntK (m ((c : Thread nD τ).loc main_arg1)) (ix1 n)) (m ((c : Thread nD τ).loc main_arg5))
        (fun j => (m ((c : Thread nD τ).loc main_arg6)) (ix1 j)) (m ((c : Thread nD τ).loc main_arg7)) (m ((c : Thread nD τ).loc main_arg12)) (fun k => (m ((c : Thread nD τ).loc main_arg13)) (ix1 k)) (m ((c : Thread nD τ).loc main_arg14)) (fun j => (m ((c : Thread nD τ).loc main_arg15)) (ix1 j))
        (fun j => (m ((c : Thread nD τ).loc main_arg18)) (ix1 j)) (fun j => (m ((c : Thread nD τ).loc main_arg19)) (ix1 j))) := by
  have e1 : (fun j : Fin 128 => (meanT (W6 m ρ c (Proc.devRef .tc main_v65_0)) : Mat 1 128) (ix2 0 j)) = mean (Y2 m c) := by
    funext j
    rw [meanT_row, W6_xpre, cur_arr2]
  have e2 : (fun j : Fin 128 => (varT (W6 m ρ c (Proc.devRef .tc main_v65_0)) : Mat 1 128) (ix2 0 j)) = varK (Y2 m c) := by
    funext j
    rw [varT_row, W6_xpre, cur_arr2]
  have e3 : (fun j : Fin 128 => (shapeCast S1x128 (m ((c : Thread nD τ).loc main_arg18)) shapeCasts_S128_S1x128 : Mat 1 128) (ix2 0 j))
      = fun j => (m ((c : Thread nD τ).loc main_arg18)) (ix1 j) := funext fun j => row128 _ j
  have e4 : (fun j : Fin 128 => (shapeCast S1x128 (m ((c : Thread nD τ).loc main_arg19)) shapeCasts_S128_S1x128 : Mat 1 128) (ix2 0 j))
      = fun j => (m ((c : Thread nD τ).loc main_arg19)) (ix1 j) := funext fun j => row128 _ j
  refine (W8_arr m ρ c 6).trans ((bn3_of (V7 m ρ) c (in3_0 m ρ c) (in3_1 m ρ c) (in3_2 m ρ c) (in3_3 m ρ c) (in3_4 m ρ c) (in3_5 m ρ c)).trans ?_)
  rw [e1, e2, e3, e4, cur_arr2, cur_arr2]
  unfold layerK Y2 Sk2
  rfl

end Cert.KernelIdeal.Hand

end
-- ==== Proof.Final.lean ====
/-
  The kernel's result is the reference's, and the certificate's claim.

  On a device whose float arguments are finite entry by entry, every entry of every float argument is a real. The
  contents the kernel's program leaves in its result array are one layer, in the reciprocal-and-difference spelling,
  applied to the first such layer's output; on real arguments that is the reference's result, whose layers use the
  quotient and the mean squared deviation. The two spellings of the first layer's output meet by unfolding their names.
-/
import proofs.«131858_j34050500722842_2_alg».proof.Proof.Claims
import proofs.«131858_j34050500722842_2_alg».proof.Proof.Finite
import proofs.«131858_j34050500722842_2_alg».proof.Proof.Net
import proofs.«131858_j34050500722842_2_alg».proof.Proof.KValue

noncomputable section

namespace Cert.Proof.Final

open Idealize.ShloMosaic Idealize.ShloMosaic.TcCoe Idealize.SL.Sem

/-- The contents the kernel's program leaves in its result array are the reference's result, on finite arguments. -/
theorem kernel_value : Cert.Proof.Claims.KernelValue := by
  intro m ρ c h
  obtain ⟨r0, r2, r3, r4, r5, r6, r7, r8, r9, r10, r11, r12, r13, r14, r15, r16, r17, r18, r19⟩ :=
    Cert.Finite.finite_of_pre _ _ _ _ _ _ _ _ _ _ _ _ _ _ _ _ _ _ _ _ h
  refine (Cert.KernelIdeal.Hand.W8_out m ρ c).trans ?_
  exact Cert.Net.net_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      r0 r2 r3 r4 r5 r6 r7 r8 r9 r10 r11 r12 r13 r14 r15 r16 r17 r18 r19

/-- The certificate's claim. -/
theorem claim : Cert.Claim := Cert.Proof.Claims.claim_of kernel_value

end Cert.Proof.Final

end
-- ==== Proof.lean ====
/-
  A two-layer graph network: the kernel's program against the reference, over the extended reals.

  A layer takes node features X [100000, 128] and the edge list [2, 1600000]. For each node it sums the feature rows of
  the sources of the edges ending there (S) and counts those edges (cnt); it forms the neighbour mean A, the two linear
  maps Y = A · Wl + bl + X · Wr, a two-layer side path, and
      max((Y - mean Y) · rsqrt(var Y + eps) · g + beta + side, 0),
  with the mean and the variance taken down each of the 128 columns over the 100000 rows. The network is the layer applied
  twice, the second time to the first's output, with its own weights.

  The kernel's program forms A as S times the reciprocal of max(cnt, 1) and the variance as
  max(mean(Y²) - mean(Y)², 0); the reference forms A as the quotient S / max(cnt, 1) and the variance as
  mean((Y - mean Y)²). Over the extended reals, when every entry of every float argument is finite, the two results are
  equal entry by entry: the product with the reciprocal of a nonzero real is the quotient by it, and over the reals
      (∑ y²) / N - m² = (∑ (y - m)²) / N    where  m = (∑ y) / N,
  a sum of squares over N, so nonnegative, and the clamp at zero is the identity. Every intermediate entry stays real, so
  the argument applies to both layers. Beside that equation the claim states that each of the three programs runs to the
  end without a fault and leaves its arguments unchanged, and that reading the kernel's program over the extended reals
  rewrote no operation.

  Where each part is:
    Spec      the layer entry by entry, in both spellings;
    Algebra   on real entries the two spellings agree, and the layer's output is real;
    Finite    the precondition says every entry of every float argument is a real;
    KTerms, KBridge   the edge list's sources, destinations, counts and neighbour sums: one computation in both programs;
    Net       the reference's result is the reciprocal-and-difference layer applied twice, on real arguments;
    KRun, KChain, KHost, Regions, KValue   the kernel's run, boundary by boundary, down to the contents of its result array;
    Claims    the five claims, given the kernel's result;
    Final     the kernel's result is the reference's, and the claim.
-/
import proofs.«131858_j34050500722842_2_alg».proof.Defs
import proofs.«131858_j34050500722842_2_alg».proof.Proof.Final

noncomputable section

theorem Cert.Proof.claim : Cert.Claim := Cert.Proof.Final.claim

end
